-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x64 : Shape := ⟨2, ![1024, 64]⟩
abbrev S1000 : Shape := ⟨1, ![1000]⟩
abbrev S1000x64 : Shape := ⟨2, ![1000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S1024x64 .f32) (main_arg1 : IVec S1000 32) (main_arg2 : FVec F S1000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1000x64 .f32 := Host.absf main_arg2
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_c_2 : IVec S_ 32 := constantI S_ 32 0#32
  let main_v9 : IVec S1000 32 := broadcastInDim S1000 ![] bcast_S_S1000 main_c_2
  let main_v10 : IVec S1000 1 := cmpi .sge main_arg1 main_v9
  let main_c_3 : IVec S_ 32 := constantI S_ 32 999#32
  let main_v11 : IVec S1000 32 := broadcastInDim S1000 ![] bcast_S_S1000 main_c_3
  let main_v12 : IVec S1000 1 := cmpi .sle main_arg1 main_v11
  let main_v13 : IVec S1000 1 := andi main_v10 main_v12
  let main_c_4 : IVec S_ 1 := constantI S_ 1 1#1
  let main_v14 : IVec S_ 1 := (fun x v => Host.reduce IntOp.andi x v reducesTo_S1000_S_d0 h_S_) main_v13 main_c_4
  let main_v15 : IVec S_ 1 := andi main_v8 main_v14
  main_v15
-- ==== Kernel.lean ====
abbrev S1024x64 : Shape := ⟨2, ![1024, 64]⟩
abbrev S1000 : Shape := ⟨1, ![1000]⟩
abbrev S1000x64 : Shape := ⟨2, ![1000, 64]⟩
abbrev S_ : Shape := ⟨0, ![]⟩
abbrev S1000x128 : Shape := ⟨2, ![1000, 128]⟩
abbrev S40 : Shape := ⟨1, ![40]⟩
abbrev S40x128 : Shape := ⟨2, ![40, 128]⟩
abbrev S1024x1000 : Shape := ⟨2, ![1024, 1000]⟩

abbrev nBuf : Table → Nat
  | .hbm => 8
  | .local .tc .vmem => 3
  | .local .scVector .vmem => 2
  | _ => 0

abbrev bufTy : (tb : Table) → Fin (nBuf tb) → BufTy
  | .hbm, ⟨0, _⟩ => ⟨S1024x64, .f32⟩
  | .hbm, ⟨1, _⟩ => ⟨S1000, .i32⟩
  | .hbm, ⟨2, _⟩ => ⟨S1000x64, .f32⟩
  | .hbm, ⟨3, _⟩ => ⟨S_, .i32⟩
  | .hbm, ⟨4, _⟩ => ⟨S_, .f32⟩
  | .hbm, ⟨5, _⟩ => ⟨S1000x128, .f32⟩
  | .hbm, ⟨6, _⟩ => ⟨S1000x128, .f32⟩
  | .hbm, ⟨7, _⟩ => ⟨S1024x1000, .f32⟩
  | .local .tc .vmem, ⟨0, _⟩ => ⟨S1024x64, .f32⟩
  | .local .tc .vmem, ⟨1, _⟩ => ⟨S1000x128, .f32⟩
  | .local .tc .vmem, ⟨2, _⟩ => ⟨S1024x1000, .f32⟩
  | .local .scVector .vmem, ⟨0, _⟩ => ⟨S40, .i32⟩
  | .local .scVector .vmem, ⟨1, _⟩ => ⟨S40x128, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v0_scv : Ref sig .scVector := ⟨.hbm, 5, rfl⟩
abbrev main_arg1_scv : Ref sig .scVector := ⟨.hbm, 1, rfl⟩
abbrev main_v1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v3 : BitVec 1 := Scalar.cmpi .slt v1 c25_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40_i32 : BitVec 32 := 40#32
  let v2 : BitVec 32 := Scalar.muli v1 c40_i32
  let c0_i32_4_r1 : BitVec 32 := 0#32
  ![v2.toNat, 0]
abbrev grid1 : Pipeline.Grid := .none

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S1000x64_S1000x128_000_0640 : S1000x64.Pads (![0, 0] : Fin 2 → Nat) ![0, 64] ![0, 0] S1000x128
  h_S_ : 0 < S_.numel
  inb_S1000x128_S1000x128_0_0 : ∀ a, (![0, 0] : Fin 2 → Nat) a + S1000x128.size a ≤ S1000x128.size a
  gathers_S1000x128_S40x128 : S1000x128.Gathers 0 S40x128
  inb_S1024x64_S1024x64_0_0 : ∀ a, (![0, 0] : Fin 2 → Nat) a + S1024x64.size a ≤ S1024x64.size a
  h_S1024x64 : 0 < S1024x64.numel
  inb_S1000x128_S1000x64_0_0 : ∀ a, (![0, 0] : Fin 2 → Nat) a + S1000x64.size a ≤ S1000x128.size a
  h_S1000x64 : 0 < S1000x64.numel
  shapeCasts_S1000x64_S1000x64 : S1000x64.ShapeCasts S1000x64
  inb_S1024x1000_S1024x1000_0_0 : ∀ a, (![0, 0] : Fin 2 → Nat) a + S1024x1000.size a ≤ S1024x1000.size a
  h_S1024x1000 : 0 < S1024x1000.numel
  dot_S1024x64_S1000x64_S1024x1000_1_1_0_0_n_n_wf : DotDims.WF S1024x64 S1000x64 S1024x1000 [1] [1] [0] [0] [] []
  hcc0_scratch2 : 0 + S_.numel ≤ 6
  hcc0_scoped0 : 1 + S_.numel ≤ 6
  hcc0_scoped1 : 2 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S40.size a ≤ S1000.size a
  k0_off2_inb : ∀ i : grid0.Coords, ∀ (k0_h1 : k0_cond1 i = 1#1), ∀ a, (k0_off2 i) a + S40x128.size a ≤ S1000x128.size a
  hstage1_0 : ∀ j, (stage1_0 j).IsWhole
  hstage1_1 : ∀ j, (stage1_1 j).IsWhole
  hstage1_2 : ∀ j, (stage1_2 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S1024x64_S1000x64_S1024x1000_1_1_0_0_n_n : DotDims S1024x64 S1000x64 S1024x1000 where
  lhsContracting := [1]
  rhsContracting := [1]
  lhsNonContracting := [0]
  rhsNonContracting := [0]
  lhsBatch := []
  rhsBatch := []
  wf := dot_S1024x64_S1000x64_S1024x1000_1_1_0_0_n_n_wf

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_v1) false false (stage1_1 0) (sem1_1 0) (Memref.isWhole_whole _) (hstage1_1 0)

abbrev win1_2 : Pipeline.Window sig grid1 :=
  Pipeline.Window.whole (Memref.whole main_v2) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x64 : Shape := ⟨2, ![1024, 64]⟩
abbrev S1000 : Shape := ⟨1, ![1000]⟩
abbrev S1000x64 : Shape := ⟨2, ![1000, 64]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1024x1x64 : Shape := ⟨3, ![1024, 1, 64]⟩
abbrev S1x1000x64 : Shape := ⟨3, ![1, 1000, 64]⟩
abbrev S1024x1000x64 : Shape := ⟨3, ![1024, 1000, 64]⟩
abbrev S1024x1000 : Shape := ⟨2, ![1024, 1000]⟩
abbrev S1024x1000x1 : Shape := ⟨3, ![1024, 1000, 1]⟩

abbrev nBuf : Space → Nat
  | .hbm => 35
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1000, .i32⟩
  | .hbm, ⟨2, _⟩ => ⟨S1000x64, .f32⟩
  | .hbm, ⟨3, _⟩ => ⟨S_, .i32⟩
  | .hbm, ⟨4, _⟩ => ⟨S1000, .i32⟩
  | .hbm, ⟨5, _⟩ => ⟨S1000, .i1⟩
  | .hbm, ⟨6, _⟩ => ⟨S_, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S1000x1, .i32⟩
  | .hbm, ⟨11, _⟩ => ⟨S1, .i32⟩
  | .hbm, ⟨12, _⟩ => ⟨S_, .i32⟩
  | .hbm, ⟨13, _⟩ => ⟨S1000x1, .i32⟩
  | .hbm, ⟨14, _⟩ => ⟨S1000x1, .i1⟩
  | .hbm, ⟨15, _⟩ => ⟨S1x1, .i32⟩
  | .hbm, ⟨16, _⟩ => ⟨S1000x1, .i32⟩
  | .hbm, ⟨17, _⟩ => ⟨S1000x1, .i1⟩
  | .hbm, ⟨18, _⟩ => ⟨S1000x1, .i1⟩
  | .hbm, ⟨19, _⟩ => ⟨S_, .i1⟩
  | .hbm, ⟨20, _⟩ => ⟨S1000, .i1⟩
  | .hbm, ⟨21, _⟩ => ⟨S1000x64, .f32⟩
  | .hbm, ⟨22, _⟩ => ⟨S1000x64, .i1⟩
  | .hbm, ⟨23, _⟩ => ⟨S_, .f32⟩
  | .hbm, ⟨24, _⟩ => ⟨S1000x64, .f32⟩
  | .hbm, ⟨25, _⟩ => ⟨S1000x64, .f32⟩
  | .hbm, ⟨26, _⟩ => ⟨S1024x1x64, .f32⟩
  | .hbm, ⟨27, _⟩ => ⟨S1x1000x64, .f32⟩
  | .hbm, ⟨28, _⟩ => ⟨S1024x1000x64, .f32⟩
  | .hbm, ⟨29, _⟩ => ⟨S1024x1000x64, .f32⟩
  | .hbm, ⟨30, _⟩ => ⟨S1024x1000x64, .f32⟩
  | .hbm, ⟨31, _⟩ => ⟨S_, .f32⟩
  | .hbm, ⟨32, _⟩ => ⟨S1024x1000, .f32⟩
  | .hbm, ⟨33, _⟩ => ⟨S1024x1000x1, .f32⟩
  | .hbm, ⟨34, _⟩ => ⟨S1024x1000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x64_0 : S1000.BroadcastsInDim S1000x64 (![0] : Fin 1 → Fin S1000x64.rank)
  bcast_S_S1000x64 : S_.BroadcastsInDim S1000x64 (![] : Fin 0 → Fin S1000x64.rank)
  bcast_S1024x64_S1024x1x64_0_2 : S1024x64.BroadcastsInDim S1024x1x64 (![0, 2] : Fin 2 → Fin S1024x1x64.rank)
  bcast_S1000x64_S1x1000x64_1_2 : S1000x64.BroadcastsInDim S1x1000x64 (![1, 2] : Fin 2 → Fin S1x1000x64.rank)
  bcast_S1x1000x64_S1024x1000x64_0_1_2 : S1x1000x64.BroadcastsInDim S1024x1000x64 (![0, 1, 2] : Fin 3 → Fin S1024x1000x64.rank)
  bcast_S1024x1x64_S1024x1000x64_0_1_2 : S1024x1x64.BroadcastsInDim S1024x1000x64 (![0, 1, 2] : Fin 3 → Fin S1024x1000x64.rank)
  reducesTo_S1024x1000x64_S1024x1000_d2 : S1024x1000x64.ReducesTo [2] S1024x1000
  bcast_S1024x1000_S1024x1000x1_0_1 : S1024x1000.BroadcastsInDim S1024x1000x1 (![0, 1] : Fin 2 → Fin S1024x1000x1.rank)
  shapeCasts_S1024x1000x1_S1024x1000 : S1024x1000x1.ShapeCasts S1024x1000
  gather_S1000x64_S1000x1_S1000x64_1_0_n_n_0_1_164_wf : GatherDims.WF S1000x64 S1000x1 S1000x64 [1] [0] [] [0] [] 1 ![1, 64]

variable [Facts₀]

def gather_S1000x64_S1000x1_S1000x64_1_0_n_n_0_1_164 : GatherDims S1000x64 S1000x1 S1000x64 where
  offsetDims := [1]
  collapsedSliceDims := [0]
  operandBatchingDims := []
  startIndicesBatchingDims := []
  startIndexMap := [0]
  indexVectorDim := 1
  sliceSizes := ![1, 64]
  wf := gather_S1000x64_S1000x1_S1000x64_1_0_n_n_0_1_164_wf

class Facts : Prop extends Facts₀ where

variable [Facts]
-- ==== Proof.Spec.lean ====
/-
  What both programs compute, as one function of the three argument arrays.

  A batch of 1024 feature vectors `x` (64 numbers each), 1000 label words `idx`, and an embedding table `tab` of
  1000 rows of 64 numbers. Entry (b, n) of the result is the inner product of feature vector b with the table row
  that label n names: the sum over the 64 features k of x[b, k] · tab[idx[n], k], on the extended reals. A sum of
  extended reals does not depend on the order or grouping of its terms, so this one expression serves a matrix
  product into a zero accumulator as well as a reduction started from zero.

  A label word is read as a row number by `rowOf`: its value as a natural number, folded into the 1000 rows so that
  the function is total; a word whose value is below 1000 names the row of that value.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1024, 64]⟩
abbrev SI : Shape := ⟨1, ![1000]⟩
abbrev ST : Shape := ⟨2, ![1000, 64]⟩
abbrev SO : Shape := ⟨2, ![1024, 1000]⟩

/-- The table row a label word names: the word's value, folded into the 1000 rows. -/
def rowOf (v : BitVec 32) : Fin 1000 := ⟨v.toNat % 1000, Nat.mod_lt _ (by decide)⟩

/-- A word whose value is below 1000 names the row of that value. -/
theorem rowOf_val_of_lt {v : BitVec 32} (h : v.toNat < 1000) : (rowOf v).val = v.toNat := Nat.mod_eq_of_lt h

/-- Every label word's value is below 1000: each names a row of the table. -/
def InRange (idx : IVec SI 32) : Prop := ∀ j : SI.Idx, (idx j).toNat < 1000

/-- Entry (b, n): the inner product of feature vector b with the table row that label n names. -/
def scores (x : FVec Ideal SX .f32) (idx : IVec SI 32) (tab : FVec Ideal ST .f32) : FVec Ideal SO .f32 :=
  fun i => ∑ k : Fin 64, x (ix2 (i 0) k) * tab (ix2 (rowOf (idx (ix1 (i 1)))) k)

end Cert.Spec

end
-- ==== Proof.PreFacts.lean ====
/-
  What the precondition says of the label words.

  The precondition is a conjunction of three tests, each a conjunction over an array: the feature array is finite,
  the table is finite, and every label word v satisfies 0 ≤ v ≤ 999 read as a signed number. Only the third is used
  here. A 32-bit word that is nonnegative as a signed number reads the same signed and unsigned, so 0 ≤ v ≤ 999
  signed gives that the word's value as a natural number is at most 999: it names one of the 1000 rows.
-/
import proofs.«209817_g38706245271594_cont_8to1_b_1000_24_alg».proof.Pre_input_domain
import proofs.«209817_g38706245271594_cont_8to1_b_1000_24_alg».proof.Proof.Spec
import Idealize.ShloMosaic.Lib.ReduceAll
import Idealize.ShloMosaic.Lib.ValueIdx

namespace Cert.PreFacts

open Idealize.ShloMosaic Idealize.ShloMosaic.ValueIdx

/-- The shape with no axes has one index. -/
instance subsingleton_S_ : Subsingleton Cert.Pre_input_domain.S_.Idx := ⟨fun a b => funext fun d => d.elim0⟩

/-- A word that is between 0 and 999 as a signed number has a value below 1000 as a natural number. -/
theorem toNat_lt_of_signed {v : BitVec 32} (h0 : (0#32 : BitVec 32).toInt ≤ v.toInt) (h1 : v.toInt ≤ (999#32 : BitVec 32).toInt) :
    v.toNat < 1000 := by
  have e0 : (0#32 : BitVec 32).toInt = 0 := by decide
  have e1 : (999#32 : BitVec 32).toInt = 999 := by decide
  rw [e0] at h0
  rw [e1] at h1
  rw [BitVec.toInt_eq_toNat_cond] at h0 h1
  have hv := v.isLt
  split at h0 <;> omega

/-- Under the precondition every label word names a row of the table. -/
theorem inRange_of_pre {F : FTy → Type} [FloatOps F] [Cert.Pre_input_domain.Facts]
    (x : FVec F Cert.Pre_input_domain.S1024x64 .f32) (idx : IVec Cert.Pre_input_domain.S1000 32)
    (tab : FVec F Cert.Pre_input_domain.S1000x64 .f32)
    (h : Cert.Pre_input_domain.fn (F := F) x idx tab = fun _ => 1#1) : Cert.Spec.InRange idx := by
  intro j
  have h0 := congrFun h ix0
  dsimp only [Cert.Pre_input_domain.fn] at h0
  obtain ⟨-, h3⟩ := IntOp.andi_eq_one.1 h0
  have hj := Host.reduce_andi_all _ _ _ _ _ h3 j
  obtain ⟨hge, hle⟩ := IntOp.andi_eq_one.1 hj
  exact toNat_lt_of_signed (IntOp.cmpi_sge.1 hge) (IntOp.cmpi_sle.1 hle)

end Cert.PreFacts
-- ==== Proof.RefRun.lean ====
/-
  The reference program's run, read back.

  The reference gathers the table rows the label words name (an outlined `take`: a word below zero has 1000 added,
  the row is gathered, and a row whose word falls outside 0 … 999 is replaced by a fill value), lays the features out
  as [1024, 1, 64] and the gathered rows as [1, 1000, 64], multiplies them over [1024, 1000, 64], sums the last axis
  from zero, and drops the unit axis it kept. Here its thirty-three operations are listed in order — the outlined
  functions' operations at their call sites —, @main is shown to be that straight line, and every weakly fair
  execution is shown to end with the result buffer at `composed`, the operations' composed pure term of the three
  argument arrays, the arguments unchanged.
-/
import proofs.«209817_g38706245271594_cont_8to1_b_1000_24_alg».proof.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

/-! ## The composed term -/

/-- The label words after the wrap: a word below zero (signed) has 1000 added. -/
def wrapped (idx : IVec S1000 32) : IVec S1000 32 :=
  select (cmpi .slt idx (broadcastInDim S1000 ![] bcast_S_S1000 (constantI S_ 32 0#32)))
    (addi idx (broadcastInDim S1000 ![] bcast_S_S1000 (constantI S_ 32 1000#32))) idx

/-- The wrapped words as a column of one-word index vectors. -/
def column (idx : IVec S1000 32) : IVec S1000x1 32 :=
  broadcastInDim S1000x1 ![0] bcast_S1000_S1000x1_0 (wrapped idx)

/-- Per label, whether its wrapped word lies in 0 … 999 (signed). -/
def inBounds (idx : IVec S1000 32) : IVec S1000 1 :=
  Host.reduce IntOp.andi
    (andi (cmpi .sge (column idx) (broadcastInDim S1000x1 ![] bcast_S_S1000x1 (constantI S_ 32 0#32)))
      (cmpi .sle (column idx)
        (broadcastInDim S1000x1 ![0, 1] bcast_S1x1_S1000x1_0_1 (broadcastInDim S1x1 ![1] bcast_S1_S1x1_1 (constantI S1 32 999#32)))))
    (constantI S_ 1 1#1) reducesTo_S1000x1_S1000_d1 h_S_

/-- The rows taken from the table: the gathered row where the word is in bounds, the fill value elsewhere. -/
def taken (idx : IVec S1000 32) (tab : FVec F S1000x64 .f32) : FVec F S1000x64 .f32 :=
  select (broadcastInDim S1000x64 ![0] bcast_S1000_S1000x64_0 (inBounds idx))
    (Host.gather gather_S1000x64_S1000x1_S1000x64_1_0_n_n_0_1_164 tab (column idx))
    (broadcastInDim S1000x64 ![] bcast_S_S1000x64 (constant S_ .f32 0x7FC00000#32))

/-- The products over [1024, 1000, 64]: feature k of vector b times entry k of the row taken for label n. -/
def products (x : FVec F S1024x64 .f32) (idx : IVec S1000 32) (tab : FVec F S1000x64 .f32) : FVec F S1024x1000x64 .f32 :=
  mulf
    (broadcastInDim S1024x1000x64 ![0, 1, 2] bcast_S1024x1x64_S1024x1000x64_0_1_2
      (broadcastInDim S1024x1x64 ![0, 2] bcast_S1024x64_S1024x1x64_0_2 x))
    (broadcastInDim S1024x1000x64 ![0, 1, 2] bcast_S1x1000x64_S1024x1000x64_0_1_2
      (broadcastInDim S1x1000x64 ![1, 2] bcast_S1000x64_S1x1000x64_1_2 (taken idx tab)))

/-- The result: the products summed over the last axis from zero, a unit axis kept and then dropped. -/
def composed (x : FVec F S1024x64 .f32) (idx : IVec S1000 32) (tab : FVec F S1000x64 .f32) : FVec F S1024x1000 .f32 :=
  shapeCast S1024x1000
    (broadcastInDim S1024x1000x1 ![0, 1] bcast_S1024x1000_S1024x1000x1_0_1
      (Host.reduceAdd (products x idx tab) (constant S_ .f32 0x00000000#32) reducesTo_S1024x1000x64_S1024x1000_d2 h_S_))
    shapeCasts_S1024x1000x1_S1024x1000

/-! ## The operations, in order -/

/-- @main's thirty-three operations: the twenty-three of the outlined `take` (the select of the `where` it calls
    among them, seventh), then @main's own ten. -/
abbrev ops : List (HloOp τ sig (Elt F)) :=
  [ TRef.nullary main_call0.c (constantI S_ 32 0#32),
    TRef.unary main_call0.c main_call0.v0 (broadcastInDim S1000 ![] bcast_S_S1000),
    TRef.binary (.of main_arg1) main_call0.v0 main_call0.v1 (cmpi .slt),
    TRef.nullary main_call0.c_0 (constantI S_ 32 1000#32),
    TRef.unary main_call0.c_0 main_call0.v2 (broadcastInDim S1000 ![] bcast_S_S1000),
    TRef.binary (.of main_arg1) main_call0.v2 main_call0.v3 addi,
    TRef.ternary main_call0.v1 main_call0.v3 (.of main_arg1) main_call0.call0.v0 select,
    TRef.unary main_call0.call0.v0 main_call0.v5 (broadcastInDim S1000x1 ![0] bcast_S1000_S1000x1_0),
    TRef.nullary main_call0.c_1 (constantI S1 32 999#32),
    TRef.nullary main_call0.c_2 (constantI S_ 32 0#32),
    TRef.unary main_call0.c_2 main_call0.v6 (broadcastInDim S1000x1 ![] bcast_S_S1000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000x1 ![0, 1] bcast_S1x1_S1000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000x1_S1000_d1 h_S_),
    TRef.binary (.of main_arg2) main_call0.v5 main_call0.v13 (fun x i => Host.gather gather_S1000x64_S1000x1_S1000x64_1_0_n_n_0_1_164 x i),
    TRef.unary main_call0.v12 main_call0.v14 (broadcastInDim S1000x64 ![0] bcast_S1000_S1000x64_0),
    TRef.nullary main_call0.cst (constant S_ .f32 0x7FC00000#32),
    TRef.unary main_call0.cst main_call0.v15 (broadcastInDim S1000x64 ![] bcast_S_S1000x64),
    TRef.ternary main_call0.v14 main_call0.v13 main_call0.v15 main_call0.v16 select,
    unary main_arg0 main_v1 (broadcastInDim S1024x1x64 ![0, 2] bcast_S1024x64_S1024x1x64_0_2 : (⟨S1024x64, .f32⟩ : BufTy).Contents (Elt F) → (⟨S1024x1x64, .f32⟩ : BufTy).Contents (Elt F)),
    unary main_v0 main_v2 (broadcastInDim S1x1000x64 ![1, 2] bcast_S1000x64_S1x1000x64_1_2 : (⟨S1000x64, .f32⟩ : BufTy).Contents (Elt F) → (⟨S1x1000x64, .f32⟩ : BufTy).Contents (Elt F)),
    unary main_v2 main_v3 (broadcastInDim S1024x1000x64 ![0, 1, 2] bcast_S1x1000x64_S1024x1000x64_0_1_2 : (⟨S1x1000x64, .f32⟩ : BufTy).Contents (Elt F) → (⟨S1024x1000x64, .f32⟩ : BufTy).Contents (Elt F)),
    unary main_v1 main_v4 (broadcastInDim S1024x1000x64 ![0, 1, 2] bcast_S1024x1x64_S1024x1000x64_0_1_2 : (⟨S1024x1x64, .f32⟩ : BufTy).Contents (Elt F) → (⟨S1024x1000x64, .f32⟩ : BufTy).Contents (Elt F)),
    binary main_v4 main_v3 main_v5 (mulf : (⟨S1024x1000x64, .f32⟩ : BufTy).Contents (Elt F) → (⟨S1024x1000x64, .f32⟩ : BufTy).Contents (Elt F) → (⟨S1024x1000x64, .f32⟩ : BufTy).Contents (Elt F)),
    nullary main_cst (constant S_ .f32 0x00000000#32),
    binary main_v5 main_cst main_v6 ((fun x v => Host.reduceAdd x v reducesTo_S1024x1000x64_S1024x1000_d2 h_S_) : (⟨S1024x1000x64, .f32⟩ : BufTy).Contents (Elt F) → (⟨S_, .f32⟩ : BufTy).Contents (Elt F) → (⟨S1024x1000, .f32⟩ : BufTy).Contents (Elt F)),
    unary main_v6 main_v7 (broadcastInDim S1024x1000x1 ![0, 1] bcast_S1024x1000_S1024x1000x1_0_1 : (⟨S1024x1000, .f32⟩ : BufTy).Contents (Elt F) → (⟨S1024x1000x1, .f32⟩ : BufTy).Contents (Elt F)),
    reshape main_v7 main_v8 rfl shapeCasts_S1024x1000x1_S1024x1000 ]

/-- @main is that straight line: the outlined functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., unary_bufs_sub .., unary_bufs_sub .., binary_bufs_sub .., nullary_bufs_sub ..,
    binary_bufs_sub .., unary_bufs_sub .., reshape_bufs_sub ..⟩

/-! ## The fold of the operations at the result and at the arguments -/

attribute [local irreducible] Host.reduce Host.gather Host.reduceAdd in
/-- The fold at the result buffer is `composed` of the arguments' contents: each operation's result at its own buffer
    is its function's value, and at any other buffer what was there. -/
theorem result_eq (V : Valuation τ sig (Elt F)) :
    after ops V (main_v8 : DevRef τ sig)
      = composed (F := F) (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

/-! ## The run -/

/-- On every device, for any float values, from any memory with zero counters: every weakly fair execution of @main
    terminates, nothing faulting, with the result buffer at `composed` of the three arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = composed (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v8).trans (result_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.RefRun

end
-- ==== Proof.LibGatherRows.lean ====
/-
  A lemma file for `jnp.take(table, idx, axis=0)` references: the `stablehlo.gather` that `take` of a rank-2 table by an
  index column lowers to — offset axis 1, axis 0 collapsed, the start index naming axis 0, slices of one row — read at
  a result index `(p, c)` is the table at row `idx[p, 0]` (read signed, clamped into `[0, N − 1]`) and column `c`.
  Stated of any dimension numbers with those fields, so a printed `GatherDims` literal takes it with six `rfl`s.
-/
import Idealize.ShloMosaic.PureOps
import Idealize.ShloMosaic.Lib.ValueIdx

namespace Cert.LibGatherRows

open Idealize.ShloMosaic Idealize.ShloMosaic.ValueIdx

variable {α : Type}

/-- The row gather read at `(p, c)`: the table at the clamped start index's row, column `c`. -/
theorem gather_rows_apply {N C R w : Nat} (hN : 0 < N) (d : GatherDims ⟨2, ![N, C]⟩ ⟨2, ![R, 1]⟩ ⟨2, ![R, C]⟩)
    (hod : d.offsetDims = [1]) (hcs : d.collapsedSliceDims = [0]) (hob : d.operandBatchingDims = [])
    (hsim : d.startIndexMap = [0]) (hiv : d.indexVectorDim = 1) (hss : d.sliceSizes = ![1, C])
    (x : (⟨2, ![N, C]⟩ : Shape).Idx → α) (idx : IVec ⟨2, ![R, 1]⟩ w) (y : (⟨2, ![R, C]⟩ : Shape).Idx) :
    Host.gather d x idx y
      = x (ix2 ⟨min (idx (ix2 ⟨(y 0).val, idx2_lt0 y⟩ ⟨0, Nat.one_pos⟩)).toInt.toNat (N - 1), by omega⟩ ⟨(y 1).val, idx2_lt1 y⟩) := by
  obtain ⟨od, cs, ob, sb, sim, ivd, ss, wf⟩ := d
  simp only at hod hcs hob hsim hiv hss
  subst hod hcs hob hsim hiv hss
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun z => (idx z).toInt.toNat) ?_) rfl
    funext b; refine Fin.ext ?_
    match b with
    | ⟨0, _⟩ => rfl
    | ⟨1, _⟩ => rfl
  | ⟨1, _⟩ =>
    show GatherDims.start _ y idx 1 + GatherDims.batchCoord _ y 1 + GatherDims.offCoord _ y 1 = _
    rw [GatherDims.batchCoord_eq_zero _ _ _ List.not_mem_nil]
    unfold GatherDims.start
    rw [dif_neg (by simp)]
    simp only [Nat.zero_add]
    unfold GatherDims.offCoord
    rw [dif_pos ((GatherDims.mem_sKept _ _).mpr ⟨show (1 : Fin 2) ∉ [(0 : Fin 2)] by decide, List.not_mem_nil⟩)]
    rfl

end Cert.LibGatherRows
-- ==== Proof.RefValue.lean ====
/-
  The reference's composed term, read index by index at the extended reals, is the specification.

  Under the hypothesis that every label word's value is below 1000, both guards of the outlined `take` are inert: no
  word is negative, so the wrap leaves it as it is, and every word lies in 0 … 999, so the in-bounds test is 1 at every
  label and the select keeps the gathered row; the gather's clamp of the row number into 0 … 999 is the identity for the
  same reason. Entry (b, n) of the result is then zero plus the sum over the 64 features k of
  x[b, k] · tab[idx[n], k]: the two broadcasts lay the factors out over [1024, 1000, 64], the reduction sums the last
  axis from the zero word, and the kept unit axis and the reshape that drops it do not move an element.
-/
import proofs.«209817_g38706245271594_cont_8to1_b_1000_24_alg».proof.Proof.RefRun
import proofs.«209817_g38706245271594_cont_8to1_b_1000_24_alg».proof.Proof.Spec
import proofs.«209817_g38706245271594_cont_8to1_b_1000_24_alg».proof.Proof.LibGatherRows
import Idealize.ShloMosaic.Lib.IdealHost
import Idealize.ShloMosaic.Lib.Pipeline.Value
import Idealize.ShloMosaic.Lib.ReduceAll

noncomputable section

open scoped BigOperators

namespace Cert.RefRun

open Cert.ReferenceIdeal Idealize.ShloMosaic Idealize.ShloMosaic.ValueIdx

variable [Cert.ReferenceIdeal.Facts]
open Cert.ReferenceIdeal.Facts₀

/-! ## A conjunction over an array that is 1 everywhere -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduce by `and` from 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun i _ => hx i

/-! ## The guards of `take`, inert on words below 1000 -/

/-- A word whose value is below 1000 reads the same signed. -/
theorem toInt_of_lt {v : BitVec 32} (h : v.toNat < 1000) : v.toInt = (v.toNat : Int) :=
  BitVec.toInt_eq_toNat_of_lt (by omega)

/-- The wrap leaves a word below 1000 as it is: it is not negative. -/
theorem wrapped_apply (idx : IVec S1000 32) (h : Cert.Spec.InRange idx) (j : S1000.Idx) : wrapped idx j = idx j := by
  unfold wrapped
  rw [select_apply]
  have e : cmpi .slt idx (broadcastInDim S1000 ![] bcast_S_S1000 (constantI S_ 32 0#32)) j = 0#1 := by
    refine eq_zero_of_ne_one fun h1 => ?_
    have h2 : (idx j).toInt < (0#32 : BitVec 32).toInt := IntOp.cmpi_slt.1 h1
    rw [toInt_of_lt (h j), show (0#32 : BitVec 32).toInt = 0 from by decide] at h2
    omega
  rw [e, select_zero]

/-- The index column at a row is that label's word. -/
theorem column_apply (idx : IVec S1000 32) (h : Cert.Spec.InRange idx) (p : Fin 1000) (q : Fin 1) :
    column idx (ix2 p q) = idx (ix1 p) := by
  unfold column
  exact (broadcastInDim_apply _ _ (wrapped idx) (ix2 p q) (ix1 p) (fun a => by match a with | ⟨0, _⟩ => rfl)).trans
    (wrapped_apply idx h _)

/-- Every label is in bounds. -/
theorem inBounds_apply (idx : IVec S1000 32) (h : Cert.Spec.InRange idx) (j : S1000.Idx) : inBounds idx j = 1#1 := by
  unfold inBounds
  refine reduce_andi_one _ _ _ _ (fun i => ?_) rfl j
  obtain ⟨p, q, rfl⟩ : ∃ (p : Fin 1000) (q : Fin 1), i = ix2 p q := ⟨i 0, i 1, eq_ix2 i⟩
  have hlt := h (ix1 p)
  refine IntOp.andi_eq_one.2 ⟨?_, ?_⟩
  · show IntOp.cmpi .sge (column idx (ix2 p q)) (0#32) = 1#1
    rw [IntOp.cmpi_sge, column_apply idx h, toInt_of_lt hlt, show (0#32 : BitVec 32).toInt = 0 from by decide]
    omega
  · show IntOp.cmpi .sle (column idx (ix2 p q)) (999#32) = 1#1
    rw [IntOp.cmpi_sle, column_apply idx h, toInt_of_lt hlt, show (999#32 : BitVec 32).toInt = 999 from by decide]
    omega

/-! ## The rows taken, the products, the result -/

/-- The row taken for label n is the table row its word names. -/
theorem taken_apply (idx : IVec S1000 32) (tab : FVec Ideal S1000x64 .f32) (h : Cert.Spec.InRange idx) (n : Fin 1000) (k : Fin 64) :
    taken idx tab (ix2 n k) = tab (ix2 (Cert.Spec.rowOf (idx (ix1 n))) k) := by
  unfold taken
  rw [select_apply]
  have hb : broadcastInDim S1000x64 ![0] bcast_S1000_S1000x64_0 (inBounds idx) (ix2 n k) = 1#1 := by
    rw [broadcastInDim_apply _ _ _ _ (ix1 n) (fun a => by match a with | ⟨0, _⟩ => rfl)]
    exact inBounds_apply idx h _
  have hlt := h (ix1 n)
  rw [hb, select_one, Cert.LibGatherRows.gather_rows_apply (by decide) _ rfl rfl rfl rfl rfl rfl]
  refine congrArg tab (congrArg₂ ix2 (Fin.ext ?_) (Fin.ext rfl))
  show min (column idx (ix2 n ⟨0, Nat.one_pos⟩)).toInt.toNat (1000 - 1) = (Cert.Spec.rowOf (idx (ix1 n))).val
  rw [column_apply idx h, toInt_of_lt hlt, Int.toNat_natCast, Cert.Spec.rowOf_val_of_lt hlt]
  exact Nat.min_eq_left (by omega)

/-- A product at (b, n, k): feature k of vector b times entry k of the row label n names. -/
theorem products_apply (x : FVec Ideal S1024x64 .f32) (idx : IVec S1000 32) (tab : FVec Ideal S1000x64 .f32)
    (h : Cert.Spec.InRange idx) (b : Fin 1024) (n : Fin 1000) (k : Fin 64) :
    products x idx tab (ix3 b n k) = x (ix2 b k) * tab (ix2 (Cert.Spec.rowOf (idx (ix1 n))) k) := by
  unfold products
  rw [mulf_apply]
  have e1 : broadcastInDim S1024x1000x64 ![0, 1, 2] bcast_S1024x1x64_S1024x1000x64_0_1_2
      (broadcastInDim S1024x1x64 ![0, 2] bcast_S1024x64_S1024x1x64_0_2 x) (ix3 b n k) = x (ix2 b k) :=
    (broadcastInDim_apply _ _ _ _ (ix3 b ⟨0, Nat.one_pos⟩ k)
      (fun a => by match a with | ⟨0, _⟩ => rfl | ⟨1, _⟩ => rfl | ⟨2, _⟩ => rfl)).trans
    (broadcastInDim_apply _ _ x _ (ix2 b k) (fun a => by match a with | ⟨0, _⟩ => rfl | ⟨1, _⟩ => rfl))
  have e2 : broadcastInDim S1024x1000x64 ![0, 1, 2] bcast_S1x1000x64_S1024x1000x64_0_1_2
      (broadcastInDim S1x1000x64 ![1, 2] bcast_S1000x64_S1x1000x64_1_2 (taken idx tab)) (ix3 b n k) = taken idx tab (ix2 n k) :=
    (broadcastInDim_apply _ _ _ _ (ix3 ⟨0, Nat.one_pos⟩ n k)
      (fun a => by match a with | ⟨0, _⟩ => rfl | ⟨1, _⟩ => rfl | ⟨2, _⟩ => rfl)).trans
    (broadcastInDim_apply _ _ (taken idx tab) _ (ix2 n k) (fun a => by match a with | ⟨0, _⟩ => rfl | ⟨1, _⟩ => rfl))
  rw [e1, e2, taken_apply idx tab h]

/-- The composed term is the specification. -/
theorem composed_eq_scores (x : FVec Ideal S1024x64 .f32) (idx : IVec S1000 32) (tab : FVec Ideal S1000x64 .f32)
    (h : Cert.Spec.InRange idx) : composed (F := Ideal) x idx tab = Cert.Spec.scores x idx tab := by
  funext i
  obtain ⟨b, n, rfl⟩ : ∃ (b : Fin 1024) (n : Fin 1000), i = ix2 b n := ⟨i 0, i 1, eq_ix2 i⟩
  have hR : S1024x1000x64.Reduces [2] S1024x1000 := by decide
  unfold composed
  rw [shapeCast_apply _ _ (ix2 b n) (ix3 b n ⟨0, Nat.one_pos⟩)
      (by rw [Shape.rowMajor_val_three, Shape.rowMajor_val_two]; show (b.val * 1000 + n.val) * 1 + 0 = b.val * 1000 + n.val; omega),
    broadcastInDim_apply _ _ _ _ (ix2 b n) (fun a => by match a with | ⟨0, _⟩ => rfl | ⟨1, _⟩ => rfl),
    hostReduceAdd_apply, Ideal.hostReduceAdd_single _ hR]
  show Ideal.ofBits .f32 0x00000000#32 + _ = _
  rw [Ideal.ofBits_zero_f32, zero_add]
  unfold Cert.Spec.scores
  refine Finset.sum_congr rfl fun k _ => ?_
  have hl : hR.lift (ix2 b n) k = ix3 b n k :=
    funext fun a => Fin.ext (by match a with | ⟨0, _⟩ => rfl | ⟨1, _⟩ => rfl | ⟨2, _⟩ => rfl)
  rw [hl]
  exact products_apply x idx tab h b n k

end Cert.RefRun

end
-- ==== Proof.RefScores.lean ====
/-
  The reference's run under the precondition: it ends with the specification in its result buffer.

  The precondition gives that every label word's value is below 1000; under that the reference's composed term is the
  specification, and the run ends with the result buffer at that term and the three argument arrays unchanged.
-/
import proofs.«209817_g38706245271594_cont_8to1_b_1000_24_alg».proof.Defs
import proofs.«209817_g38706245271594_cont_8to1_b_1000_24_alg».proof.Proof.RefValue
import proofs.«209817_g38706245271594_cont_8to1_b_1000_24_alg».proof.Proof.PreFacts

noncomputable section

namespace Cert.RefRun

open Idealize.ShloMosaic Idealize.SL.Sem

variable [Cert.ReferenceIdeal.Facts] [Cert.Pre_input_domain.Facts]

/-- Under the precondition every weakly fair execution of the reference terminates, nothing faulting, with the result
    buffer at the specification of the three arguments' launch contents and the arguments unchanged. -/
theorem run_scores (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v8)
          = Cert.Spec.scores (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans (composed_eq_scores _ _ _ (Cert.PreFacts.inRange_of_pre _ _ _ (hpre c))), (h c).2⟩)
    (run (F := Ideal) m g)

end Cert.RefRun

end
-- ==== Proof.KI_Common.lean ====
/-
  What the parts of this program's proof share.

  The program: on the TensorCore, the embedding table (1000 rows of 64) is padded with zeros to 128 columns; the two
  SparseCores' 32 vector subcores then gather, 40 rows each and 25 of them at work, the padded table's rows named by
  the 1000 label words into a second 1000 × 128 array; last, the TensorCore multiplies the 1024 × 64 feature array with
  the first 64 columns of the gathered array, contracting the features.

  Vector subcore s of SparseCore c has the number w = 2 s + c. For w < 25 it owns rows 40 w … 40 w + 39 of the label
  list and of the gathered array: it copies its 40 labels into its own memory, gathers the 40 table rows they name,
  and copies those rows out. The 25 blocks of 40 rows are pairwise disjoint and together are the 1000 rows, so the
  subcores never meet on the label list or on the result; the padded table all of them read, each under a read
  share of its own.

  Stated here: the contents every array holds at each stage (the padded table `TPad`; the gathered array `Gat`,
  row n of which is row `idx[n]` of the padded table); the resource algebra (the launch handshakes' rounds, the
  TensorCore pipeline's staging cells' rounds, and the counters the subcores' own copies complete on); and what each
  handshake carries (`P`).
-/
import proofs.«209817_g38706245271594_cont_8to1_b_1000_24_alg».proof.Defs
import proofs.«209817_g38706245271594_cont_8to1_b_1000_24_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«209817_g38706245271594_cont_8to1_b_1000_24_alg».proof.Proof.Gen.KernelIdeal
import proofs.«209817_g38706245271594_cont_8to1_b_1000_24_alg».proof.Proof.Gen.KernelIdeal.Skeleton
import proofs.«209817_g38706245271594_cont_8to1_b_1000_24_alg».proof.Proof.Gen.KernelIdeal.Launch
import proofs.«209817_g38706245271594_cont_8to1_b_1000_24_alg».proof.Proof.Gen.KernelIdeal.Points

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipeline's staging cells' rounds library: the left factor of the right factor. The counters are the right of the
    right, found by instance. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The launch memory, the arrays, and what they hold -/

variable (m : (ℓ : Loc nD τ sig) → Buf (Elt F) ℓ) (ρ : Dev nD → PrngReg)

/-- The features `x`, the labels `idx`, the table `tab` (the arguments); the scalar zero as an integer `z` and as a
    float `zf`; the padded table `t`; the gathered rows `o`; the result `r`. As locations of device `d`. -/
abbrev xLoc (d : Dev nD) : Loc nD τ sig := (SparseCore.T d).loc main_arg0
abbrev iLoc (d : Dev nD) : Loc nD τ sig := (SparseCore.T d).loc main_arg1
abbrev aLoc (d : Dev nD) : Loc nD τ sig := (SparseCore.T d).loc main_arg2
abbrev zLoc (d : Dev nD) : Loc nD τ sig := (SparseCore.T d).loc main_c
abbrev zfLoc (d : Dev nD) : Loc nD τ sig := (SparseCore.T d).loc main_call0_v0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-- The integer zero, the float it converts to, and the table padded with it to 128 columns. -/
abbrev Zi (d : Dev nD) : Buf (Elt F) (zLoc d) := (constantI S_ 32 0#32 : IVec S_ 32)
abbrev Zf (d : Dev nD) : Buf (Elt F) (zfLoc d) := (sitofp .f32 (constantI S_ 32 0#32 : IVec S_ 32) : FVec F S_ .f32)
abbrev TPad (d : Dev nD) : Buf (Elt F) (tLoc d) :=
  (pad S1000x128 ![0, 0] ![0, 64] ![0, 0] (m (aLoc d) : FVec F S1000x64 .f32) (sitofp .f32 (constantI S_ 32 0#32 : IVec S_ 32) : FVec F S_ .f32)
    Facts₀.pads_S1000x64_S1000x128_000_0640 Facts₀.h_S_ : FVec F S1000x128 .f32)

/-- The gathered array: row n is the padded table's row named by label n. -/
def Gat (d : Dev nD) : Buf (Elt F) (oLoc d) :=
  (fun y => (TPad m d : FVec F S1000x128 .f32) (ix2 (Cert.Spec.rowOf ((m (iLoc d) : IVec S1000 32) (ix1 (y 0)))) (y 1)) : FVec F S1000x128 .f32)

/-- Every label names a row of the table: what the proof asks of the launch memory (the precondition gives it). -/
def PreOK : Prop := ∀ d : Dev nD, Cert.Spec.InRange (m (iLoc d) : IVec S1000 32)

/-! ## The subcores' blocks of rows -/

/-- The arrays whole, as a vector subcore names them. -/
abbrev tV : Memref sig .scVector .hbm S1000x128 .f32 := Memref.whole main_v0_scv
abbrev iV : Memref sig .scVector .hbm S1000 .i32 := Memref.whole main_arg1_scv
abbrev oV : Memref sig .scVector .hbm S1000x128 .f32 := Memref.whole main_v1_scv
abbrev sI : Memref sig .scVector .vmem S40 .i32 := Memref.whole cc0_scratch0
abbrev sR : Memref sig .scVector .vmem S40x128 .f32 := Memref.whole cc0_scratch1

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Its 40 labels and its 40 rows of the gathered array, as the kernel slices them (at a point where it works). -/
abbrev iRect (L : grid0.Coords) (h : k0_cond1 L = 1#1) : Rect S1000 := Rect.unit (s := S1000) (k0_off1 L) S40.size (Facts₀.k0_off1_inb L h)
abbrev oRect (L : grid0.Coords) (h : k0_cond1 L = 1#1) : Rect S1000x128 := Rect.unit (s := S1000x128) (k0_off2 L) S40x128.size (Facts₀.k0_off2_inb L h)
abbrev iSl (L : grid0.Coords) (h : k0_cond1 L = 1#1) : Memref sig .scVector .hbm S40 .i32 := (iV).slice (iRect L h) (fun _ => rfl)
abbrev oSl (L : grid0.Coords) (h : k0_cond1 L = 1#1) : Memref sig .scVector .hbm S40x128 .f32 := (oV).slice (oRect L h) (fun _ => rfl)

/-- The elements of the label list and of the gathered array that the subcore at `L` owns: its slices' own sets where it
    works, nothing where it does not. -/
def iSet (L : grid0.Coords) : Finset S1000.Idx := if h : k0_cond1 L = 1#1 then (iSl L h).view.set else ∅
def oSet (L : grid0.Coords) : Finset S1000x128.Idx := if h : k0_cond1 L = 1#1 then (oSl L h).view.set else ∅

theorem iSet_pos (L : grid0.Coords) (h : k0_cond1 L = 1#1) : iSet L = (iSl L h).view.set := dif_pos h
theorem oSet_pos (L : grid0.Coords) (h : k0_cond1 L = 1#1) : oSet L = (oSl L h).view.set := dif_pos h
theorem iSet_neg (L : grid0.Coords) (h : ¬ k0_cond1 L = 1#1) : iSet L = ∅ := dif_neg h
theorem oSet_neg (L : grid0.Coords) (h : ¬ k0_cond1 L = 1#1) : oSet L = ∅ := dif_neg h

/-- The grid point of task `i` of SparseCore `c` of the one call. -/
abbrev LV (c : Fin 2) (i : Fin 16) : grid0.Coords := coordsV c i

/-- The read share of the padded table that SparseCore `c` is handed, and of it the one task `i` is handed. -/
abbrev qC (c : Fin 2) : PosShare TreeShare := Transfers.shareTok fullShare 2 c
abbrev qT (c : Fin 2) (i : Fin 16) : PosShare TreeShare := Transfers.shareTok (qC c) 16 i

/-! ## What the handshakes carry -/

/-- A task's share of the three arrays: its labels and its rows of the gathered array outright (at contents `fo`), the
    padded table whole under its read share. -/
abbrev taskRes (d : Dev nD) (c : Fin 2) (i : Fin 16) (fo : Buf (Elt F) (oLoc d)) : sProp 𝕄 :=
  iprop((iLoc d ↦[iSet (LV c i)]{fullShare} m (iLoc d)) ∗ (tLoc d ↦{qT c i} TPad m d) ∗ (oLoc d ↦[oSet (LV c i)]{fullShare} fo))

/-- The rows SparseCore `c`'s tasks own between them. -/
def iSetC (c : Fin 2) : Finset S1000.Idx := (Finset.univ : Finset (Fin 16)).biUnion fun i => iSet (LV c i)
def oSetC (c : Fin 2) : Finset S1000x128.Idx := (Finset.univ : Finset (Fin 16)).biUnion fun i => oSet (LV c i)

/-- A SparseCore's share: its tasks' labels and rows, the padded table whole under its read share. -/
abbrev coreRes (d : Dev nD) (c : Fin 2) (fo : Buf (Elt F) (oLoc d)) : sProp 𝕄 :=
  iprop((iLoc d ↦[iSetC c]{fullShare} m (iLoc d)) ∗ (tLoc d ↦{qC c} TPad m d) ∗ (oLoc d ↦[oSetC c]{fullShare} fo))

/-- The one call takes, per SparseCore, its tasks' labels and rows and a read share of the padded table, and brings them
    back, the rows at the gathered contents; the subcores' own copies complete on counters, so the kernel's proof
    consumes nothing of the launch's. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (Gat m d)
  go := fun q d c i => match q with | 0 => taskRes m d (Fin.cast nCore_zero c) (Fin.cast nSub_zero i) (m (oLoc d))
  td := fun q d c i => match q with | 0 => taskRes m d (Fin.cast nCore_zero c) (Fin.cast nSub_zero i) (Gat m d)
  x := fun _ _ => iprop(emp)

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (Gat m d)))
  go q d c i := match q with | 0 => (inferInstance : BI.Storable (upEmb : UEmb _ 𝕄) (taskRes m d (Fin.cast nCore_zero c) (Fin.cast nSub_zero i) (m (oLoc d))))
  td q d c i := match q with | 0 => (inferInstance : BI.Storable (upEmb : UEmb _ 𝕄) (taskRes m d (Fin.cast nCore_zero c) (Fin.cast nSub_zero i) (Gat m d)))

end Cert.Proof.KI

end
-- ==== Proof.KI_Mm.lean ====
/-
  The matrix product on the TensorCore, as a pipeline region of one point.

  The region stages three whole arrays: the features x (1024 × 64) and the gathered rows z (1000 × 128) are fetched,
  the result (1024 × 1000) is written back. Its body loads x whole, loads the first 64 columns of z, loads the result
  buffer (whatever it holds), and stores over the whole result buffer the product of x with those columns of z,
  contracting the 64 features, into a zero accumulator. So after the body the result buffer holds one function of the
  two loaded blocks, and since the blocks are the whole arrays, the result array ends at that function of the arrays
  as the region found them.
-/
import proofs.«209817_g38706245271594_cont_8to1_b_1000_24_alg».proof.Proof.KI_Common
import Idealize.ShloMosaic.Lib.Pipeline.FrameBody
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays as the region finds them, and the windows' blocks -/

/-- The three windows' arrays when the region is entered: the features as launched, the gathered rows, the result
    array as launched. -/
def mmA (d : Dev nD) : (w : Fin cfg1.W) → Buf (Elt F) ((cfg1.win w).arr.view.loc (d.tc : Thread nD τ)) := fun w =>
  match w with
  | ⟨0, _⟩ => m (xLoc d)
  | ⟨1, _⟩ => Gat m d
  | ⟨2, _⟩ => m (rLoc d)

theorem mmA_0 (d : Dev nD) : mmA m d 0 = m (xLoc d) := rfl
theorem mmA_1 (d : Dev nD) : mmA m d 1 = Gat m d := rfl
theorem mmA_2 (d : Dev nD) : mmA m d 2 = m (rLoc d) := rfl

/-- Window `w`'s block at the point, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (mmA m d w)

/-! ## What the body leaves in the result buffer -/

abbrev r1_0 : Rect S1024x64 := Rect.unit (s := S1024x64) ![0, 0] S1024x64.size Facts₀.inb_S1024x64_S1024x64_0_0
abbrev r1_1 : Rect S1000x128 := Rect.unit (s := S1000x128) ![0, 0] S1000x64.size Facts₀.inb_S1000x128_S1000x64_0_0
abbrev r1_2 : Rect S1024x1000 := Rect.unit (s := S1024x1000) ![0, 0] S1024x1000.size Facts₀.inb_S1024x1000_S1024x1000_0_0

/-- The result buffer after the body, from the two input blocks: its one store, over the whole buffer, of the product
    of the loaded features with the loaded 64 columns. -/
def out1_2 (x0 : Vec F S1024x64 .f32) (x1 : Vec F S1000x128 .f32) : Vec F S1024x1000 .f32 :=
  View.canon [⟨r1_2, k1_pay1 (View.ld x0 r1_0) (View.ld x1 r1_1)⟩]

/-- The one store covers the buffer. -/
theorem cover1_2 (p0 : Vec F S1024x1000 .f32) (y : S1024x1000.Idx) :
    ∃ pc ∈ ([⟨r1_2, p0⟩] : List (View.Piece (Elt F) S1024x1000 .f32)), y ∈ pc.1.set :=
  View.cover_of_tiled [⟨r1_2, p0⟩] S1024x1000.size (by rfl) y

/-! ## The body's triple -/

set_option maxHeartbeats 1000000 in
/-- The body on whole staging memrefs, the inputs' at contents `x0`, `x1` and the result's at anything, runs to the
    continuation holding the inputs' as they were and the result's at `out1_2 x0 x1`. -/
theorem sound_mm (c : Dev nD) (E : Set ℕ) (arg0 : Memref sig .tc .vmem S1024x64 .f32) (harg0 : arg0.IsWhole)
    (arg1 : Memref sig .tc .vmem S1000x128 .f32) (harg1 : arg1.IsWhole) (arg2 : Memref sig .tc .vmem S1024x1000 .f32) (harg2 : arg2.IsWhole)
    (x0 : Vec F S1024x64 .f32) (x1 : Vec F S1000x128 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ Kc ⟨⟩))
      ⊢ wp frame (wpE (defs₀ (F := F)) Variants.none c none) E (cc1__mm_body arg0 harg0 arg1 harg1 arg2 harg2) Kc := by
  simp only [cc1__mm_body_eq_skeleton]; unfold cc1__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data on core `d`: the arrays as the region finds them; after the body each input's buffer at its block
    and the result's at `out1_2` of the input blocks; as invariant the scoped buffers no window stages (there are
    none), passed through; nothing owed; full shares. -/
def mmDat (d : Dev nD) : Dat τ (Elt F) (HIx 1) ℕ UU ℕ cfg1 d where
  A := mmA m d
  after w t := match w with
    | ⟨0, _⟩ => iblk m d 0 t
    | ⟨1, _⟩ => iblk m d 1 t
    | ⟨2, _⟩ => out1_2 (iblk m d 0 t) (iblk m d 1 t)
  Φ _ := Pipeline.scopedRest spec1 d
  q _ := fullShare
  owed _ := 0

theorem mmA_eq (d : Dev nD) (w : Fin cfg1.W) : (mmDat m d).A w = mmA m d w := by dsimp only [mmDat]
theorem after1_0 (d : Dev nD) (t : Fin cfg1.N) : (mmDat m d).after 0 t = iblk m d 0 t := by dsimp only [mmDat]
theorem after1_1 (d : Dev nD) (t : Fin cfg1.N) : (mmDat m d).after 1 t = iblk m d 1 t := by dsimp only [mmDat]
theorem after1_2 (d : Dev nD) (t : Fin cfg1.N) : (mmDat m d).after 2 t = out1_2 (iblk m d 0 t) (iblk m d 1 t) := by dsimp only [mmDat]

/-- Each input's staging buffer holds its block when the body runs: the block is fetched at the point. -/
theorem before1_0 (d : Dev nD) (t : Fin cfg1.N) (e) : (mmDat m d).before 0 t e = iblk m d 0 t :=
  ((mmDat m d).before_in_eq_fetched 0 rfl (fun _ => rfl) (fun _ _ _ => rfl)
      (fun t => by rw [after1_0]; unfold Dat.blockOf iblk; rw [mmA_eq]; try rfl) t e).trans
    (by unfold Dat.fetched Dat.blockOf iblk; rw [mmA_eq]; try rfl)
theorem before1_1 (d : Dev nD) (t : Fin cfg1.N) (e) : (mmDat m d).before 1 t e = iblk m d 1 t :=
  ((mmDat m d).before_in_eq_fetched 1 rfl (fun _ => rfl) (fun _ _ _ => rfl)
      (fun t => by rw [after1_1]; unfold Dat.blockOf iblk; rw [mmA_eq]; try rfl) t e).trans
    (by unfold Dat.fetched Dat.blockOf iblk; rw [mmA_eq]; try rfl)

/-! ## The body obligation -/

/-- The body at the point: the inputs' memrefs hold their blocks, so `sound_mm` applies; the invariant and the core's
    `owes` pass through unread. -/
theorem body_obligation (d : Dev nD) : BodyObligation (mmDat (F := F) m d) (defs₀ (F := F)) Variants.none none Set.univ := fun t => by
  rw [bigSep_W1, bigSep_W1]
  simp only [before1_0, before1_1]
  rw [show (mmDat m d).Φ t.succ = (mmDat m d).Φ t.castSucc from rfl,
    show (mmDat m d).owesAt none t.succ = (mmDat m d).owesAt none t.castSucc from rfl,
    after1_0, after1_1, after1_2]
  iintro ⟨HΦ, Ho, ⟨%d0, H0⟩, ⟨%d1, H1⟩, ⟨%d2, H2⟩⟩
  iapply (sound_mm d Set.univ (win1_0.stage (cfg1.slots t 0)) (Facts₀.hstage1_0 0) (win1_1.stage (cfg1.slots t 1)) (Facts₀.hstage1_1 0)
    (win1_2.stage (cfg1.slots t 2)) (Facts₀.hstage1_2 0) (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Proof.KI

end
-- ==== Proof.IdealValue.lean ====
/-
  The matrix product's result, read at the extended reals, is the specification.

  The region's body stores over the whole 1024 × 1000 result buffer the product of the features (loaded whole) with
  the first 64 of the 128 columns of the gathered array, contracting the 64 features, into a zero accumulator. At the
  extended reals that product at (b, n) is the sum over the 64 features k of x[b, k] · z[n, k]. Row n of the gathered
  array is the row of the zero-padded table that label n names, and the padded table's first 64 columns are the table
  itself (the padding is all to the right of them), so z[n, k] = tab[row of label n, k] for k < 64: the sum is the
  specification's.
-/
import proofs.«209817_g38706245271594_cont_8to1_b_1000_24_alg».proof.Proof.KI_Mm
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

noncomputable section

open scoped BigOperators

namespace Cert.Proof.KI

open Cert.KernelIdeal Cert.KernelIdeal.Gen Idealize.ShloMosaic Idealize.ShloMosaic.ValueIdx

/-- The table padded with zeros on the right to 128 columns. -/
abbrev padOf (tab : FVec Ideal S1000x64 .f32) : FVec Ideal S1000x128 .f32 :=
  (pad S1000x128 ![0, 0] ![0, 64] ![0, 0] tab (sitofp .f32 (constantI S_ 32 0#32 : IVec S_ 32) : FVec Ideal S_ .f32)
    Facts₀.pads_S1000x64_S1000x128_000_0640 Facts₀.h_S_ : FVec Ideal S1000x128 .f32)

/-- The padded table at a column below 64 is the table. -/
theorem padOf_apply (tab : FVec Ideal S1000x64 .f32) (r : Fin 1000) (k : Fin 64) :
    padOf tab (ix2 r ⟨k.val, by omega⟩) = tab (ix2 r k) := by
  refine pad_apply_of_inside _ _ _ tab _ _ _ _ (ix2 r k) fun a => ?_
  match a with
  | ⟨0, _⟩ => show r.val = 0 + r.val * (0 + 1); omega
  | ⟨1, _⟩ => show k.val = 0 + k.val * (0 + 1); omega

/-- The load of the first 64 columns, read at (n, k), is the array at (n, k). -/
theorem ld_columns (z : Vec Ideal S1000x128 .f32) (n : Fin 1000) (k : Fin 64) :
    View.ld z r1_1 (ix2 n k) = z (ix2 n ⟨k.val, by omega⟩) := by
  refine congrArg z (funext fun a => Fin.ext ?_)
  match a with
  | ⟨0, _⟩ => show 0 + 1 * n.val = n.val; omega
  | ⟨1, _⟩ => show 0 + 1 * k.val = k.val; omega

/-- The left operand's row coordinate is the output's row, whatever the contraction index. -/
theorem lhsIdx_row (i : S1024x1000.Idx) (q : dot_S1024x64_S1000x64_S1024x1000_1_1_0_0_n_n.contr.Idx) :
    (dot_S1024x64_S1000x64_S1024x1000_1_1_0_0_n_n.lhsIdx i q 0).val = (i 0).val := by
  unfold DotDims.lhsIdx
  rw [dif_neg (show ¬(0 : Fin S1024x64.rank) ∈ dot_S1024x64_S1000x64_S1024x1000_1_1_0_0_n_n.lhsBatch by decide),
    dif_pos (show (0 : Fin S1024x64.rank) ∈ dot_S1024x64_S1000x64_S1024x1000_1_1_0_0_n_n.lhsNonContracting by decide)]
  rfl

/-- The right operand's row coordinate is the output's column, whatever the contraction index. -/
theorem rhsIdx_row (i : S1024x1000.Idx) (q : dot_S1024x64_S1000x64_S1024x1000_1_1_0_0_n_n.contr.Idx) :
    (dot_S1024x64_S1000x64_S1024x1000_1_1_0_0_n_n.rhsIdx i q 0).val = (i 1).val := by
  unfold DotDims.rhsIdx
  rw [dif_neg (show ¬(0 : Fin S1000x64.rank) ∈ dot_S1024x64_S1000x64_S1024x1000_1_1_0_0_n_n.rhsBatch by decide),
    dif_pos (show (0 : Fin S1000x64.rank) ∈ dot_S1024x64_S1000x64_S1024x1000_1_1_0_0_n_n.rhsNonContracting by decide)]
  rfl

/-- The product's left operand index at output (b, n) and feature k is (b, k). -/
theorem lhsIdx_eq (b : Fin 1024) (n : Fin 1000) (k : Fin 64) :
    dot_S1024x64_S1000x64_S1024x1000_1_1_0_0_n_n.lhsIdx (ix2 b n)
        ((contrEquiv1 dot_S1024x64_S1000x64_S1024x1000_1_1_0_0_n_n 64 rfl rfl).symm k) = ix2 b k := by
  have hk := contrEquiv1_symm_val dot_S1024x64_S1000x64_S1024x1000_1_1_0_0_n_n 64 rfl rfl k
  refine funext fun a => Fin.ext ?_
  match a with
  | ⟨0, _⟩ => exact lhsIdx_row _ _
  | ⟨1, _⟩ => exact (dot_S1024x64_S1000x64_S1024x1000_1_1_0_0_n_n.lhsIdx_val_of_single rfl _ _).trans hk

/-- The product's right operand index at output (b, n) and feature k is (n, k). -/
theorem rhsIdx_eq (b : Fin 1024) (n : Fin 1000) (k : Fin 64) :
    dot_S1024x64_S1000x64_S1024x1000_1_1_0_0_n_n.rhsIdx (ix2 b n)
        ((contrEquiv1 dot_S1024x64_S1000x64_S1024x1000_1_1_0_0_n_n 64 rfl rfl).symm k) = ix2 n k := by
  have hk := contrEquiv1_symm_val dot_S1024x64_S1000x64_S1024x1000_1_1_0_0_n_n 64 rfl rfl k
  refine funext fun a => Fin.ext ?_
  match a with
  | ⟨0, _⟩ => exact rhsIdx_row _ _
  | ⟨1, _⟩ => exact (dot_S1024x64_S1000x64_S1024x1000_1_1_0_0_n_n.rhsIdx_val_of_single rfl _ _).trans hk

/-- The product into the zero accumulator at (b, n): the sum over the 64 features of the operands' products. -/
theorem product_apply (x : Vec Ideal S1024x64 .f32) (w : Vec Ideal S1000x64 .f32) (b : Fin 1024) (n : Fin 1000) :
    k1_pay1 (F := Ideal) x w (ix2 b n) = ∑ k : Fin 64, x (ix2 b k) * w (ix2 n k) := by
  unfold k1_pay1
  rw [shapeCast_self]
  refine (Ideal.matmul_constant_zero_apply _ _ _ _ _).trans ?_
  rw [← Equiv.sum_comp (contrEquiv1 dot_S1024x64_S1000x64_S1024x1000_1_1_0_0_n_n 64 rfl rfl).symm]
  refine Finset.sum_congr rfl fun k _ => ?_
  rw [lhsIdx_eq, rhsIdx_eq]

/-- What the body leaves in the result buffer, from the features and the gathered rows of the padded table, is the
    specification. -/
theorem out_eq_scores (x : FVec Ideal S1024x64 .f32) (idx : IVec S1000 32) (tab : FVec Ideal S1000x64 .f32) :
    out1_2 (F := Ideal) x (fun y => padOf tab (ix2 (Cert.Spec.rowOf (idx (ix1 (y 0)))) (y 1))) = Cert.Spec.scores x idx tab := by
  have hz : (![0, 0] : Fin 2 → Nat) = fun _ => 0 := funext fun a => by match a with | ⟨0, _⟩ => rfl | ⟨1, _⟩ => rfl
  unfold out1_2
  rw [View.canon_unit_zero hz, View.ld_unit_zero hz]
  funext i
  obtain ⟨b, n, rfl⟩ : ∃ (b : Fin 1024) (n : Fin 1000), i = ix2 b n := ⟨i 0, i 1, eq_ix2 i⟩
  rw [product_apply]
  unfold Cert.Spec.scores
  refine Finset.sum_congr rfl fun k _ => ?_
  rw [ld_columns]
  exact congrArg (x (ix2 b k) * ·) (padOf_apply tab (Cert.Spec.rowOf (idx (ix1 n))) k)

end Cert.Proof.KI

end
-- ==== Proof.KI_Blocks.lean ====
/-
  The subcores' blocks of rows, by arithmetic.

  Vector subcore s of SparseCore c has the number w = 2 s + c and works when w < 25; its block is rows
  40 w … 40 w + 39 (all 128 columns, for the gathered array). Two subcores with different numbers have disjoint
  blocks, since two half-open intervals [40 w, 40 w + 40) with w ≠ w' do not meet; and every row n < 1000 lies in the
  block of the subcore numbered n / 40 < 25, that is s = (n / 40) / 2 and c = (n / 40) mod 2. So an array held whole is
  the same as its 25 blocks held side by side, first split by SparseCore, then by subcore.
-/
import proofs.«209817_g38706245271594_cont_8to1_b_1000_24_alg».proof.Proof.KI_Common

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- A subcore works exactly when its number is below 25. -/
theorem cond_iff : ∀ L : grid0.Coords, (k0_cond1 L = 1#1) ↔ 2 * (L 1).val + (L 0).val < 25 := by decide +kernel

/-- A slice's own elements are its rectangle's. -/
theorem set_iSl (L : grid0.Coords) (h : k0_cond1 L = 1#1) : (iSl L h).view.set = (iRect L h).set := by
  show ((View.whole (main_arg1_scv : Ref sig .scVector)).slice (iRect L h)).set = _
  rw [View.set_slice]; exact Finset.map_refl
theorem set_oSl (L : grid0.Coords) (h : k0_cond1 L = 1#1) : (oSl L h).view.set = (oRect L h).set := by
  show ((View.whole (main_v1_scv : Ref sig .scVector)).slice (oRect L h)).set = _
  rw [View.set_slice]; exact Finset.map_refl

/-- Label n belongs to the subcore at `L` exactly when that subcore works and n is one of its 40. -/
theorem mem_iSet (L : grid0.Coords) (j : S1000.Idx) :
    j ∈ iSet L ↔ 2 * (L 1).val + (L 0).val < 25 ∧ 40 * (2 * (L 1).val + (L 0).val) ≤ (j 0).val ∧ (j 0).val < 40 * (2 * (L 1).val + (L 0).val) + 40 := by
  by_cases h : k0_cond1 L = 1#1
  · have hc := (cond_iff L).1 h
    rw [iSet_pos L h, set_iSl, Rect.mem_set_unit, k0_off1_eq]
    constructor
    · intro H
      have H0 := H 0
      simp only [Matrix.cons_val_zero, S40, Shape.size] at H0
      omega
    · rintro ⟨_, h1, h2⟩ a
      obtain rfl : a = 0 := Subsingleton.elim _ _
      simp only [Matrix.cons_val_zero, S40, Shape.size]
      omega
  · have hc := (cond_iff L).not.1 h
    rw [iSet_neg L h]
    simp only [Finset.notMem_empty, false_iff]
    omega

/-- Entry (n, l) of the gathered array belongs to the subcore at `L` exactly when that subcore works and row n is one of its 40. -/
theorem mem_oSet (L : grid0.Coords) (j : S1000x128.Idx) :
    j ∈ oSet L ↔ 2 * (L 1).val + (L 0).val < 25 ∧ 40 * (2 * (L 1).val + (L 0).val) ≤ (j 0).val ∧ (j 0).val < 40 * (2 * (L 1).val + (L 0).val) + 40 := by
  by_cases h : k0_cond1 L = 1#1
  · have hc := (cond_iff L).1 h
    have hj1 : (j 1).val < 128 := (j 1).isLt
    rw [oSet_pos L h, set_oSl, Rect.mem_set_unit, k0_off2_eq]
    constructor
    · intro H
      have H0 := H 0
      simp only [Matrix.cons_val_zero, S40x128, Shape.size] at H0
      omega
    · rintro ⟨_, h1, h2⟩ a
      match a with
      | ⟨0, _⟩ =>
        simp only [Fin.zero_eta, Matrix.cons_val_zero, S40x128, Shape.size]
        omega
      | ⟨1, _⟩ =>
        simp only [Fin.mk_one, Matrix.cons_val_one, Matrix.cons_val_zero, S40x128, Shape.size]
        omega
  · have hc := (cond_iff L).not.1 h
    rw [oSet_neg L h]
    simp only [Finset.notMem_empty, false_iff]
    omega

theorem LV_zero (c : Fin 2) (i : Fin 16) : ((LV c i) 0).val = c.val := rfl
theorem LV_one (c : Fin 2) (i : Fin 16) : ((LV c i) 1).val = i.val := rfl

/-- Different subcores' blocks do not meet. -/
theorem iSet_disjoint {c c' : Fin 2} {i i' : Fin 16} (h : (c, i) ≠ (c', i')) : Disjoint (iSet (LV c i)) (iSet (LV c' i')) := by
  refine Finset.disjoint_left.mpr fun j h1 h2 => h ?_
  rw [mem_iSet, LV_zero, LV_one] at h1 h2
  have hc : c.val = c'.val := by omega
  have hi : i.val = i'.val := by omega
  exact Prod.ext (Fin.ext hc) (Fin.ext hi)
theorem oSet_disjoint {c c' : Fin 2} {i i' : Fin 16} (h : (c, i) ≠ (c', i')) : Disjoint (oSet (LV c i)) (oSet (LV c' i')) := by
  refine Finset.disjoint_left.mpr fun j h1 h2 => h ?_
  rw [mem_oSet, LV_zero, LV_one] at h1 h2
  have hc : c.val = c'.val := by omega
  have hi : i.val = i'.val := by omega
  exact Prod.ext (Fin.ext hc) (Fin.ext hi)

/-- Every row lies in some subcore's block. -/
theorem iSet_cover (j : S1000.Idx) : ∃ (c : Fin 2) (i : Fin 16), j ∈ iSet (LV c i) := by
  have hj : (j 0).val < 1000 := (j 0).isLt
  refine ⟨⟨((j 0).val / 40) % 2, Nat.mod_lt _ (by decide)⟩, ⟨((j 0).val / 40) / 2, by omega⟩, ?_⟩
  rw [mem_iSet, LV_zero, LV_one]
  simp only
  omega
theorem oSet_cover (j : S1000x128.Idx) : ∃ (c : Fin 2) (i : Fin 16), j ∈ oSet (LV c i) := by
  have hj : (j 0).val < 1000 := (j 0).isLt
  refine ⟨⟨((j 0).val / 40) % 2, Nat.mod_lt _ (by decide)⟩, ⟨((j 0).val / 40) / 2, by omega⟩, ?_⟩
  rw [mem_oSet, LV_zero, LV_one]
  simp only
  omega

/-- The two SparseCores' shares of rows do not meet, and together are every row. -/
theorem iSetC_disjoint : ∀ c ∈ (Finset.univ : Finset (Fin 2)), ∀ c' ∈ (Finset.univ : Finset (Fin 2)), c ≠ c' → Disjoint (iSetC c) (iSetC c') := by
  intro c _ c' _ h
  unfold iSetC
  rw [Finset.disjoint_biUnion_left]; intro i _
  rw [Finset.disjoint_biUnion_right]; intro i' _
  exact iSet_disjoint fun e => h (Prod.ext_iff.1 e).1
theorem oSetC_disjoint : ∀ c ∈ (Finset.univ : Finset (Fin 2)), ∀ c' ∈ (Finset.univ : Finset (Fin 2)), c ≠ c' → Disjoint (oSetC c) (oSetC c') := by
  intro c _ c' _ h
  unfold oSetC
  rw [Finset.disjoint_biUnion_left]; intro i _
  rw [Finset.disjoint_biUnion_right]; intro i' _
  exact oSet_disjoint fun e => h (Prod.ext_iff.1 e).1
theorem iSetC_cover : (Finset.univ : Finset (Fin 2)).biUnion iSetC = Finset.univ := by
  refine Finset.eq_univ_iff_forall.mpr fun j => ?_
  obtain ⟨c, i, h⟩ := iSet_cover j
  exact Finset.mem_biUnion.mpr ⟨c, Finset.mem_univ _, Finset.mem_biUnion.mpr ⟨i, Finset.mem_univ _, h⟩⟩
theorem oSetC_cover : (Finset.univ : Finset (Fin 2)).biUnion oSetC = Finset.univ := by
  refine Finset.eq_univ_iff_forall.mpr fun j => ?_
  obtain ⟨c, i, h⟩ := oSet_cover j
  exact Finset.mem_biUnion.mpr ⟨c, Finset.mem_univ _, Finset.mem_biUnion.mpr ⟨i, Finset.mem_univ _, h⟩⟩
theorem iSet_disjoint_in (c : Fin 2) : ∀ i ∈ (Finset.univ : Finset (Fin 16)), ∀ i' ∈ (Finset.univ : Finset (Fin 16)), i ≠ i' → Disjoint (iSet (LV c i)) (iSet (LV c i')) :=
  fun i _ i' _ h => iSet_disjoint fun e => h (Prod.ext_iff.1 e).2
theorem oSet_disjoint_in (c : Fin 2) : ∀ i ∈ (Finset.univ : Finset (Fin 16)), ∀ i' ∈ (Finset.univ : Finset (Fin 16)), i ≠ i' → Disjoint (oSet (LV c i)) (oSet (LV c i')) :=
  fun i _ i' _ h => oSet_disjoint fun e => h (Prod.ext_iff.1 e).2

/-! ## An array held whole is its blocks held side by side -/

variable (d : Dev nD)

/-- The label list whole is the two SparseCores' shares of it; -/
theorem iPts_cores (f : Buf (Elt F) (iLoc d)) :
    (iLoc d ↦{fullShare} f : sProp 𝕄) = bigSep Finset.univ fun c : Fin 2 => iLoc d ↦[iSetC c]{fullShare} f := by
  rw [← pointsTo_biUnion Finset.univ (ℓ := iLoc d) iSetC iSetC_disjoint, iSetC_cover]; try rfl
/-- a SparseCore's share is its subcores' blocks. -/
theorem iPts_tasks (c : Fin 2) (f : Buf (Elt F) (iLoc d)) :
    (iLoc d ↦[iSetC c]{fullShare} f : sProp 𝕄) = bigSep Finset.univ fun i : Fin 16 => iLoc d ↦[iSet (LV c i)]{fullShare} f :=
  pointsTo_biUnion Finset.univ (ℓ := iLoc d) (fun i => iSet (LV c i)) (iSet_disjoint_in c)
/-- The same of the gathered array. -/
theorem oPts_cores (f : Buf (Elt F) (oLoc d)) :
    (oLoc d ↦{fullShare} f : sProp 𝕄) = bigSep Finset.univ fun c : Fin 2 => oLoc d ↦[oSetC c]{fullShare} f := by
  rw [← pointsTo_biUnion Finset.univ (ℓ := oLoc d) oSetC oSetC_disjoint, oSetC_cover]; try rfl
theorem oPts_tasks (c : Fin 2) (f : Buf (Elt F) (oLoc d)) :
    (oLoc d ↦[oSetC c]{fullShare} f : sProp 𝕄) = bigSep Finset.univ fun i : Fin 16 => oLoc d ↦[oSet (LV c i)]{fullShare} f :=
  pointsTo_biUnion Finset.univ (ℓ := oLoc d) (fun i => oSet (LV c i)) (oSet_disjoint_in c)

end Cert.Proof.KI

end
-- ==== Proof.KI_Region.lean ====
/-
  The matrix product's region, as the TensorCore's program meets it after the gather.

  The region is entered holding the features, the gathered rows and the result array whole, and owing nothing; it
  leaves holding the first two unchanged (they are only fetched) and the result array at what the one write-back
  leaves: the whole array overwritten by the result buffer, that is, by the product of the two arrays as the region
  found them.
-/
import proofs.«209817_g38706245271594_cont_8to1_b_1000_24_alg».proof.Proof.KI_Mm

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The pipeline has no prefetched table. -/
abbrev adm : (p : Fin 1) → (pcfgs (F := F) p).Adm := fun p => (cfgs p).toPCfg_adm
/-- The one pipeline's proof data, on every core. -/
def pdats : (p : Fin 1) → (c : Dev nD) → Dat τ (Elt F) (HIx 1) ℕ UU ℕ (Pipeline.pin (pcfgs (F := F)) adm p) c := fun _ c => mmDat m c

theorem bigSep_W0 {M : Type} [URA M] (Φ : Fin 0 → sProp M) : bigSep Finset.univ Φ = (BI.emp : sProp M) :=
  bigSep_univ_eq_bigSepL [] (by decide) (by decide) Φ
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := bigSep_W0 _
theorem scopedRest1 (c : Dev nD) :
    (Pipeline.scopedRest (Ix := HIx 1) (Name := ℕ) (U := UU) (Lvl := ℕ) (Val := Elt F) spec1 c : sProp 𝕄) = BI.emp := scopedRest1_eq c

/-- The core owing nothing, as the pipeline holds it. -/
theorem owesAt_intro (d : Dev nD) (t : Fin (cfg1.N + 1)) :
    iprop(∃ W, owes (d : Thread nD τ) (0 : CellTallies nD τ sig (HIx 1)) W) ⊢ ((mmDat m d).owesAt none t : sProp 𝕄) := by
  unfold Pipeline.Dat.owesAt Pipeline.owesWithin Pipeline.Dat.bound
  rw [show (mmDat m d).owed t = 0 from rfl, show (mmDat m d).recorded t = Set.univ from rfl]
  iintro ⟨%W, HO⟩; iexists W; isplitr; · ipureintro; exact fun _ _ => Or.inl trivial
  iexact HO
theorem owesAt_elim (d : Dev nD) (t : Fin (cfg1.N + 1)) :
    ((mmDat m d).owesAt none t : sProp 𝕄) ⊢ iprop(∃ W, owes (d : Thread nD τ) (0 : CellTallies nD τ sig (HIx 1)) W) := by
  unfold Pipeline.Dat.owesAt Pipeline.owesWithin
  rw [show (mmDat m d).owed t = 0 from rfl]
  iintro ⟨%W, -, HO⟩; iexists W; iexact HO

/-- The three windows' arrays, one by one: each whole, at the full share. -/
theorem arrays_mm (d : Dev nD) (Fa : (w : Fin cfg1.W) → Buf (Elt F) ((cfg1.win w).arr.view.loc (d.tc : Thread nD τ))) :
    ((mmDat m d).arrays Fa : sProp 𝕄) = iprop((xLoc d ↦{fullShare} Fa 0) ∗ (oLoc d ↦{fullShare} Fa 1) ∗ (rLoc d ↦{fullShare} Fa 2)) := by
  unfold Dat.arrays
  have h : (bigSep Finset.univ fun w : Fin cfg1.W =>
        ((cfg1.win w).arr.view.loc (d.tc : Thread nD τ) ↦[(cfg1.win w).arr.view.set]{(mmDat m d).share w} Fa w : sProp 𝕄))
      = bigSep Finset.univ fun w : Fin cfg1.W => (((d.tc : Thread nD τ).loc (Pipeline.arrRef spec1 w)) ↦{fullShare} Fa w : sProp 𝕄) :=
    bigSep_congr fun w _ => by rw [(arr_whole1 w).set_eq_univ, (mmDat m d).share_full (fun _ => rfl) w]
  rw [h, bigSep_W1]

/-- The result array after the region. -/
abbrev Res (d : Dev nD) : Buf (Elt F) (rLoc d) := (mmDat m d).arrAt 2 cfg1.N

/-- What the region is entered from and what it leaves. -/
abbrev regPre (d : Dev nD) : sProp 𝕄 :=
  iprop((xLoc d ↦{fullShare} m (xLoc d)) ∗ (oLoc d ↦{fullShare} Gat m d) ∗ (rLoc d ↦{fullShare} m (rLoc d))
    ∗ ∃ W, owes (d : Thread nD τ) (0 : CellTallies nD τ sig (HIx 1)) W)
abbrev regPost (d : Dev nD) : sProp 𝕄 :=
  iprop((xLoc d ↦{fullShare} m (xLoc d)) ∗ (oLoc d ↦{fullShare} Gat m d) ∗ (rLoc d ↦{fullShare} Res m d)
    ∗ ∃ W, owes (d : Thread nD τ) (0 : CellTallies nD τ sig (HIx 1)) W)

/-- The region: the layout as decided, no semaphore of the body's own, the body obligation, nothing owed; the three
    arrays enter the pipeline and come back, nothing else is touched. -/
def reg : Pipeline.RegionSeg (pcfgs (F := F)) adm (pdats m) (none : HIx 1) defs₀ 𝒱₀ (K (F := F)).L (K (F := F)).lev (0 : Fin 1) where
  win := winFacts1.to₀
  block_pos := block_pos1
  stage_whole := stage_whole1
  K := PEmpty
  osem k := k.elim
  ho := Pipeline.OwnSemFacts.none _
  hbody c := (body_obligation m c).loose
  hwaits := Pipeline.hwaits_of_owed_zero _ _ _ _ _ _ 0 fun _ _ => rfl
  pre := regPre m
  post := regPost m
  X _ := iprop(emp)
  Y _ := iprop(emp)
  Z _ := iprop(emp)
  hentry d := by
    rw [Pipeline.ownSems0_none, prefHeld1]
    show _ ⊢ |={Set.univ}=> iprop((mmDat m d).arrays ((mmDat m d).arrAt · 0) ∗ emp ∗ (mmDat m d).owesAt none 0 ∗ emp ∗ emp)
    rw [arrays_mm]
    iintro ⟨⟨Hx, Ho, Hr, HO⟩, -, -⟩
    imodintro
    isplitl [Hx Ho Hr]
    · isplitl [Hx]; · iexact Hx
      isplitl [Ho]; · iexact Ho
      iexact Hr
    isplitr; · iempintro
    isplitl [HO]; · iapply (owesAt_intro m d 0); iexact HO
    isplitr <;> iempintro
  hin d := by
    show _ ⊢ (Pipeline.scopedRest spec1 d : sProp 𝕄)
    iintro ⟨-, -, H⟩; iexact H
  hout d := by
    rw [Pipeline.ownSems0_none]
    show (Pipeline.scopedRest spec1 d : sProp 𝕄) ⊢ _
    iintro H
    isplitr; · iempintro
    isplitr; · iempintro
    iexact H
  hexit d := by
    show iprop((mmDat m d).arrays ((mmDat m d).arrAt · cfg1.N) ∗ (mmDat m d).owesAt none (Fin.last cfg1.N) ∗ emp ∗ emp) ⊢ |={Set.univ}=> regPost m d
    rw [arrays_mm, (mmDat m d).arrAt_in 0 rfl, (mmDat m d).arrAt_in 1 rfl]
    iintro ⟨⟨Hx, Ho, Hr⟩, HO, -, -⟩
    imodintro
    isplitl [Hx]; · iexact Hx
    isplitl [Ho]; · iexact Ho
    isplitl [Hr]; · iexact Hr
    iapply (owesAt_elim m d _); iexact HO

end Cert.Proof.KI

end
-- ==== Proof.KI_Launch.lean ====
/-
  How a SparseCore's share of the arrays splits among its sixteen vector subcores and comes back, and what the launch
  deals the proof from its ghost state.

  A SparseCore is handed its subcores' blocks of the label list and of the gathered array, and a read share of the
  padded table. The blocks are pairwise disjoint, so the SparseCore's part of each array is its subcores' parts side by
  side; the read share is split into sixteen smaller read shares and a remainder, which stays behind until the
  subcores' shares come back and is then joined with them again.

  Of the ghost state, the launch handshakes' part goes to the launch theorem, the TensorCore pipeline's staging cells'
  part is turned into each core's cells' state and duty tokens (what the matrix product's region is later entered
  with), and the counters are not needed at launch: each subcore's copies allocate their own as they go.
-/
import proofs.«209817_g38706245271594_cont_8to1_b_1000_24_alg».proof.Proof.KI_Blocks
import proofs.«209817_g38706245271594_cont_8to1_b_1000_24_alg».proof.Proof.KI_Region

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## A SparseCore's share among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split for SparseCore `c`: blocks by disjointness, the table's read share into sixteen and a remainder kept
    aside until they return. -/
theorem split_core (d : Dev nD) (c : Fin 2) :
    coreRes m d c (m (oLoc d)) ⊢ |={Set.univ}=> iprop(
      (bigSep Finset.univ fun i : Fin 16 => taskRes m d c i (m (oLoc d)))
      ∗ ((bigSep Finset.univ fun i : Fin 16 => taskRes m d c i (Gat m d)) -∗ coreRes m d c (Gat m d))) := by
  rw [bigSep_sep', bigSep_sep', bigSep_sep', bigSep_sep', ← iPts_tasks, ← oPts_tasks, ← oPts_tasks]
  iintro ⟨Hi, Ht, Ho⟩
  ihave Ht' := ((Transfers.pointsTo_toks (ℓ := tLoc d) (S := Finset.univ) (f := TPad m d) (qC c) 16).1) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply ((Transfers.pointsTo_toks (ℓ := tLoc d) (S := Finset.univ) (f := TPad m d) (qC c) 16).2)
    isplitl [Hrem]; · iexact Hrem
    iexact Htoks
  iexact Ho

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (Gat m d))
          -∗ coreRes m d (Fin.cast nCore_zero c) (Gat m d)))
  rw [bigSep_tasks (F := F) (fun i => taskRes m d (Fin.cast nCore_zero c) i (m (oLoc d))),
    bigSep_tasks (F := F) (fun i => taskRes m d (Fin.cast nCore_zero c) i (Gat m d))]
  exact split_core m d (Fin.cast nCore_zero c)

/-! ## The launch element -/

/-- The pipeline's staging cells are pairwise distinct. -/
theorem cellOf_inj' : Function.Injective (Pipeline.cellOf (nD := nD) (τ := τ) (Pipeline.pin (pcfgs (F := F)) adm)) :=
  Pipeline.cellOf_injective _ (fun p => by fin_cases p; exact (by decide : Pipeline.SpecSemsDistinct spec1))
    (fun p p' h => absurd (Subsingleton.elim p p') h)

/-- The launch element: the handshakes' rounds, the staging cells' rounds, no counter yet. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What @main's proof on device `d` starts from, beyond what the launch deals every TensorCore: its pipeline's staging
    cells' state and duty tokens. -/
abbrev G (d : Dev nD) : sProp 𝕄 :=
  iprop((bigSep Finset.univ fun p : Fin 1 => Pipeline.cellsGhost (Pipeline.pin (pcfgs (F := F)) adm) EP p d)
    ∗ (bigSep Finset.univ fun p : Fin 1 => (Pipeline.toksInit (Pipeline.pin (pcfgs (F := F)) adm) EP p d : sProp 𝕄)))

theorem bigSep_emp' {I : Type} (s : Finset I) : (bigSep s fun _ => iprop(emp)) = (iprop(emp) : sProp 𝕄) := bigSep_emp_const s

/-- The staging cells' half of the launch element, as the pipeline library's embedding owns it. -/
theorem own_EP (x : UP) :
    (BI.own (((Emb.inl : Emb UP (UP × Counters)).trans (embR : Emb (UP × Counters) (MT nD τ sig (HIx 1) (Elt F) ℕ UU ℕ))) x) : sProp 𝕄) ⊢ BI.own (EP x) :=
  Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (Pipeline.pin (pcfgs (F := F)) adm) EP cellOf_inj') $$ HP with ⟨Hg, Ht⟩
  imodintro
  isplitl [HH]; · iexact HH
  isplitl [Hg Ht]
  · rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KI_Main.lean ====
/-
  The TensorCore's program: the padding, the gather's call, the matrix product's region.

  The TensorCore first writes the integer zero, converts it to a float, and pads the table with it to 128 columns:
  three host operations over its eight arrays held whole, after which the padded table's buffer holds `TPad` and
  every other array what it held. It then hands each SparseCore its subcores' blocks of the label list and of the
  gathered array and a read share of the padded table (keeping the remaining share itself), and gets them back with
  the gathered array at `Gat`. After the only call it owes the launch nothing more, so it enters the matrix product's
  region owing nothing, with the features, the gathered rows and the result array, and leaves it with the result
  array at `Res`. What it keeps to the end: the three arguments at their launch contents and the result array.
-/
import proofs.«209817_g38706245271594_cont_8to1_b_1000_24_alg».proof.Proof.KI_Launch

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev x' : DevRef τ sig := Proc.devRef .tc (main_arg0 : Ref sig .tc)
abbrev i' : DevRef τ sig := Proc.devRef .tc (main_arg1 : Ref sig .tc)
abbrev a' : DevRef τ sig := Proc.devRef .tc (main_arg2 : Ref sig .tc)
abbrev z' : DevRef τ sig := Proc.devRef .tc (main_c : Ref sig .tc)
abbrev zf' : DevRef τ sig := Proc.devRef .tc (main_call0_v0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped. -/
abbrev S8 : Finset (DevRef τ sig) := {x', i', a', z', zf', t', o', r'}

/-- The integer zero; its conversion; the padding. -/
abbrev opZ : HloOp τ sig (Elt F) := StableHlo.nullary main_c (constantI S_ 32 0#32)
abbrev opC : HloOp τ sig (Elt F) :=
  StableHlo.TRef.unary (StableHlo.TRef.of main_c : StableHlo.TRef sig ⟨S_, .i32⟩) (StableHlo.TRef.of main_call0_v0 : StableHlo.TRef sig ⟨S_, .f32⟩) (sitofp .f32)
abbrev opP : HloOp τ sig (Elt F) :=
  StableHlo.TRef.binary (StableHlo.TRef.of main_arg2 : StableHlo.TRef sig ⟨S1000x64, .f32⟩) (StableHlo.TRef.of main_call0_v0 : StableHlo.TRef sig ⟨S_, .f32⟩)
    (StableHlo.TRef.of main_v0 : StableHlo.TRef sig ⟨S1000x128, .f32⟩)
    (fun x v => pad S1000x128 ![0, 0] ![0, 64] ![0, 0] x v Facts₀.pads_S1000x64_S1000x128_000_0640 Facts₀.h_S_)

def V0 (d : Dev nD) : Valuation τ sig (Elt F) := fun b => m (d, b)
def V1 (d : Dev nD) : Valuation τ sig (Elt F) := (opZ (F := F)).result (V0 m d)
def V2 (d : Dev nD) : Valuation τ sig (Elt F) := (opC (F := F)).result (V1 m d)
def V3 (d : Dev nD) : Valuation τ sig (Elt F) := (opP (F := F)).result (V2 m d)

theorem held_S8 (d : Dev nD) (W : Valuation τ sig (Elt F)) :
    (held (T d) S8 W : sProp 𝕄) = iprop((xLoc d ↦{fullShare} W x') ∗ (iLoc d ↦{fullShare} W i') ∗ (aLoc d ↦{fullShare} W a') ∗ (zLoc d ↦{fullShare} W z')
      ∗ (zfLoc d ↦{fullShare} W zf') ∗ (tLoc d ↦{fullShare} W t') ∗ (oLoc d ↦{fullShare} W o') ∗ (rLoc d ↦{fullShare} W r')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (aLoc d ↦{fullShare} W main_arg2)
      ∗ (zLoc d ↦{fullShare} W main_c) ∗ (zfLoc d ↦{fullShare} W main_call0_v0) ∗ (tLoc d ↦{fullShare} W main_v0) ∗ (oLoc d ↦{fullShare} W main_v1)
      ∗ (rLoc d ↦{fullShare} W main_v2)) := by
  unfold unscopedBufs
  rw [show (Finset.univ.filter fun b : Ref sig .tc => ¬ b.isScoped) = {main_arg0, main_arg1, main_arg2, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

/-- After the three operations an array that none of them writes holds what it held at launch; -/
theorem V3_other (d : Dev nD) (r : Ref sig .tc) (h1 : r ≠ main_c) (h2 : r ≠ main_call0_v0) (h3 : r ≠ main_v0) :
    V3 m d (Proc.devRef .tc r) = m (d, Proc.devRef .tc r) := by
  unfold V3 V2 V1 V0
  rw [StableHlo.binary_result_ne _ _ _ _ _ _ _ _ h3, StableHlo.unary_result_ne _ _ _ _ _ _ h2, StableHlo.nullary_result_ne _ _ _ _ h1]
/-- the padded table's buffer holds the table padded with the converted zero. -/
theorem V3_t (d : Dev nD) : V3 m d t' = TPad m d := by
  unfold V3 V2 V1 V0
  show (StableHlo.binary main_arg2 main_call0_v0 main_v0 _ _ _ _).result _ (Proc.devRef .tc main_v0) = _
  rw [StableHlo.binary_result, StableHlo.unary_result_ne _ _ _ _ _ _ (show main_arg2 ≠ main_call0_v0 by decide),
    StableHlo.nullary_result_ne _ _ _ _ (show main_arg2 ≠ main_c by decide), StableHlo.unary_result, StableHlo.nullary_result]
  rfl

theorem hZ : (opZ (F := F)).bufs ⊆ S8 := show ({z'} : Finset (DevRef τ sig)) ⊆ S8 by decide
theorem hC : (opC (F := F)).bufs ⊆ S8 := show ({z', zf'} : Finset (DevRef τ sig)) ⊆ S8 by decide
theorem hP : (opP (F := F)).bufs ⊆ S8 := show ({a', zf', t'} : Finset (DevRef τ sig)) ⊆ S8 by decide

/-! ## The call's operands, by SparseCore -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: the label list and the gathered array whole,
    the padded table's two read shares. -/
theorem cores_split (d : Dev nD) (fo : Buf (Elt F) (oLoc d)) :
    (bigSep Finset.univ fun c : Fin ((K (F := F)).nCore 0) => coreRes m d (Fin.cast nCore_zero c) fo)
      = iprop((iLoc d ↦{fullShare} m (iLoc d)) ∗ (bigSep Finset.univ fun c : Fin 2 => (tLoc d ↦{qC c} TPad m d : sProp 𝕄)) ∗ (oLoc d ↦{fullShare} fo)) := by
  rw [bigSep_cores (F := F) (fun c => coreRes m d c fo), bigSep_sep', bigSep_sep', ← iPts_cores, ← oPts_cores]

/-- The call's operands and results, as the handshakes carry them. -/
theorem st0_eq (d : Dev nD) :
    (bigSep Finset.univ fun c : Fin ((K (F := F)).nCore 0) => (P m).st 0 d c)
      = iprop((iLoc d ↦{fullShare} m (iLoc d)) ∗ (bigSep Finset.univ fun c : Fin 2 => (tLoc d ↦{qC c} TPad m d : sProp 𝕄)) ∗ (oLoc d ↦{fullShare} m (oLoc d))) := by
  show (bigSep Finset.univ fun c : Fin ((K (F := F)).nCore 0) => coreRes m d (Fin.cast nCore_zero c) (m (oLoc d))) = _
  exact cores_split m d (m (oLoc d))
theorem dn0_eq (d : Dev nD) :
    (bigSep Finset.univ fun c : Fin ((K (F := F)).nCore 0) => (P m).dn 0 d c)
      = iprop((iLoc d ↦{fullShare} m (iLoc d)) ∗ (bigSep Finset.univ fun c : Fin 2 => (tLoc d ↦{qC c} TPad m d : sProp 𝕄)) ∗ (oLoc d ↦{fullShare} Gat m d)) := by
  show (bigSep Finset.univ fun c : Fin ((K (F := F)).nCore 0) => coreRes m d (Fin.cast nCore_zero c) (Gat m d)) = _
  exact cores_split m d (Gat m d)

/-! ## The handshake state after the only call: nothing owed -/

theorem wbelow_any (d : Dev nD) (W : Waits sig (HIx 1)) : (K (F := F)).WBelow (T d) W (8 * 1) := by
  intro p _
  obtain ⟨s, ι⟩ := p
  show (K (F := F)).lev (T d, s) ι ≤ 8 * 1
  cases ι with
  | none => rw [SparseCore.Cfg.lev_none]; omega
  | some q =>
    have h7 := (K (F := F)).lev_some_le (T d, s) q
    have hq : q.val = 0 := by omega
    omega

/-- After the call the TensorCore's handshake state is its `owes` at nothing, and the rest, which takes any `owes` at
    nothing back. -/
theorem tcSt_open (d : Dev nD) :
    ((K (F := F)).tcSt EH d 1 : sProp 𝕄) ⊢ iprop((∃ W, owes (T d) (0 : CellTallies nD τ sig (HIx 1)) W)
      ∗ ((∃ W, owes (T d) (0 : CellTallies nD τ sig (HIx 1)) W) -∗ (K (F := F)).tcSt EH d 1)) := by
  unfold SparseCore.Cfg.tcSt
  rw [(K (F := F)).Otc_end d (le_refl 1)]
  iintro ⟨⟨%W, %hW, HO⟩, Hrest⟩
  isplitl [HO]; · iexists W; iexact HO
  iintro ⟨%W', HO'⟩
  isplitr [Hrest]
  · iexists W'; isplitr; · ipureintro; exact wbelow_any d W'
    iexact HO'
  iexact Hrest

/-! ## The region, entered from the TensorCore's program -/

/-- An entailment of the library's, read as the proof mode's. -/
theorem ent' {A B : sProp 𝕄} (h : A ⊢ B) : Idealize.SL.BI.Entails A B := h

/-- With one pipeline, what @main's proof starts from is that pipeline's staging cells' state and duty tokens. -/
theorem G_eq (d : Dev nD) :
    (G (F := F) d : sProp 𝕄)
      = iprop(Pipeline.cellsGhost (Pipeline.pin (pcfgs (F := F)) adm) EP 0 d ∗ (Pipeline.toksInit (Pipeline.pin (pcfgs (F := F)) adm) EP 0 d : sProp 𝕄)) := by
  show iprop((bigSep Finset.univ fun p : Fin 1 => Pipeline.cellsGhost (Pipeline.pin (pcfgs (F := F)) adm) EP p d)
    ∗ (bigSep Finset.univ fun p : Fin 1 => (Pipeline.toksInit (Pipeline.pin (pcfgs (F := F)) adm) EP p d : sProp 𝕄))) = _
  rw [bigSep_univ_of_subsingleton (0 : Fin 1), bigSep_univ_of_subsingleton (0 : Fin 1)]

set_option maxHeartbeats 400000 in
/-- The matrix product's call as @main spells it: from the region boundary, what the region is entered from, the level
    facts and the pipeline's staging cells' state, to the boundary and what the region leaves. -/
theorem region_step [∀ e, Nonempty (Elt F e)] (d : Dev nD) (Φ : PUnit.{1} → sProp 𝕄) :
    iprop(levAts (K (F := F)).L (K (F := F)).lev ∗ boundary (T d) ∗ regPre m d ∗ G (F := F) d ∗ (iprop(boundary (T d) ∗ regPost m d) -∗ Φ PUnit.unit))
      ⊢ wp frame (wpE ((K (F := F)).defs (D (F := F))) 𝒱 (T d) none) Set.univ
          (Prog.lift (.customCall (SparseCore.inner (Pipeline.entry (0 : Fin 1))) ())) Φ := by
  refine BI.Entails.trans ?_ ((K (F := F)).wp_liftProg (D (F := F)) 𝒱 (T d) Set.univ none
    (Prog.op (.customCall (Pipeline.entry (0 : Fin 1)) ()) fun _ => Prog.ret PUnit.unit) Φ)
  refine BI.Entails.trans ?_ (Pipeline.RegionSeg.wp (pcfgs (F := F)) adm (pdats m) (none : HIx 1) cellOf_inj' EP defs₀ 𝒱₀
    (K (F := F)).L (K (F := F)).lev (reg m) d none (fun u hu => by simp at hu) (fun _ => Prog.ret PUnit.unit) Φ)
  refine ent' ?_
  iintro ⟨Hlv, Hb, Hpre, HG, Hk⟩
  ihave HG' := (Entails.of_eq (G_eq (F := F) d)) $$ HG
  icases HG' with ⟨Hg, Ht⟩
  isplitl [Hk]
  · iintro H
    rw [wp_ret]; imodintro
    iapply Hk; iexact H
  isplitl [Hb]; · iexact Hb
  isplitl [Hpre]
  · ihave Hpre' := (Entails.of_eq (show (regPre m d : sProp 𝕄) = (reg m).pre d from rfl)) $$ Hpre
    iexact Hpre'
  isplitl [Hlv]; · iexact Hlv
  isplitl [Hg]; · iexact Hg
  iexact Ht

/-! ## @main -/

/-- What @main leaves the claim: the three arguments at their launch contents and the result array. -/
abbrev FIN (d : Dev nD) : sProp 𝕄 :=
  iprop((xLoc d ↦{fullShare} m (xLoc d)) ∗ (iLoc d ↦{fullShare} m (iLoc d)) ∗ (aLoc d ↦{fullShare} m (aLoc d)) ∗ (rLoc d ↦{fullShare} Res m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, Hg⟩
  ihave Hlv := (SparseCore.Cfg.ctx_levAts (K := K (F := F)) κ) $$ Hctx
  -- the zero, its conversion, the padding
  iapply (wp_hlo_within 𝒱 (SparseCore.T d) none Set.univ (op := opZ) (S := S8) hZ (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S8) hC (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := S8) hP (V := V2 m d)) $$ [Hb Hheld]
  · isplitl [Hb]; · iexact Hb
    iexact Hheld
  iintro ⟨Hb, Hheld⟩
  rw [wp_ret]; imodintro; imodintro
  ihave Hheld' := (Entails.of_eq (show (held (T d) S8 ((opP (F := F)).result (V2 m d)) : sProp 𝕄) = held (T d) S8 (V3 m d) from rfl)) $$ Hheld
  ihave Hh := (Entails.of_eq (held_S8 (F := F) d (V3 m d))) $$ Hheld'
  rw [V3_other m d main_arg0 (by decide) (by decide) (by decide), V3_other m d main_arg1 (by decide) (by decide) (by decide),
    V3_other m d main_arg2 (by decide) (by decide) (by decide), V3_other m d main_v1 (by decide) (by decide) (by decide),
    V3_other m d main_v2 (by decide) (by decide) (by decide), V3_t]
  icases Hh with ⟨Hx, Hi, Ha, Hz, Hzf, Ht, Ho, Hr⟩
  -- the call: each SparseCore its subcores' blocks and a read share of the padded table; the remaining share stays here
  ihave Ht' := ((Transfers.pointsTo_toks (ℓ := tLoc d) (S := Finset.univ) (f := TPad m d) fullShare 2).1) $$ Ht
  icases Ht' with ⟨Htrem, Httoks⟩
  iapply ((K (F := F)).wp_run (D (F := F)) 𝒱 (EH := EH) (P := P m) κ d 0) $$ [Hst Hi Httoks Ho Hb Hx Ha Hz Hzf Htrem Hr Hg Hlv]
  isplitr; · iexact Hctx
  isplitl [Hst]; · iexact Hst
  isplitl [Hi Httoks Ho]
  · rw [st0_eq]
    isplitl [Hi]; · iexact Hi
    isplitl [Httoks]; · iexact Httoks
    iexact Ho
  iintro ⟨Hst, Hdn⟩
  ihave Hdn' := (Entails.of_eq (dn0_eq m d)) $$ Hdn
  icases Hdn' with ⟨Hi, Httoks, Ho⟩
  -- the matrix product's region, entered owing nothing
  ihave Hst1 := (Entails.of_eq (show ((K (F := F)).tcSt EH d ((0 : Fin 1).val + 1) : sProp 𝕄) = (K (F := F)).tcSt EH d 1 from rfl)) $$ Hst
  ihave Hsp := (tcSt_open (F := F) d) $$ Hst1
  icases Hsp with ⟨HO, Hback⟩
  iapply (region_step m d _) $$ [Hlv Hb Hx Ho Hr HO Hg Hi Ha Hback]
  isplitl [Hlv]; · iexact Hlv
  isplitl [Hb]; · iexact Hb
  isplitl [Hx Ho Hr HO]
  · isplitl [Hx]; · iexact Hx
    isplitl [Ho]; · iexact Ho
    isplitl [Hr]; · iexact Hr
    iexact HO
  isplitl [Hg]; · iexact Hg
  iintro ⟨Hb, ⟨Hx, Ho, Hr, HO⟩⟩
  imodintro
  isplitl [Hback HO]
  · iapply Hback; iexact HO
  isplitl [Hx]; · iexact Hx
  isplitl [Hi]; · iexact Hi
  isplitl [Ha]; · iexact Ha
  iexact Hr

end Cert.Proof.KI

end
-- ==== Proof.KI_Final.lean ====
/-
  The program's run: every weakly fair execution of all its threads ends, nothing faulting, with the three arguments
  unchanged and the result array at the matrix product of the features with the gathered rows.

  The matrix product's region has one point and its three windows' blocks are the whole arrays: a block's index in
  the array is the index itself, so each input block read is the array as the region found it, and the one
  write-back overwrites the whole result array with the body's result buffer. Hence the result array after the region
  is the body's function of the two arrays. The launch theorem then assembles the run from the vector subcores'
  task, the split of a SparseCore's share among them, the launch element and the TensorCore's program.
-/
import proofs.«209817_g38706245271594_cont_8to1_b_1000_24_alg».proof.Proof.KI_Main

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The result array after the region -/

/-- Every window's one block sits at block index zero on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The features' block is the features' array; -/
theorem iblk_0 (d : Dev nD) (t : Fin cfg1.N) : iblk m d 0 t = (m (xLoc d) : Vec F S1024x64 .f32) := by
  obtain ⟨e0, e1, -⟩ := idx_facts t
  funext j
  show (m (xLoc d) : Vec F S1024x64 .f32) (((cfg1.win 0).blk t).view.emb j) = (m (xLoc d) : Vec F S1024x64 .f32) j
  congr 1
  funext a; apply Fin.ext
  match a with
  | ⟨0, _⟩ => show win1_0.index t (0 : Fin 2) * 1024 + 1 * (j 0).val = (j 0).val; omega
  | ⟨1, _⟩ => show win1_0.index t (1 : Fin 2) * 64 + 1 * (j 1).val = (j 1).val; omega
/-- the gathered rows' block is the gathered array. -/
theorem iblk_1 (d : Dev nD) (t : Fin cfg1.N) : iblk m d 1 t = (Gat m d : Vec F S1000x128 .f32) := by
  obtain ⟨-, -, e2, e3, -⟩ := idx_facts t
  funext j
  show (Gat m d : Vec F S1000x128 .f32) (((cfg1.win 1).blk t).view.emb j) = (Gat m d : Vec F S1000x128 .f32) j
  congr 1
  funext a; apply Fin.ext
  match a with
  | ⟨0, _⟩ => show win1_1.index t (0 : Fin 2) * 1000 + 1 * (j 0).val = (j 0).val; omega
  | ⟨1, _⟩ => show win1_1.index t (1 : Fin 2) * 128 + 1 * (j 1).val = (j 1).val; omega

/-- The body's function of the two arrays as the region finds them. -/
abbrev MM (d : Dev nD) : Vec F S1024x1000 .f32 := out1_2 (m (xLoc d) : Vec F S1024x64 .f32) (Gat m d : Vec F S1000x128 .f32)

/-- What the point writes back is the block of that function. -/
theorem flushed2_eq (d : Dev nD) (t : Fin cfg1.N) :
    (mmDat m d).flushed 2 t
      = ((cfg1.win 2).blk t).view.read (Elt F) (out1_2 (m (xLoc d) : Vec F S1024x64 .f32) (Gat m d : Vec F S1000x128 .f32)) := by
  show (cfg1.win 2).cut (grid1.coords t) ((mmDat m d).after 2 t) = _
  rw [after1_2, iblk_0, iblk_1]
  obtain ⟨-, -, -, -, e4, e5⟩ := idx_facts t
  -- the body's function enters only through the index it is read at
  generalize out1_2 (m (xLoc d) : Vec F S1024x64 .f32) (Gat m d : Vec F S1000x128 .f32) = Y
  funext j
  refine Eq.trans ?_ ((View.read_apply _ _).trans (cast_eq _ _)).symm
  show Y ((cfg1.win 2).xinj (grid1.coords t) j) = Y (((cfg1.win 2).blk t).view.emb j)
  congr 1
  funext a; apply Fin.ext
  match a with
  | ⟨0, _⟩ => show (j 0).val = win1_2.index t (0 : Fin 2) * 1024 + 1 * (j 0).val; omega
  | ⟨1, _⟩ => show (j 1).val = win1_2.index t (1 : Fin 2) * 1000 + 1 * (j 1).val; omega

/-- An index is in the point's block iff each coordinate is in the block's range. -/
theorem mem_blk2 (t : Fin cfg1.N) (i : S1024x1000.Idx) :
    i ∈ ((cfg1.win 2).blk t).view.set ↔ ∀ a : Fin 2, win1_2.index t a * S1024x1000.size a ≤ (i a).val ∧ (i a).val < win1_2.index t a * S1024x1000.size a + S1024x1000.size a := by
  show i ∈ ((View.whole main_v2).slice (win1_2.rect t)).set ↔ _
  rw [View.set_slice_whole, Rect.mem_set_unit]
  exact Iff.rfl

/-- Every index of the result array is in the one point's block. -/
theorem covered2 (i : S1024x1000.Idx) : ∃ t : Fin cfg1.N, (cfg1.win 2).flush t = true ∧ i ∈ ((cfg1.win 2).blk t).view.set := by
  have hi0 : (i 0).val < 1024 := (i 0).isLt
  have hi1 : (i 1).val < 1000 := (i 1).isLt
  obtain ⟨-, -, -, -, e4, e5⟩ := idx_facts t1_0
  refine ⟨t1_0, flush1_2 t1_0, ?_⟩
  rw [mem_blk2]
  intro a
  match a with
  | ⟨0, _⟩ => show win1_2.index t1_0 (0 : Fin 2) * 1024 ≤ (i 0).val ∧ (i 0).val < win1_2.index t1_0 (0 : Fin 2) * 1024 + 1024; omega
  | ⟨1, _⟩ => show win1_2.index t1_0 (1 : Fin 2) * 1000 ≤ (i 1).val ∧ (i 1).val < win1_2.index t1_0 (1 : Fin 2) * 1000 + 1000; omega

/-- THE RESULT ARRAY after the region: the body's function of the features and the gathered rows. -/
theorem Res_eq (d : Dev nD) : Res m d = MM m d :=
  (mmDat m d).arrAt_eq_of_cover 2 _ (fun t _ => flushed2_eq m d t) (fun i => covered2 i)

/-! ## Reading the final memory -/

def fq (d : Dev nD) (s' : Phys nD τ sig (Elt F)) : Prop :=
  s'.mem.mem (xLoc d) = m (xLoc d) ∧ s'.mem.mem (iLoc d) = m (iLoc d) ∧ s'.mem.mem (aLoc d) = m (aLoc d) ∧ s'.mem.mem (rLoc d) = Res m d

theorem hfin (d : Dev nD) (s' : Phys nD τ sig (Elt F)) : iprop(FIN m d ∗ SI s') ⊢ (⌜fq m d s'⌝ : sProp 𝕄) := by
  iintro ⟨⟨Hx, Hi, Ha, Hr⟩, HSI⟩
  icombine HSI Hx gives %hx
  icombine HSI Hi gives %hi
  icombine HSI Ha gives %ha
  icombine HSI Hr gives %hr
  ipureintro
  exact ⟨Buf.eq_of_forall_mem_univ hx, Buf.eq_of_forall_mem_univ hi, Buf.eq_of_forall_mem_univ ha, Buf.eq_of_forall_mem_univ hr⟩

/-! ## The run -/

/-- What every final state satisfies: the result array at the body's function of the features and the gathered rows,
    the three arguments as launched. -/
def QC : PUnit × MemSt nD τ sig (Elt F) → Prop := fun r => ∀ c : Dev nD,
  r.2.mem (rLoc c) = MM m c ∧ r.2.mem (xLoc c) = m (xLoc c) ∧ r.2.mem (iLoc c) = m (iLoc c) ∧ r.2.mem (aLoc c) = m (aLoc c)

/-- The program's run, from the vector subcores' task. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => ⟨((h c).2.2.2).trans (Res_eq m c), (h c).1, (h c).2.1, (h c).2.2.1⟩)

end Cert.Proof.KI

end
-- ==== Proof.KI_Tile.lean ====
/-
  One vector subcore's task, and the launch theorem's obligation for it.

  Vector subcore s of SparseCore c has the number w = 2 s + c. Where w < 25 it copies its 40 labels (rows 40 w … 40 w + 39
  of the label list) into its own memory, gathers the 40 rows of the padded table those labels name, and copies them out
  to rows 40 w … 40 w + 39 of the gathered array; elsewhere it does nothing. Each of the three copies completes on a
  semaphore of its own and is waited for before the next starts.

  Proved here: from its labels and its rows of the gathered array outright and a read share of the padded table, the
  task ends holding the same, its rows at the gathered contents `Gat`: row n of the gathered array is the padded
  table's row named by label n. The value is an index equation: element (k, j) of the rows' scratch is the table at
  (label 40 w + k, j), and element (k, j) of the task's rows is element (40 w + k, j) of the gathered array.
-/
import proofs.«209817_g38706245271594_cont_8to1_b_1000_24_alg».proof.Proof.KI_Common

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## One vector subcore's task -/

section Tile

variable (d : Dev nD) (L : grid0.Coords)

/-- The SparseCore and the vector subcore that run the task at grid point `L`. -/
abbrev cV (L : grid0.Coords) : Fin τ.nSC := (L 0).castLE Facts₀.hcore0
abbrev jV (L : grid0.Coords) : Fin τ.nSub := (L 1).castLE Facts₀.hsub0

/-- The three semaphores the task's copies complete on: the labels' copy, the gather, the rows' copy out. -/
abbrev cA (d : Dev nD) (c : Fin τ.nSC) (i : Fin τ.nSub) : GSem nD τ sig := (V d c i, .dma cc0_scoped0.sem)
abbrev cG (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped1.sem)

omit [FloatOps F] in
/-- The subcore's own semaphores at zero are those three and the rest. -/
theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc0_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The value: what the gather delivers is the gathered array's rows -/

omit [FloatOps F] in
/-- An element of the task's rows of the gathered array, by coordinates. -/
theorem oSl_emb_val (h : k0_cond1 L = 1#1) (y : S40x128.Idx) (a : Fin 2) :
    (((oSl L h).view.emb y) a : Nat) = k0_off2 L a + 1 * (y a : Nat) := rfl

omit [FloatOps F] in
/-- An element of the task's labels, by its coordinate. -/
theorem iSl_emb_val (h : k0_cond1 L = 1#1) (k : S40.Idx) (a : Fin 1) :
    (((iSl L h).view.emb k) a : Nat) = k0_off1 L a + 1 * (k a : Nat) := rfl

omit [FloatOps F] in
/-- Label `k` of the task is the label of the row that element `y` of its rows lies in, when `k` is `y`'s row. -/
theorem lab_idx (h : k0_cond1 L = 1#1) (y : S40x128.Idx) (k : S40.Idx) (hk : (k 0 : Nat) = (y 0 : Nat)) :
    ((iSl L h).view.emb k : S1000.Idx) = ix1 (((oSl L h).view.emb y : S1000x128.Idx) 0) := by
  funext a
  match a with
  | ⟨0, _⟩ =>
    refine Fin.ext ?_
    show (((iSl L h).view.emb k) 0 : Nat) = (((oSl L h).view.emb y) 0 : Nat)
    rw [iSl_emb_val, oSl_emb_val, k0_off1_eq, k0_off2_eq, hk]
    rfl

omit [FloatOps F] in
/-- On the rank-1 label shape the row-major position of an index is its coordinate. -/
theorem rowMajor_symm_zero (j : Fin S40.numel) : ((S40.rowMajor.symm j) 0 : Nat) = j.val := by
  have := Shape.rowMajor_val_one (S40.rowMajor.symm j)
  rw [Equiv.apply_symm_apply] at this
  exact this.symm

/-- What the gather delivers at element `y` of the rows' scratch, when the label scratch holds the task's labels `w`:
    the gathered array at `y`'s element of the task's rows. -/
theorem gathered_eq (hpre : PreOK m) (h : k0_cond1 L = 1#1) (w : S40.Idx → Elt F .i32)
    (hw : ∀ k, w k = (m (iLoc d) : IVec S1000 32) ((iSl L h).view.emb k))
    (hn : S40.numel = S40x128.size gathers_S1000x128_S40x128.axis')
    (hin : ∀ x, (w x).toNat < S1000x128.size gathers_S1000x128_S40x128.axis) (y : S40x128.Idx) :
    SparseCore.gatherPayload gathers_S1000x128_S40x128
        (View.read (Elt F) (tV.slice (Rect.unit (s := S1000x128) ![0, 0] S1000x128.size inb_S1000x128_S1000x128_0_0) (fun _ => rfl)).view (TPad m d))
        (SparseCore.rows w hn hin) y
      = (Gat m d : FVec F S1000x128 .f32) ((oSl L h).view.emb y) := by
  unfold SparseCore.gatherPayload Gat
  rw [View.read_apply]
  show (TPad m d : FVec F S1000x128 .f32) _ = (TPad m d : FVec F S1000x128 .f32) _
  refine congrArg (TPad m d : FVec F S1000x128 .f32) ?_
  funext a
  match a with
  | ⟨0, _⟩ =>
    refine Fin.ext ?_
    have hk0 := rowMajor_symm_zero ((y gathers_S1000x128_S40x128.axis').cast hn.symm)
    have hz : ((gathers_S1000x128_S40x128.idx (SparseCore.rows w hn hin) y) gathers_S1000x128_S40x128.axis : Nat)
        = (w (S40.rowMajor.symm ((y gathers_S1000x128_S40x128.axis').cast hn.symm))).toNat :=
      congrArg Fin.val (Shape.Gathers.idx_axis gathers_S1000x128_S40x128 (SparseCore.rows w hn hin) y)
    show (![0, 0] (0 : Fin 2) + 1 * ((gathers_S1000x128_S40x128.idx (SparseCore.rows w hn hin) y) gathers_S1000x128_S40x128.axis : Nat))
      = ((m (iLoc d) : IVec S1000 32) (ix1 (((oSl L h).view.emb y : S1000x128.Idx) 0))).toNat % 1000
    rw [hz, hw, lab_idx L h y _ hk0, Nat.mod_eq_of_lt (hpre d _)]
    exact (Nat.zero_add _).trans (Nat.one_mul _)
  | ⟨1, _⟩ =>
    refine Fin.ext ?_
    have hz := Shape.Gathers.idx_of_ne gathers_S1000x128_S40x128 (SparseCore.rows w hn hin) y (1 : Fin 2) (by decide)
    show (![0, 0] (1 : Fin 2) + 1 * ((gathers_S1000x128_S40x128.idx (SparseCore.rows w hn hin) y) (1 : Fin 2) : Nat))
      = (((oSl L h).view.emb y : S1000x128.Idx) 1 : Nat)
    rw [hz, oSl_emb_val, k0_off2_eq]
    simp

/-- What the task is handed and hands back, at share `q` of the padded table and contents `fo` of its rows. -/
abbrev res (q : PosShare TreeShare) (fo : Buf (Elt F) (oLoc d)) : sProp 𝕄 :=
  iprop((iLoc d ↦[iSet L]{fullShare} m (iLoc d)) ∗ (tLoc d ↦{q} TPad m d) ∗ (oLoc d ↦[oSet L]{fullShare} fo))

theorem tile_body (hF : (K (F := F)).Facts) (hpre : PreOK m) (q : PosShare TreeShare)
    (O : CellTallies nD τ sig (HIx 1)) (W : Waits sig (HIx 1)) (hO : ∀ g, O g none = 0) :
    iprop(levAts (K (F := F)).L (K (F := F)).lev ∗ emp ∗ res m d L q (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sI (Memref.isWhole_whole _) sR (Memref.isWhole_whole _) cc0_scratch2 cc0_scoped0 cc0_scoped1)
          fun _ => iprop(res m d L q (Gat m d) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_skeleton]; unfold cc0_k_skel
  rw [SparseCore.Cfg.scopedSems0_V, (K (F := F)).scopedBufs_V hF, ownSems0_V, ownBufs_V]
  by_cases h : k0_cond1 L = 1#1
  · -- the subcore works: its labels and rows are its slices' own elements
    rw [dif_pos h]
    unfold res
    rw [iSet_pos L h, oSet_pos L h]
    iintro ⟨#Hlv, -, ⟨Hi, Ht, Ho⟩, ⟨⟨%f0, Hb0⟩, ⟨%f1, Hb1⟩, Hbr⟩, ⟨HsA, HsG, HsB, Hsr⟩, HO⟩
    ihave Hmw := ((K (F := F)).mayWaits_none (thr := V d (cV L) (jV L)) hO) $$ Hlv
    ihave Hi' := (Entails.of_eq (show (iLoc d ↦[(iSl L h).view.set]{fullShare} m (iLoc d) : sProp 𝕄)
      = ((iSl L h).view.loc (V d (cV L) (jV L)) ↦[(iSl L h).view.set]{fullShare} m (iLoc d)) from rfl)) $$ Hi
    ihave Ht' := (Entails.of_eq (show (tLoc d ↦{q} TPad m d : sProp 𝕄)
      = ((tV).view.loc (V d (cV L) (jV L)) ↦{q} TPad m d) from rfl)) $$ Ht
    ihave Ho' := (Entails.of_eq (show (oLoc d ↦[(oSl L h).view.set]{fullShare} m (oLoc d) : sProp 𝕄)
      = ((oSl L h).view.loc (V d (cV L) (jV L)) ↦[(oSl L h).view.set]{fullShare} m (oLoc d)) from rfl)) $$ Ho
    ihave Hb0' := (Entails.of_eq (show ((V d (cV L) (jV L)).loc cc0_scratch0 ↦{fullShare} f0 : sProp 𝕄)
      = ((sI).view.loc (V d (cV L) (jV L)) ↦{fullShare} f0) from rfl)) $$ Hb0
    ihave Hb1' := (Entails.of_eq (show ((V d (cV L) (jV L)).loc cc0_scratch1 ↦{fullShare} f1 : sProp 𝕄)
      = ((sR).view.loc (V d (cV L) (jV L)) ↦{fullShare} f1) from rfl)) $$ Hb1
    -- the labels' copy and its wait: the label scratch then holds the task's labels
    sl_exec
    -- every label names a row of the table
    have hin : ∀ x, ((sI).view.read (Elt F) (View.write (Elt F) sI.view f0 (tile_body.sl.dma0 m d L h) Finset.univ) x).toNat < 1000 := by
      intro x
      rw [View.read_write_univ]
      exact hpre d ((iSl L h).view.emb x)
    -- the gather and its wait, the rows' copy out and its wait
    sl_exec
    -- on the task's rows the contents are the gathered array's
    have hval : ∀ i ∈ (oSl L h).view.set, ((oSl L h).view.writes (Elt F) (m (oLoc d))
        [⟨Rect.whole S40x128, tile_body.sl.dma0_1 m d L h f0 f1 hin⟩]) i = Gat m d i := by
      intro i hi
      obtain ⟨y, -, rfl⟩ := Finset.mem_map.mp hi
      have e1 := View.read_writes_cons_emb (oSl L h).view (m (oLoc d)) (Rect.whole S40x128) (tile_body.sl.dma0_1 m d L h f0 f1 hin) [] y
      rw [Rect.emb_whole_apply] at e1
      refine Eq.trans (show _ = (oSl L h).view.read (Elt F) _ y from rfl) (e1.trans ?_)
      unfold tile_body.sl.dma0_1
      rw [ReadAs.apply_same]
      have e2 := View.read_writes_cons_emb sR.view f1 (Rect.whole S40x128) (tile_body.sl.gather0 m d L h f0 hin) [] y
      rw [Rect.emb_whole_apply] at e2
      rw [e2]
      unfold tile_body.sl.gather0
      exact gathered_eq m d L hpre h _ (fun k => by rw [View.read_write_univ]; rfl) _ _ y
    ihave Ho'' := (Entails.of_eq (pointsTo_congr hval)) $$ Ho'
    sl_step
    isplitl [Hi' Ht' Ho'']
    · isplitl [Hi']; · iexact Hi'
      isplitl [Ht']; · iexact Ht'
      iexact Ho''
    isplitl [Hb0' Hb1' Hbr]
    · isplitl [Hb0']; · iexists _; iexact Hb0'
      isplitl [Hb1']; · iexists _; iexact Hb1'
      iexact Hbr
    isplitl [HsA HsG HsB Hsr]
    · isplitl [HsA]; · iexact HsA
      isplitl [HsG]; · iexact HsG
      isplitl [HsB]; · iexact HsB
      iexact Hsr
    iexists _; isplitr
    on_goal 2 => iexact HO
    ipureintro
    intro p hp
    simp only [Finset.mem_insert] at hp
    rcases hp with rfl | rfl | rfl | hp
    · exact Or.inr rfl
    · exact Or.inr rfl
    · exact Or.inr rfl
    · exact Or.inl hp
  · -- the subcore does not work: it holds no element of the labels or of the gathered array, and the task is a return
    rw [dif_neg h]
    unfold res
    rw [iSet_neg L h, oSet_neg L h]
    iintro ⟨#Hlv, -, ⟨Hi, Ht, Ho⟩, Hsb, Hss, HO⟩
    ihave Ho' := (Entails.of_eq (pointsTo_congr (f := m (oLoc d)) (g := Gat m d)
      (fun i hi => absurd hi (Finset.notMem_empty i)))) $$ Ho
    sl_step
    isplitl [Hi Ht Ho']
    · isplitl [Hi]; · iexact Hi
      isplitl [Ht]; · iexact Ht
      iexact Ho'
    isplitl [Hsb]; · iexact Hsb
    isplitl [Hss]; · iexact Hss
    iexists W; isplitr
    · ipureintro; exact fun p hp => Or.inl hp
    · iexact HO

end Tile

/-! ## The launch theorem's obligation -/

theorem defs₀_vector (c : Fin τ.nSC) (s : Fin τ.nSub) :
    defs₀ (F := F) (.scVector c s) 0 ()
      = SparseCore.onTile Facts₀.hcore0 Facts₀.hsub0 (fun c s => cc0_k (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (qT (Fin.cast nCore_zero c) (Fin.cast nSub_zero i)) O W hO).trans
    (wp_mono frame _ _ fun _ => obl_post)

end Cert.Proof.KI

end
-- ==== Proof.KB_Common.lean ====
/-
  What the parts of this program's proof share.

  The program: on the TensorCore, the embedding table (1000 rows of 64) is padded with zeros to 128 columns; the two
  SparseCores' 32 vector subcores then gather, 40 rows each and 25 of them at work, the padded table's rows named by
  the 1000 label words into a second 1000 × 128 array; last, the TensorCore multiplies the 1024 × 64 feature array with
  the first 64 columns of the gathered array, contracting the features.

  Vector subcore s of SparseCore c has the number w = 2 s + c. For w < 25 it owns rows 40 w … 40 w + 39 of the label
  list and of the gathered array: it copies its 40 labels into its own memory, gathers the 40 table rows they name,
  and copies those rows out. The 25 blocks of 40 rows are pairwise disjoint and together are the 1000 rows, so the
  subcores never meet on the label list or on the result; the padded table all of them read, each under a read
  share of its own.

  Stated here: the contents every array holds at each stage (the padded table `TPad`; the gathered array `Gat`,
  row n of which is row `idx[n]` of the padded table); the resource algebra (the launch handshakes' rounds, the
  TensorCore pipeline's staging cells' rounds, and the counters the subcores' own copies complete on); and what each
  handshake carries (`P`).
-/
import proofs.«209817_g38706245271594_cont_8to1_b_1000_24_alg».proof.Defs
import proofs.«209817_g38706245271594_cont_8to1_b_1000_24_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«209817_g38706245271594_cont_8to1_b_1000_24_alg».proof.Proof.Gen.Kernel
import proofs.«209817_g38706245271594_cont_8to1_b_1000_24_alg».proof.Proof.Gen.Kernel.Skeleton
import proofs.«209817_g38706245271594_cont_8to1_b_1000_24_alg».proof.Proof.Gen.Kernel.Launch
import proofs.«209817_g38706245271594_cont_8to1_b_1000_24_alg».proof.Proof.Gen.Kernel.Points

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
theorem nCore_zero [FloatOps F] : (K (F := F)).nCore 0 = 2 := rfl
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The pipeline's staging cells' rounds library: the left factor of the right factor. The counters are the right of the
    right, found by instance. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The launch memory, the arrays, and what they hold -/

variable (m : (ℓ : Loc nD τ sig) → Buf (Elt F) ℓ) (ρ : Dev nD → PrngReg)

/-- The features `x`, the labels `idx`, the table `tab` (the arguments); the scalar zero as an integer `z` and as a
    float `zf`; the padded table `t`; the gathered rows `o`; the result `r`. As locations of device `d`. -/
abbrev xLoc (d : Dev nD) : Loc nD τ sig := (SparseCore.T d).loc main_arg0
abbrev iLoc (d : Dev nD) : Loc nD τ sig := (SparseCore.T d).loc main_arg1
abbrev aLoc (d : Dev nD) : Loc nD τ sig := (SparseCore.T d).loc main_arg2
abbrev zLoc (d : Dev nD) : Loc nD τ sig := (SparseCore.T d).loc main_c
abbrev zfLoc (d : Dev nD) : Loc nD τ sig := (SparseCore.T d).loc main_call0_v0
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-- The integer zero, the float it converts to, and the table padded with it to 128 columns. -/
abbrev Zi (d : Dev nD) : Buf (Elt F) (zLoc d) := (constantI S_ 32 0#32 : IVec S_ 32)
abbrev Zf (d : Dev nD) : Buf (Elt F) (zfLoc d) := (sitofp .f32 (constantI S_ 32 0#32 : IVec S_ 32) : FVec F S_ .f32)
abbrev TPad (d : Dev nD) : Buf (Elt F) (tLoc d) :=
  (pad S1000x128 ![0, 0] ![0, 64] ![0, 0] (m (aLoc d) : FVec F S1000x64 .f32) (sitofp .f32 (constantI S_ 32 0#32 : IVec S_ 32) : FVec F S_ .f32)
    Facts₀.pads_S1000x64_S1000x128_000_0640 Facts₀.h_S_ : FVec F S1000x128 .f32)

/-- The gathered array: row n is the padded table's row named by label n. -/
def Gat (d : Dev nD) : Buf (Elt F) (oLoc d) :=
  (fun y => (TPad m d : FVec F S1000x128 .f32) (ix2 (Cert.Spec.rowOf ((m (iLoc d) : IVec S1000 32) (ix1 (y 0)))) (y 1)) : FVec F S1000x128 .f32)

/-- Every label names a row of the table: what the proof asks of the launch memory (the precondition gives it). -/
def PreOK : Prop := ∀ d : Dev nD, Cert.Spec.InRange (m (iLoc d) : IVec S1000 32)

/-! ## The subcores' blocks of rows -/

/-- The arrays whole, as a vector subcore names them. -/
abbrev tV : Memref sig .scVector .hbm S1000x128 .f32 := Memref.whole main_v0_scv
abbrev iV : Memref sig .scVector .hbm S1000 .i32 := Memref.whole main_arg1_scv
abbrev oV : Memref sig .scVector .hbm S1000x128 .f32 := Memref.whole main_v1_scv
abbrev sI : Memref sig .scVector .vmem S40 .i32 := Memref.whole cc0_scratch0
abbrev sR : Memref sig .scVector .vmem S40x128 .f32 := Memref.whole cc0_scratch1

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Its 40 labels and its 40 rows of the gathered array, as the kernel slices them (at a point where it works). -/
abbrev iRect (L : grid0.Coords) (h : k0_cond1 L = 1#1) : Rect S1000 := Rect.unit (s := S1000) (k0_off1 L) S40.size (Facts₀.k0_off1_inb L h)
abbrev oRect (L : grid0.Coords) (h : k0_cond1 L = 1#1) : Rect S1000x128 := Rect.unit (s := S1000x128) (k0_off2 L) S40x128.size (Facts₀.k0_off2_inb L h)
abbrev iSl (L : grid0.Coords) (h : k0_cond1 L = 1#1) : Memref sig .scVector .hbm S40 .i32 := (iV).slice (iRect L h) (fun _ => rfl)
abbrev oSl (L : grid0.Coords) (h : k0_cond1 L = 1#1) : Memref sig .scVector .hbm S40x128 .f32 := (oV).slice (oRect L h) (fun _ => rfl)

/-- The elements of the label list and of the gathered array that the subcore at `L` owns: its slices' own sets where it
    works, nothing where it does not. -/
def iSet (L : grid0.Coords) : Finset S1000.Idx := if h : k0_cond1 L = 1#1 then (iSl L h).view.set else ∅
def oSet (L : grid0.Coords) : Finset S1000x128.Idx := if h : k0_cond1 L = 1#1 then (oSl L h).view.set else ∅

theorem iSet_pos (L : grid0.Coords) (h : k0_cond1 L = 1#1) : iSet L = (iSl L h).view.set := dif_pos h
theorem oSet_pos (L : grid0.Coords) (h : k0_cond1 L = 1#1) : oSet L = (oSl L h).view.set := dif_pos h
theorem iSet_neg (L : grid0.Coords) (h : ¬ k0_cond1 L = 1#1) : iSet L = ∅ := dif_neg h
theorem oSet_neg (L : grid0.Coords) (h : ¬ k0_cond1 L = 1#1) : oSet L = ∅ := dif_neg h

/-- The grid point of task `i` of SparseCore `c` of the one call. -/
abbrev LV (c : Fin 2) (i : Fin 16) : grid0.Coords := coordsV c i

/-- The read share of the padded table that SparseCore `c` is handed, and of it the one task `i` is handed. -/
abbrev qC (c : Fin 2) : PosShare TreeShare := Transfers.shareTok fullShare 2 c
abbrev qT (c : Fin 2) (i : Fin 16) : PosShare TreeShare := Transfers.shareTok (qC c) 16 i

/-! ## What the handshakes carry -/

/-- A task's share of the three arrays: its labels and its rows of the gathered array outright (at contents `fo`), the
    padded table whole under its read share. -/
abbrev taskRes (d : Dev nD) (c : Fin 2) (i : Fin 16) (fo : Buf (Elt F) (oLoc d)) : sProp 𝕄 :=
  iprop((iLoc d ↦[iSet (LV c i)]{fullShare} m (iLoc d)) ∗ (tLoc d ↦{qT c i} TPad m d) ∗ (oLoc d ↦[oSet (LV c i)]{fullShare} fo))

/-- The rows SparseCore `c`'s tasks own between them. -/
def iSetC (c : Fin 2) : Finset S1000.Idx := (Finset.univ : Finset (Fin 16)).biUnion fun i => iSet (LV c i)
def oSetC (c : Fin 2) : Finset S1000x128.Idx := (Finset.univ : Finset (Fin 16)).biUnion fun i => oSet (LV c i)

/-- A SparseCore's share: its tasks' labels and rows, the padded table whole under its read share. -/
abbrev coreRes (d : Dev nD) (c : Fin 2) (fo : Buf (Elt F) (oLoc d)) : sProp 𝕄 :=
  iprop((iLoc d ↦[iSetC c]{fullShare} m (iLoc d)) ∗ (tLoc d ↦{qC c} TPad m d) ∗ (oLoc d ↦[oSetC c]{fullShare} fo))

/-- The one call takes, per SparseCore, its tasks' labels and rows and a read share of the padded table, and brings them
    back, the rows at the gathered contents; the subcores' own copies complete on counters, so the kernel's proof
    consumes nothing of the launch's. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (Gat m d)
  go := fun q d c i => match q with | 0 => taskRes m d (Fin.cast nCore_zero c) (Fin.cast nSub_zero i) (m (oLoc d))
  td := fun q d c i => match q with | 0 => taskRes m d (Fin.cast nCore_zero c) (Fin.cast nSub_zero i) (Gat m d)
  x := fun _ _ => iprop(emp)

instance P_storable : (P (F := F) m).IsStorable where
  st q d c := match q with | 0 => (inferInstance : BI.Storable (upEmb : UEmb _ 𝕄) (coreRes m d (Fin.cast nCore_zero c) (m (oLoc d))))
  dn q d c := match q with | 0 => (inferInstance : BI.Storable (upEmb : UEmb _ 𝕄) (coreRes m d (Fin.cast nCore_zero c) (Gat m d)))
  go q d c i := match q with | 0 => (inferInstance : BI.Storable (upEmb : UEmb _ 𝕄) (taskRes m d (Fin.cast nCore_zero c) (Fin.cast nSub_zero i) (m (oLoc d))))
  td q d c i := match q with | 0 => (inferInstance : BI.Storable (upEmb : UEmb _ 𝕄) (taskRes m d (Fin.cast nCore_zero c) (Fin.cast nSub_zero i) (Gat m d)))

end Cert.Proof.KB

end
-- ==== Proof.KB_Blocks.lean ====
/-
  The subcores' blocks of rows, by arithmetic.

  Vector subcore s of SparseCore c has the number w = 2 s + c and works when w < 25; its block is rows
  40 w … 40 w + 39 (all 128 columns, for the gathered array). Two subcores with different numbers have disjoint
  blocks, since two half-open intervals [40 w, 40 w + 40) with w ≠ w' do not meet; and every row n < 1000 lies in the
  block of the subcore numbered n / 40 < 25, that is s = (n / 40) / 2 and c = (n / 40) mod 2. So an array held whole is
  the same as its 25 blocks held side by side, first split by SparseCore, then by subcore.
-/
import proofs.«209817_g38706245271594_cont_8to1_b_1000_24_alg».proof.Proof.KB_Common

noncomputable section

namespace Cert.Proof.KB

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- A subcore works exactly when its number is below 25. -/
theorem cond_iff : ∀ L : grid0.Coords, (k0_cond1 L = 1#1) ↔ 2 * (L 1).val + (L 0).val < 25 := by decide +kernel

/-- A slice's own elements are its rectangle's. -/
theorem set_iSl (L : grid0.Coords) (h : k0_cond1 L = 1#1) : (iSl L h).view.set = (iRect L h).set := by
  show ((View.whole (main_arg1_scv : Ref sig .scVector)).slice (iRect L h)).set = _
  rw [View.set_slice]; exact Finset.map_refl
theorem set_oSl (L : grid0.Coords) (h : k0_cond1 L = 1#1) : (oSl L h).view.set = (oRect L h).set := by
  show ((View.whole (main_v1_scv : Ref sig .scVector)).slice (oRect L h)).set = _
  rw [View.set_slice]; exact Finset.map_refl

/-- Label n belongs to the subcore at `L` exactly when that subcore works and n is one of its 40. -/
theorem mem_iSet (L : grid0.Coords) (j : S1000.Idx) :
    j ∈ iSet L ↔ 2 * (L 1).val + (L 0).val < 25 ∧ 40 * (2 * (L 1).val + (L 0).val) ≤ (j 0).val ∧ (j 0).val < 40 * (2 * (L 1).val + (L 0).val) + 40 := by
  by_cases h : k0_cond1 L = 1#1
  · have hc := (cond_iff L).1 h
    rw [iSet_pos L h, set_iSl, Rect.mem_set_unit, k0_off1_eq]
    constructor
    · intro H
      have H0 := H 0
      simp only [Matrix.cons_val_zero, S40, Shape.size] at H0
      omega
    · rintro ⟨_, h1, h2⟩ a
      obtain rfl : a = 0 := Subsingleton.elim _ _
      simp only [Matrix.cons_val_zero, S40, Shape.size]
      omega
  · have hc := (cond_iff L).not.1 h
    rw [iSet_neg L h]
    simp only [Finset.notMem_empty, false_iff]
    omega

/-- Entry (n, l) of the gathered array belongs to the subcore at `L` exactly when that subcore works and row n is one of its 40. -/
theorem mem_oSet (L : grid0.Coords) (j : S1000x128.Idx) :
    j ∈ oSet L ↔ 2 * (L 1).val + (L 0).val < 25 ∧ 40 * (2 * (L 1).val + (L 0).val) ≤ (j 0).val ∧ (j 0).val < 40 * (2 * (L 1).val + (L 0).val) + 40 := by
  by_cases h : k0_cond1 L = 1#1
  · have hc := (cond_iff L).1 h
    have hj1 : (j 1).val < 128 := (j 1).isLt
    rw [oSet_pos L h, set_oSl, Rect.mem_set_unit, k0_off2_eq]
    constructor
    · intro H
      have H0 := H 0
      simp only [Matrix.cons_val_zero, S40x128, Shape.size] at H0
      omega
    · rintro ⟨_, h1, h2⟩ a
      match a with
      | ⟨0, _⟩ =>
        simp only [Fin.zero_eta, Matrix.cons_val_zero, S40x128, Shape.size]
        omega
      | ⟨1, _⟩ =>
        simp only [Fin.mk_one, Matrix.cons_val_one, Matrix.cons_val_zero, S40x128, Shape.size]
        omega
  · have hc := (cond_iff L).not.1 h
    rw [oSet_neg L h]
    simp only [Finset.notMem_empty, false_iff]
    omega

theorem LV_zero (c : Fin 2) (i : Fin 16) : ((LV c i) 0).val = c.val := rfl
theorem LV_one (c : Fin 2) (i : Fin 16) : ((LV c i) 1).val = i.val := rfl

/-- Different subcores' blocks do not meet. -/
theorem iSet_disjoint {c c' : Fin 2} {i i' : Fin 16} (h : (c, i) ≠ (c', i')) : Disjoint (iSet (LV c i)) (iSet (LV c' i')) := by
  refine Finset.disjoint_left.mpr fun j h1 h2 => h ?_
  rw [mem_iSet, LV_zero, LV_one] at h1 h2
  have hc : c.val = c'.val := by omega
  have hi : i.val = i'.val := by omega
  exact Prod.ext (Fin.ext hc) (Fin.ext hi)
theorem oSet_disjoint {c c' : Fin 2} {i i' : Fin 16} (h : (c, i) ≠ (c', i')) : Disjoint (oSet (LV c i)) (oSet (LV c' i')) := by
  refine Finset.disjoint_left.mpr fun j h1 h2 => h ?_
  rw [mem_oSet, LV_zero, LV_one] at h1 h2
  have hc : c.val = c'.val := by omega
  have hi : i.val = i'.val := by omega
  exact Prod.ext (Fin.ext hc) (Fin.ext hi)

/-- Every row lies in some subcore's block. -/
theorem iSet_cover (j : S1000.Idx) : ∃ (c : Fin 2) (i : Fin 16), j ∈ iSet (LV c i) := by
  have hj : (j 0).val < 1000 := (j 0).isLt
  refine ⟨⟨((j 0).val / 40) % 2, Nat.mod_lt _ (by decide)⟩, ⟨((j 0).val / 40) / 2, by omega⟩, ?_⟩
  rw [mem_iSet, LV_zero, LV_one]
  simp only
  omega
theorem oSet_cover (j : S1000x128.Idx) : ∃ (c : Fin 2) (i : Fin 16), j ∈ oSet (LV c i) := by
  have hj : (j 0).val < 1000 := (j 0).isLt
  refine ⟨⟨((j 0).val / 40) % 2, Nat.mod_lt _ (by decide)⟩, ⟨((j 0).val / 40) / 2, by omega⟩, ?_⟩
  rw [mem_oSet, LV_zero, LV_one]
  simp only
  omega

/-- The two SparseCores' shares of rows do not meet, and together are every row. -/
theorem iSetC_disjoint : ∀ c ∈ (Finset.univ : Finset (Fin 2)), ∀ c' ∈ (Finset.univ : Finset (Fin 2)), c ≠ c' → Disjoint (iSetC c) (iSetC c') := by
  intro c _ c' _ h
  unfold iSetC
  rw [Finset.disjoint_biUnion_left]; intro i _
  rw [Finset.disjoint_biUnion_right]; intro i' _
  exact iSet_disjoint fun e => h (Prod.ext_iff.1 e).1
theorem oSetC_disjoint : ∀ c ∈ (Finset.univ : Finset (Fin 2)), ∀ c' ∈ (Finset.univ : Finset (Fin 2)), c ≠ c' → Disjoint (oSetC c) (oSetC c') := by
  intro c _ c' _ h
  unfold oSetC
  rw [Finset.disjoint_biUnion_left]; intro i _
  rw [Finset.disjoint_biUnion_right]; intro i' _
  exact oSet_disjoint fun e => h (Prod.ext_iff.1 e).1
theorem iSetC_cover : (Finset.univ : Finset (Fin 2)).biUnion iSetC = Finset.univ := by
  refine Finset.eq_univ_iff_forall.mpr fun j => ?_
  obtain ⟨c, i, h⟩ := iSet_cover j
  exact Finset.mem_biUnion.mpr ⟨c, Finset.mem_univ _, Finset.mem_biUnion.mpr ⟨i, Finset.mem_univ _, h⟩⟩
theorem oSetC_cover : (Finset.univ : Finset (Fin 2)).biUnion oSetC = Finset.univ := by
  refine Finset.eq_univ_iff_forall.mpr fun j => ?_
  obtain ⟨c, i, h⟩ := oSet_cover j
  exact Finset.mem_biUnion.mpr ⟨c, Finset.mem_univ _, Finset.mem_biUnion.mpr ⟨i, Finset.mem_univ _, h⟩⟩
theorem iSet_disjoint_in (c : Fin 2) : ∀ i ∈ (Finset.univ : Finset (Fin 16)), ∀ i' ∈ (Finset.univ : Finset (Fin 16)), i ≠ i' → Disjoint (iSet (LV c i)) (iSet (LV c i')) :=
  fun i _ i' _ h => iSet_disjoint fun e => h (Prod.ext_iff.1 e).2
theorem oSet_disjoint_in (c : Fin 2) : ∀ i ∈ (Finset.univ : Finset (Fin 16)), ∀ i' ∈ (Finset.univ : Finset (Fin 16)), i ≠ i' → Disjoint (oSet (LV c i)) (oSet (LV c i')) :=
  fun i _ i' _ h => oSet_disjoint fun e => h (Prod.ext_iff.1 e).2

/-! ## An array held whole is its blocks held side by side -/

variable (d : Dev nD)

/-- The label list whole is the two SparseCores' shares of it; -/
theorem iPts_cores (f : Buf (Elt F) (iLoc d)) :
    (iLoc d ↦{fullShare} f : sProp 𝕄) = bigSep Finset.univ fun c : Fin 2 => iLoc d ↦[iSetC c]{fullShare} f := by
  rw [← pointsTo_biUnion Finset.univ (ℓ := iLoc d) iSetC iSetC_disjoint, iSetC_cover]; try rfl
/-- a SparseCore's share is its subcores' blocks. -/
theorem iPts_tasks (c : Fin 2) (f : Buf (Elt F) (iLoc d)) :
    (iLoc d ↦[iSetC c]{fullShare} f : sProp 𝕄) = bigSep Finset.univ fun i : Fin 16 => iLoc d ↦[iSet (LV c i)]{fullShare} f :=
  pointsTo_biUnion Finset.univ (ℓ := iLoc d) (fun i => iSet (LV c i)) (iSet_disjoint_in c)
/-- The same of the gathered array. -/
theorem oPts_cores (f : Buf (Elt F) (oLoc d)) :
    (oLoc d ↦{fullShare} f : sProp 𝕄) = bigSep Finset.univ fun c : Fin 2 => oLoc d ↦[oSetC c]{fullShare} f := by
  rw [← pointsTo_biUnion Finset.univ (ℓ := oLoc d) oSetC oSetC_disjoint, oSetC_cover]; try rfl
theorem oPts_tasks (c : Fin 2) (f : Buf (Elt F) (oLoc d)) :
    (oLoc d ↦[oSetC c]{fullShare} f : sProp 𝕄) = bigSep Finset.univ fun i : Fin 16 => oLoc d ↦[oSet (LV c i)]{fullShare} f :=
  pointsTo_biUnion Finset.univ (ℓ := oLoc d) (fun i => oSet (LV c i)) (oSet_disjoint_in c)

end Cert.Proof.KB

end
-- ==== Proof.KB_Mm.lean ====
/-
  The matrix product on the TensorCore, as a pipeline region of one point.

  The region stages three whole arrays: the features x (1024 × 64) and the gathered rows z (1000 × 128) are fetched,
  the result (1024 × 1000) is written back. Its body loads x whole, loads the first 64 columns of z, loads the result
  buffer (whatever it holds), and stores over the whole result buffer the product of x with those columns of z,
  contracting the 64 features, into a zero accumulator. So after the body the result buffer holds one function of the
  two loaded blocks, and since the blocks are the whole arrays, the result array ends at that function of the arrays
  as the region found them.
-/
import proofs.«209817_g38706245271594_cont_8to1_b_1000_24_alg».proof.Proof.KB_Common
import Idealize.ShloMosaic.Lib.Pipeline.FrameBody
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays as the region finds them, and the windows' blocks -/

/-- The three windows' arrays when the region is entered: the features as launched, the gathered rows, the result
    array as launched. -/
def mmA (d : Dev nD) : (w : Fin cfg1.W) → Buf (Elt F) ((cfg1.win w).arr.view.loc (d.tc : Thread nD τ)) := fun w =>
  match w with
  | ⟨0, _⟩ => m (xLoc d)
  | ⟨1, _⟩ => Gat m d
  | ⟨2, _⟩ => m (rLoc d)

theorem mmA_0 (d : Dev nD) : mmA m d 0 = m (xLoc d) := rfl
theorem mmA_1 (d : Dev nD) : mmA m d 1 = Gat m d := rfl
theorem mmA_2 (d : Dev nD) : mmA m d 2 = m (rLoc d) := rfl

/-- Window `w`'s block at the point, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (mmA m d w)

/-! ## What the body leaves in the result buffer -/

abbrev r1_0 : Rect S1024x64 := Rect.unit (s := S1024x64) ![0, 0] S1024x64.size Facts₀.inb_S1024x64_S1024x64_0_0
abbrev r1_1 : Rect S1000x128 := Rect.unit (s := S1000x128) ![0, 0] S1000x64.size Facts₀.inb_S1000x128_S1000x64_0_0
abbrev r1_2 : Rect S1024x1000 := Rect.unit (s := S1024x1000) ![0, 0] S1024x1000.size Facts₀.inb_S1024x1000_S1024x1000_0_0

/-- The result buffer after the body, from the two input blocks: its one store, over the whole buffer, of the product
    of the loaded features with the loaded 64 columns. -/
def out1_2 (x0 : Vec F S1024x64 .f32) (x1 : Vec F S1000x128 .f32) : Vec F S1024x1000 .f32 :=
  View.canon [⟨r1_2, k1_pay1 (View.ld x0 r1_0) (View.ld x1 r1_1)⟩]

/-- The one store covers the buffer. -/
theorem cover1_2 (p0 : Vec F S1024x1000 .f32) (y : S1024x1000.Idx) :
    ∃ pc ∈ ([⟨r1_2, p0⟩] : List (View.Piece (Elt F) S1024x1000 .f32)), y ∈ pc.1.set :=
  View.cover_of_tiled [⟨r1_2, p0⟩] S1024x1000.size (by rfl) y

/-! ## The body's triple -/

set_option maxHeartbeats 1000000 in
/-- The body on whole staging memrefs, the inputs' at contents `x0`, `x1` and the result's at anything, runs to the
    continuation holding the inputs' as they were and the result's at `out1_2 x0 x1`. -/
theorem sound_mm (c : Dev nD) (E : Set ℕ) (arg0 : Memref sig .tc .vmem S1024x64 .f32) (harg0 : arg0.IsWhole)
    (arg1 : Memref sig .tc .vmem S1000x128 .f32) (harg1 : arg1.IsWhole) (arg2 : Memref sig .tc .vmem S1024x1000 .f32) (harg2 : arg2.IsWhole)
    (x0 : Vec F S1024x64 .f32) (x1 : Vec F S1000x128 .f32) (Kc : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ Kc ⟨⟩))
      ⊢ wp frame (wpE (defs₀ (F := F)) Variants.none c none) E (cc1__mm_body arg0 harg0 arg1 harg1 arg2 harg2) Kc := by
  simp only [cc1__mm_body_eq_skeleton]; unfold cc1__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data on core `d`: the arrays as the region finds them; after the body each input's buffer at its block
    and the result's at `out1_2` of the input blocks; as invariant the scoped buffers no window stages (there are
    none), passed through; nothing owed; full shares. -/
def mmDat (d : Dev nD) : Dat τ (Elt F) (HIx 1) ℕ UU ℕ cfg1 d where
  A := mmA m d
  after w t := match w with
    | ⟨0, _⟩ => iblk m d 0 t
    | ⟨1, _⟩ => iblk m d 1 t
    | ⟨2, _⟩ => out1_2 (iblk m d 0 t) (iblk m d 1 t)
  Φ _ := Pipeline.scopedRest spec1 d
  q _ := fullShare
  owed _ := 0

theorem mmA_eq (d : Dev nD) (w : Fin cfg1.W) : (mmDat m d).A w = mmA m d w := by dsimp only [mmDat]
theorem after1_0 (d : Dev nD) (t : Fin cfg1.N) : (mmDat m d).after 0 t = iblk m d 0 t := by dsimp only [mmDat]
theorem after1_1 (d : Dev nD) (t : Fin cfg1.N) : (mmDat m d).after 1 t = iblk m d 1 t := by dsimp only [mmDat]
theorem after1_2 (d : Dev nD) (t : Fin cfg1.N) : (mmDat m d).after 2 t = out1_2 (iblk m d 0 t) (iblk m d 1 t) := by dsimp only [mmDat]

/-- Each input's staging buffer holds its block when the body runs: the block is fetched at the point. -/
theorem before1_0 (d : Dev nD) (t : Fin cfg1.N) (e) : (mmDat m d).before 0 t e = iblk m d 0 t :=
  ((mmDat m d).before_in_eq_fetched 0 rfl (fun _ => rfl) (fun _ _ _ => rfl)
      (fun t => by rw [after1_0]; unfold Dat.blockOf iblk; rw [mmA_eq]; try rfl) t e).trans
    (by unfold Dat.fetched Dat.blockOf iblk; rw [mmA_eq]; try rfl)
theorem before1_1 (d : Dev nD) (t : Fin cfg1.N) (e) : (mmDat m d).before 1 t e = iblk m d 1 t :=
  ((mmDat m d).before_in_eq_fetched 1 rfl (fun _ => rfl) (fun _ _ _ => rfl)
      (fun t => by rw [after1_1]; unfold Dat.blockOf iblk; rw [mmA_eq]; try rfl) t e).trans
    (by unfold Dat.fetched Dat.blockOf iblk; rw [mmA_eq]; try rfl)

/-! ## The body obligation -/

/-- The body at the point: the inputs' memrefs hold their blocks, so `sound_mm` applies; the invariant and the core's
    `owes` pass through unread. -/
theorem body_obligation (d : Dev nD) : BodyObligation (mmDat (F := F) m d) (defs₀ (F := F)) Variants.none none Set.univ := fun t => by
  rw [bigSep_W1, bigSep_W1]
  simp only [before1_0, before1_1]
  rw [show (mmDat m d).Φ t.succ = (mmDat m d).Φ t.castSucc from rfl,
    show (mmDat m d).owesAt none t.succ = (mmDat m d).owesAt none t.castSucc from rfl,
    after1_0, after1_1, after1_2]
  iintro ⟨HΦ, Ho, ⟨%d0, H0⟩, ⟨%d1, H1⟩, ⟨%d2, H2⟩⟩
  iapply (sound_mm d Set.univ (win1_0.stage (cfg1.slots t 0)) (Facts₀.hstage1_0 0) (win1_1.stage (cfg1.slots t 1)) (Facts₀.hstage1_1 0)
    (win1_2.stage (cfg1.slots t 2)) (Facts₀.hstage1_2 0) (iblk m d 0 t) (iblk m d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Proof.KB

end
-- ==== Proof.KB_Region.lean ====
/-
  The matrix product's region, as the TensorCore's program meets it after the gather.

  The region is entered holding the features, the gathered rows and the result array whole, and owing nothing; it
  leaves holding the first two unchanged (they are only fetched) and the result array at what the one write-back
  leaves: the whole array overwritten by the result buffer, that is, by the product of the two arrays as the region
  found them.
-/
import proofs.«209817_g38706245271594_cont_8to1_b_1000_24_alg».proof.Proof.KB_Mm

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The pipeline has no prefetched table. -/
abbrev adm : (p : Fin 1) → (pcfgs (F := F) p).Adm := fun p => (cfgs p).toPCfg_adm
/-- The one pipeline's proof data, on every core. -/
def pdats : (p : Fin 1) → (c : Dev nD) → Dat τ (Elt F) (HIx 1) ℕ UU ℕ (Pipeline.pin (pcfgs (F := F)) adm p) c := fun _ c => mmDat m c

theorem bigSep_W0 {M : Type} [URA M] (Φ : Fin 0 → sProp M) : bigSep Finset.univ Φ = (BI.emp : sProp M) :=
  bigSep_univ_eq_bigSepL [] (by decide) (by decide) Φ
theorem prefHeld1 (c : Dev nD) (q) (pf) :
    (Pipeline.prefHeld (Ix := HIx 1) (Name := ℕ) (U := UU) (Lvl := ℕ) (Val := Elt F) (pcfgs (F := F) 0).pre c q pf : sProp 𝕄) = BI.emp := bigSep_W0 _
theorem scopedRest1 (c : Dev nD) :
    (Pipeline.scopedRest (Ix := HIx 1) (Name := ℕ) (U := UU) (Lvl := ℕ) (Val := Elt F) spec1 c : sProp 𝕄) = BI.emp := scopedRest1_eq c

/-- The core owing nothing, as the pipeline holds it. -/
theorem owesAt_intro (d : Dev nD) (t : Fin (cfg1.N + 1)) :
    iprop(∃ W, owes (d : Thread nD τ) (0 : CellTallies nD τ sig (HIx 1)) W) ⊢ ((mmDat m d).owesAt none t : sProp 𝕄) := by
  unfold Pipeline.Dat.owesAt Pipeline.owesWithin Pipeline.Dat.bound
  rw [show (mmDat m d).owed t = 0 from rfl, show (mmDat m d).recorded t = Set.univ from rfl]
  iintro ⟨%W, HO⟩; iexists W; isplitr; · ipureintro; exact fun _ _ => Or.inl trivial
  iexact HO
theorem owesAt_elim (d : Dev nD) (t : Fin (cfg1.N + 1)) :
    ((mmDat m d).owesAt none t : sProp 𝕄) ⊢ iprop(∃ W, owes (d : Thread nD τ) (0 : CellTallies nD τ sig (HIx 1)) W) := by
  unfold Pipeline.Dat.owesAt Pipeline.owesWithin
  rw [show (mmDat m d).owed t = 0 from rfl]
  iintro ⟨%W, -, HO⟩; iexists W; iexact HO

/-- The three windows' arrays, one by one: each whole, at the full share. -/
theorem arrays_mm (d : Dev nD) (Fa : (w : Fin cfg1.W) → Buf (Elt F) ((cfg1.win w).arr.view.loc (d.tc : Thread nD τ))) :
    ((mmDat m d).arrays Fa : sProp 𝕄) = iprop((xLoc d ↦{fullShare} Fa 0) ∗ (oLoc d ↦{fullShare} Fa 1) ∗ (rLoc d ↦{fullShare} Fa 2)) := by
  unfold Dat.arrays
  have h : (bigSep Finset.univ fun w : Fin cfg1.W =>
        ((cfg1.win w).arr.view.loc (d.tc : Thread nD τ) ↦[(cfg1.win w).arr.view.set]{(mmDat m d).share w} Fa w : sProp 𝕄))
      = bigSep Finset.univ fun w : Fin cfg1.W => (((d.tc : Thread nD τ).loc (Pipeline.arrRef spec1 w)) ↦{fullShare} Fa w : sProp 𝕄) :=
    bigSep_congr fun w _ => by rw [(arr_whole1 w).set_eq_univ, (mmDat m d).share_full (fun _ => rfl) w]
  rw [h, bigSep_W1]

/-- The result array after the region. -/
abbrev Res (d : Dev nD) : Buf (Elt F) (rLoc d) := (mmDat m d).arrAt 2 cfg1.N

/-- What the region is entered from and what it leaves. -/
abbrev regPre (d : Dev nD) : sProp 𝕄 :=
  iprop((xLoc d ↦{fullShare} m (xLoc d)) ∗ (oLoc d ↦{fullShare} Gat m d) ∗ (rLoc d ↦{fullShare} m (rLoc d))
    ∗ ∃ W, owes (d : Thread nD τ) (0 : CellTallies nD τ sig (HIx 1)) W)
abbrev regPost (d : Dev nD) : sProp 𝕄 :=
  iprop((xLoc d ↦{fullShare} m (xLoc d)) ∗ (oLoc d ↦{fullShare} Gat m d) ∗ (rLoc d ↦{fullShare} Res m d)
    ∗ ∃ W, owes (d : Thread nD τ) (0 : CellTallies nD τ sig (HIx 1)) W)

/-- The region: the layout as decided, no semaphore of the body's own, the body obligation, nothing owed; the three
    arrays enter the pipeline and come back, nothing else is touched. -/
def reg : Pipeline.RegionSeg (pcfgs (F := F)) adm (pdats m) (none : HIx 1) defs₀ 𝒱₀ (K (F := F)).L (K (F := F)).lev (0 : Fin 1) where
  win := winFacts1.to₀
  block_pos := block_pos1
  stage_whole := stage_whole1
  K := PEmpty
  osem k := k.elim
  ho := Pipeline.OwnSemFacts.none _
  hbody c := (body_obligation m c).loose
  hwaits := Pipeline.hwaits_of_owed_zero _ _ _ _ _ _ 0 fun _ _ => rfl
  pre := regPre m
  post := regPost m
  X _ := iprop(emp)
  Y _ := iprop(emp)
  Z _ := iprop(emp)
  hentry d := by
    rw [Pipeline.ownSems0_none, prefHeld1]
    show _ ⊢ |={Set.univ}=> iprop((mmDat m d).arrays ((mmDat m d).arrAt · 0) ∗ emp ∗ (mmDat m d).owesAt none 0 ∗ emp ∗ emp)
    rw [arrays_mm]
    iintro ⟨⟨Hx, Ho, Hr, HO⟩, -, -⟩
    imodintro
    isplitl [Hx Ho Hr]
    · isplitl [Hx]; · iexact Hx
      isplitl [Ho]; · iexact Ho
      iexact Hr
    isplitr; · iempintro
    isplitl [HO]; · iapply (owesAt_intro m d 0); iexact HO
    isplitr <;> iempintro
  hin d := by
    show _ ⊢ (Pipeline.scopedRest spec1 d : sProp 𝕄)
    iintro ⟨-, -, H⟩; iexact H
  hout d := by
    rw [Pipeline.ownSems0_none]
    show (Pipeline.scopedRest spec1 d : sProp 𝕄) ⊢ _
    iintro H
    isplitr; · iempintro
    isplitr; · iempintro
    iexact H
  hexit d := by
    show iprop((mmDat m d).arrays ((mmDat m d).arrAt · cfg1.N) ∗ (mmDat m d).owesAt none (Fin.last cfg1.N) ∗ emp ∗ emp) ⊢ |={Set.univ}=> regPost m d
    rw [arrays_mm, (mmDat m d).arrAt_in 0 rfl, (mmDat m d).arrAt_in 1 rfl]
    iintro ⟨⟨Hx, Ho, Hr⟩, HO, -, -⟩
    imodintro
    isplitl [Hx]; · iexact Hx
    isplitl [Ho]; · iexact Ho
    isplitl [Hr]; · iexact Hr
    iapply (owesAt_elim m d _); iexact HO

end Cert.Proof.KB

end
-- ==== Proof.KB_Launch.lean ====
/-
  How a SparseCore's share of the arrays splits among its sixteen vector subcores and comes back, and what the launch
  deals the proof from its ghost state.

  A SparseCore is handed its subcores' blocks of the label list and of the gathered array, and a read share of the
  padded table. The blocks are pairwise disjoint, so the SparseCore's part of each array is its subcores' parts side by
  side; the read share is split into sixteen smaller read shares and a remainder, which stays behind until the
  subcores' shares come back and is then joined with them again.

  Of the ghost state, the launch handshakes' part goes to the launch theorem, the TensorCore pipeline's staging cells'
  part is turned into each core's cells' state and duty tokens (what the matrix product's region is later entered
  with), and the counters are not needed at launch: each subcore's copies allocate their own as they go.
-/
import proofs.«209817_g38706245271594_cont_8to1_b_1000_24_alg».proof.Proof.KB_Blocks
import proofs.«209817_g38706245271594_cont_8to1_b_1000_24_alg».proof.Proof.KB_Region

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## A SparseCore's share among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split for SparseCore `c`: blocks by disjointness, the table's read share into sixteen and a remainder kept
    aside until they return. -/
theorem split_core (d : Dev nD) (c : Fin 2) :
    coreRes m d c (m (oLoc d)) ⊢ |={Set.univ}=> iprop(
      (bigSep Finset.univ fun i : Fin 16 => taskRes m d c i (m (oLoc d)))
      ∗ ((bigSep Finset.univ fun i : Fin 16 => taskRes m d c i (Gat m d)) -∗ coreRes m d c (Gat m d))) := by
  rw [bigSep_sep', bigSep_sep', bigSep_sep', bigSep_sep', ← iPts_tasks, ← oPts_tasks, ← oPts_tasks]
  iintro ⟨Hi, Ht, Ho⟩
  ihave Ht' := ((Transfers.pointsTo_toks (ℓ := tLoc d) (S := Finset.univ) (f := TPad m d) (qC c) 16).1) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply ((Transfers.pointsTo_toks (ℓ := tLoc d) (S := Finset.univ) (f := TPad m d) (qC c) 16).2)
    isplitl [Hrem]; · iexact Hrem
    iexact Htoks
  iexact Ho

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => taskRes m d (Fin.cast nCore_zero c) (Fin.cast nSub_zero i) (m (oLoc d)))
      ∗ ((bigSep Finset.univ fun i : Fin ((K (F := F)).nSub 0) => taskRes m d (Fin.cast nCore_zero c) (Fin.cast nSub_zero i) (Gat m d))
          -∗ coreRes m d (Fin.cast nCore_zero c) (Gat m d)))
  rw [bigSep_tasks (F := F) (fun i => taskRes m d (Fin.cast nCore_zero c) i (m (oLoc d))),
    bigSep_tasks (F := F) (fun i => taskRes m d (Fin.cast nCore_zero c) i (Gat m d))]
  exact split_core m d (Fin.cast nCore_zero c)

/-! ## The launch element -/

/-- The pipeline's staging cells are pairwise distinct. -/
theorem cellOf_inj' : Function.Injective (Pipeline.cellOf (nD := nD) (τ := τ) (Pipeline.pin (pcfgs (F := F)) adm)) :=
  Pipeline.cellOf_injective _ (fun p => by fin_cases p; exact (by decide : Pipeline.SpecSemsDistinct spec1))
    (fun p p' h => absurd (Subsingleton.elim p p') h)

/-- The launch element: the handshakes' rounds, the staging cells' rounds, no counter yet. -/
def u₀ : UU :=
  (initOf (K (F := F)).hsCells (K (F := F)).hsToks,
    (initOf (Pipeline.cells (Pipeline.pin (pcfgs (F := F)) adm) cellOf_inj') (Pipeline.launchToks (Pipeline.pin (pcfgs (F := F)) adm) cellOf_inj'), 1))

/-- What @main's proof on device `d` starts from, beyond what the launch deals every TensorCore: its pipeline's staging
    cells' state and duty tokens. -/
abbrev G (d : Dev nD) : sProp 𝕄 :=
  iprop((bigSep Finset.univ fun p : Fin 1 => Pipeline.cellsGhost (Pipeline.pin (pcfgs (F := F)) adm) EP p d)
    ∗ (bigSep Finset.univ fun p : Fin 1 => (Pipeline.toksInit (Pipeline.pin (pcfgs (F := F)) adm) EP p d : sProp 𝕄)))

theorem bigSep_emp' {I : Type} (s : Finset I) : (bigSep s fun _ => iprop(emp)) = (iprop(emp) : sProp 𝕄) := bigSep_emp_const s

/-- The staging cells' half of the launch element, as the pipeline library's embedding owns it. -/
theorem own_EP (x : UP) :
    (BI.own (((Emb.inl : Emb UP (UP × Counters)).trans (embR : Emb (UP × Counters) (MT nD τ sig (HIx 1) (Elt F) ℕ UU ℕ))) x) : sProp 𝕄) ⊢ BI.own (EP x) :=
  Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP0, -⟩
  ihave HP := (own_EP (F := F) _) $$ HP0
  imod (Pipeline.fund_ghost (Pipeline.pin (pcfgs (F := F)) adm) EP cellOf_inj') $$ HP with ⟨Hg, Ht⟩
  imodintro
  isplitl [HH]; · iexact HH
  isplitl [Hg Ht]
  · rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KB_Main.lean ====
/-
  The TensorCore's program: the padding, the gather's call, the matrix product's region.

  The TensorCore first writes the integer zero, converts it to a float, and pads the table with it to 128 columns:
  three host operations over its eight arrays held whole, after which the padded table's buffer holds `TPad` and
  every other array what it held. It then hands each SparseCore its subcores' blocks of the label list and of the
  gathered array and a read share of the padded table (keeping the remaining share itself), and gets them back with
  the gathered array at `Gat`. After the only call it owes the launch nothing more, so it enters the matrix product's
  region owing nothing, with the features, the gathered rows and the result array, and leaves it with the result
  array at `Res`. What it keeps to the end: the three arguments at their launch contents and the result array.
-/
import proofs.«209817_g38706245271594_cont_8to1_b_1000_24_alg».proof.Proof.KB_Launch

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

abbrev x' : DevRef τ sig := Proc.devRef .tc (main_arg0 : Ref sig .tc)
abbrev i' : DevRef τ sig := Proc.devRef .tc (main_arg1 : Ref sig .tc)
abbrev a' : DevRef τ sig := Proc.devRef .tc (main_arg2 : Ref sig .tc)
abbrev z' : DevRef τ sig := Proc.devRef .tc (main_c : Ref sig .tc)
abbrev zf' : DevRef τ sig := Proc.devRef .tc (main_call0_v0 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped. -/
abbrev S8 : Finset (DevRef τ sig) := {x', i', a', z', zf', t', o', r'}

/-- The integer zero; its conversion; the padding. -/
abbrev opZ : HloOp τ sig (Elt F) := StableHlo.nullary main_c (constantI S_ 32 0#32)
abbrev opC : HloOp τ sig (Elt F) :=
  StableHlo.TRef.unary (StableHlo.TRef.of main_c : StableHlo.TRef sig ⟨S_, .i32⟩) (StableHlo.TRef.of main_call0_v0 : StableHlo.TRef sig ⟨S_, .f32⟩) (sitofp .f32)
abbrev opP : HloOp τ sig (Elt F) :=
  StableHlo.TRef.binary (StableHlo.TRef.of main_arg2 : StableHlo.TRef sig ⟨S1000x64, .f32⟩) (StableHlo.TRef.of main_call0_v0 : StableHlo.TRef sig ⟨S_, .f32⟩)
    (StableHlo.TRef.of main_v0 : StableHlo.TRef sig ⟨S1000x128, .f32⟩)
    (fun x v => pad S1000x128 ![0, 0] ![0, 64] ![0, 0] x v Facts₀.pads_S1000x64_S1000x128_000_0640 Facts₀.h_S_)

def V0 (d : Dev nD) : Valuation τ sig (Elt F) := fun b => m (d, b)
def V1 (d : Dev nD) : Valuation τ sig (Elt F) := (opZ (F := F)).result (V0 m d)
def V2 (d : Dev nD) : Valuation τ sig (Elt F) := (opC (F := F)).result (V1 m d)
def V3 (d : Dev nD) : Valuation τ sig (Elt F) := (opP (F := F)).result (V2 m d)

theorem held_S8 (d : Dev nD) (W : Valuation τ sig (Elt F)) :
    (held (T d) S8 W : sProp 𝕄) = iprop((xLoc d ↦{fullShare} W x') ∗ (iLoc d ↦{fullShare} W i') ∗ (aLoc d ↦{fullShare} W a') ∗ (zLoc d ↦{fullShare} W z')
      ∗ (zfLoc d ↦{fullShare} W zf') ∗ (tLoc d ↦{fullShare} W t') ∗ (oLoc d ↦{fullShare} W o') ∗ (rLoc d ↦{fullShare} W r')) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (aLoc d ↦{fullShare} W main_arg2)
      ∗ (zLoc d ↦{fullShare} W main_c) ∗ (zfLoc d ↦{fullShare} W main_call0_v0) ∗ (tLoc d ↦{fullShare} W main_v0) ∗ (oLoc d ↦{fullShare} W main_v1)
      ∗ (rLoc d ↦{fullShare} W main_v2)) := by
  unfold unscopedBufs
  rw [show (Finset.univ.filter fun b : Ref sig .tc => ¬ b.isScoped) = {main_arg0, main_arg1, main_arg2, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

/-- After the three operations an array that none of them writes holds what it held at launch; -/
theorem V3_other (d : Dev nD) (r : Ref sig .tc) (h1 : r ≠ main_c) (h2 : r ≠ main_call0_v0) (h3 : r ≠ main_v0) :
    V3 m d (Proc.devRef .tc r) = m (d, Proc.devRef .tc r) := by
  unfold V3 V2 V1 V0
  rw [StableHlo.binary_result_ne _ _ _ _ _ _ _ _ h3, StableHlo.unary_result_ne _ _ _ _ _ _ h2, StableHlo.nullary_result_ne _ _ _ _ h1]
/-- the padded table's buffer holds the table padded with the converted zero. -/
theorem V3_t (d : Dev nD) : V3 m d t' = TPad m d := by
  unfold V3 V2 V1 V0
  show (StableHlo.binary main_arg2 main_call0_v0 main_v0 _ _ _ _).result _ (Proc.devRef .tc main_v0) = _
  rw [StableHlo.binary_result, StableHlo.unary_result_ne _ _ _ _ _ _ (show main_arg2 ≠ main_call0_v0 by decide),
    StableHlo.nullary_result_ne _ _ _ _ (show main_arg2 ≠ main_c by decide), StableHlo.unary_result, StableHlo.nullary_result]
  rfl

theorem hZ : (opZ (F := F)).bufs ⊆ S8 := show ({z'} : Finset (DevRef τ sig)) ⊆ S8 by decide
theorem hC : (opC (F := F)).bufs ⊆ S8 := show ({z', zf'} : Finset (DevRef τ sig)) ⊆ S8 by decide
theorem hP : (opP (F := F)).bufs ⊆ S8 := show ({a', zf', t'} : Finset (DevRef τ sig)) ⊆ S8 by decide

/-! ## The call's operands, by SparseCore -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes for the two SparseCores, and what it hands back: the label list and the gathered array whole,
    the padded table's two read shares. -/
theorem cores_split (d : Dev nD) (fo : Buf (Elt F) (oLoc d)) :
    (bigSep Finset.univ fun c : Fin ((K (F := F)).nCore 0) => coreRes m d (Fin.cast nCore_zero c) fo)
      = iprop((iLoc d ↦{fullShare} m (iLoc d)) ∗ (bigSep Finset.univ fun c : Fin 2 => (tLoc d ↦{qC c} TPad m d : sProp 𝕄)) ∗ (oLoc d ↦{fullShare} fo)) := by
  rw [bigSep_cores (F := F) (fun c => coreRes m d c fo), bigSep_sep', bigSep_sep', ← iPts_cores, ← oPts_cores]

/-- The call's operands and results, as the handshakes carry them. -/
theorem st0_eq (d : Dev nD) :
    (bigSep Finset.univ fun c : Fin ((K (F := F)).nCore 0) => (P m).st 0 d c)
      = iprop((iLoc d ↦{fullShare} m (iLoc d)) ∗ (bigSep Finset.univ fun c : Fin 2 => (tLoc d ↦{qC c} TPad m d : sProp 𝕄)) ∗ (oLoc d ↦{fullShare} m (oLoc d))) := by
  show (bigSep Finset.univ fun c : Fin ((K (F := F)).nCore 0) => coreRes m d (Fin.cast nCore_zero c) (m (oLoc d))) = _
  exact cores_split m d (m (oLoc d))
theorem dn0_eq (d : Dev nD) :
    (bigSep Finset.univ fun c : Fin ((K (F := F)).nCore 0) => (P m).dn 0 d c)
      = iprop((iLoc d ↦{fullShare} m (iLoc d)) ∗ (bigSep Finset.univ fun c : Fin 2 => (tLoc d ↦{qC c} TPad m d : sProp 𝕄)) ∗ (oLoc d ↦{fullShare} Gat m d)) := by
  show (bigSep Finset.univ fun c : Fin ((K (F := F)).nCore 0) => coreRes m d (Fin.cast nCore_zero c) (Gat m d)) = _
  exact cores_split m d (Gat m d)

/-! ## The handshake state after the only call: nothing owed -/

theorem wbelow_any (d : Dev nD) (W : Waits sig (HIx 1)) : (K (F := F)).WBelow (T d) W (8 * 1) := by
  intro p _
  obtain ⟨s, ι⟩ := p
  show (K (F := F)).lev (T d, s) ι ≤ 8 * 1
  cases ι with
  | none => rw [SparseCore.Cfg.lev_none]; omega
  | some q =>
    have h7 := (K (F := F)).lev_some_le (T d, s) q
    have hq : q.val = 0 := by omega
    omega

/-- After the call the TensorCore's handshake state is its `owes` at nothing, and the rest, which takes any `owes` at
    nothing back. -/
theorem tcSt_open (d : Dev nD) :
    ((K (F := F)).tcSt EH d 1 : sProp 𝕄) ⊢ iprop((∃ W, owes (T d) (0 : CellTallies nD τ sig (HIx 1)) W)
      ∗ ((∃ W, owes (T d) (0 : CellTallies nD τ sig (HIx 1)) W) -∗ (K (F := F)).tcSt EH d 1)) := by
  unfold SparseCore.Cfg.tcSt
  rw [(K (F := F)).Otc_end d (le_refl 1)]
  iintro ⟨⟨%W, %hW, HO⟩, Hrest⟩
  isplitl [HO]; · iexists W; iexact HO
  iintro ⟨%W', HO'⟩
  isplitr [Hrest]
  · iexists W'; isplitr; · ipureintro; exact wbelow_any d W'
    iexact HO'
  iexact Hrest

/-! ## The region, entered from the TensorCore's program -/

/-- An entailment of the library's, read as the proof mode's. -/
theorem ent' {A B : sProp 𝕄} (h : A ⊢ B) : Idealize.SL.BI.Entails A B := h

/-- With one pipeline, what @main's proof starts from is that pipeline's staging cells' state and duty tokens. -/
theorem G_eq (d : Dev nD) :
    (G (F := F) d : sProp 𝕄)
      = iprop(Pipeline.cellsGhost (Pipeline.pin (pcfgs (F := F)) adm) EP 0 d ∗ (Pipeline.toksInit (Pipeline.pin (pcfgs (F := F)) adm) EP 0 d : sProp 𝕄)) := by
  show iprop((bigSep Finset.univ fun p : Fin 1 => Pipeline.cellsGhost (Pipeline.pin (pcfgs (F := F)) adm) EP p d)
    ∗ (bigSep Finset.univ fun p : Fin 1 => (Pipeline.toksInit (Pipeline.pin (pcfgs (F := F)) adm) EP p d : sProp 𝕄))) = _
  rw [bigSep_univ_of_subsingleton (0 : Fin 1), bigSep_univ_of_subsingleton (0 : Fin 1)]

set_option maxHeartbeats 400000 in
/-- The matrix product's call as @main spells it: from the region boundary, what the region is entered from, the level
    facts and the pipeline's staging cells' state, to the boundary and what the region leaves. -/
theorem region_step [∀ e, Nonempty (Elt F e)] (d : Dev nD) (Φ : PUnit.{1} → sProp 𝕄) :
    iprop(levAts (K (F := F)).L (K (F := F)).lev ∗ boundary (T d) ∗ regPre m d ∗ G (F := F) d ∗ (iprop(boundary (T d) ∗ regPost m d) -∗ Φ PUnit.unit))
      ⊢ wp frame (wpE ((K (F := F)).defs (D (F := F))) 𝒱 (T d) none) Set.univ
          (Prog.lift (.customCall (SparseCore.inner (Pipeline.entry (0 : Fin 1))) ())) Φ := by
  refine BI.Entails.trans ?_ ((K (F := F)).wp_liftProg (D (F := F)) 𝒱 (T d) Set.univ none
    (Prog.op (.customCall (Pipeline.entry (0 : Fin 1)) ()) fun _ => Prog.ret PUnit.unit) Φ)
  refine BI.Entails.trans ?_ (Pipeline.RegionSeg.wp (pcfgs (F := F)) adm (pdats m) (none : HIx 1) cellOf_inj' EP defs₀ 𝒱₀
    (K (F := F)).L (K (F := F)).lev (reg m) d none (fun u hu => by simp at hu) (fun _ => Prog.ret PUnit.unit) Φ)
  refine ent' ?_
  iintro ⟨Hlv, Hb, Hpre, HG, Hk⟩
  ihave HG' := (Entails.of_eq (G_eq (F := F) d)) $$ HG
  icases HG' with ⟨Hg, Ht⟩
  isplitl [Hk]
  · iintro H
    rw [wp_ret]; imodintro
    iapply Hk; iexact H
  isplitl [Hb]; · iexact Hb
  isplitl [Hpre]
  · ihave Hpre' := (Entails.of_eq (show (regPre m d : sProp 𝕄) = (reg m).pre d from rfl)) $$ Hpre
    iexact Hpre'
  isplitl [Hlv]; · iexact Hlv
  isplitl [Hg]; · iexact Hg
  iexact Ht

/-! ## @main -/

/-- What @main leaves the claim: the three arguments at their launch contents and the result array. -/
abbrev FIN (d : Dev nD) : sProp 𝕄 :=
  iprop((xLoc d ↦{fullShare} m (xLoc d)) ∗ (iLoc d ↦{fullShare} m (iLoc d)) ∗ (aLoc d ↦{fullShare} m (aLoc d)) ∗ (rLoc d ↦{fullShare} Res m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, wp_bind, wp_pure]
  iintro ⟨#Hctx, Hst, ⟨Hb, Hheld, -, -⟩, Hg⟩
  ihave Hlv := (SparseCore.Cfg.ctx_levAts (K := K (F := F)) κ) $$ Hctx
  -- the zero, its conversion, the padding
  iapply (wp_hlo_within 𝒱 (SparseCore.T d) none Set.univ (op := opZ) (S := S8) hZ (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S8) hC (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opP) (S := S8) hP (V := V2 m d)) $$ [Hb Hheld]
  · isplitl [Hb]; · iexact Hb
    iexact Hheld
  iintro ⟨Hb, Hheld⟩
  rw [wp_ret]; imodintro; imodintro
  ihave Hheld' := (Entails.of_eq (show (held (T d) S8 ((opP (F := F)).result (V2 m d)) : sProp 𝕄) = held (T d) S8 (V3 m d) from rfl)) $$ Hheld
  ihave Hh := (Entails.of_eq (held_S8 (F := F) d (V3 m d))) $$ Hheld'
  rw [V3_other m d main_arg0 (by decide) (by decide) (by decide), V3_other m d main_arg1 (by decide) (by decide) (by decide),
    V3_other m d main_arg2 (by decide) (by decide) (by decide), V3_other m d main_v1 (by decide) (by decide) (by decide),
    V3_other m d main_v2 (by decide) (by decide) (by decide), V3_t]
  icases Hh with ⟨Hx, Hi, Ha, Hz, Hzf, Ht, Ho, Hr⟩
  -- the call: each SparseCore its subcores' blocks and a read share of the padded table; the remaining share stays here
  ihave Ht' := ((Transfers.pointsTo_toks (ℓ := tLoc d) (S := Finset.univ) (f := TPad m d) fullShare 2).1) $$ Ht
  icases Ht' with ⟨Htrem, Httoks⟩
  iapply ((K (F := F)).wp_run (D (F := F)) 𝒱 (EH := EH) (P := P m) κ d 0) $$ [Hst Hi Httoks Ho Hb Hx Ha Hz Hzf Htrem Hr Hg Hlv]
  isplitr; · iexact Hctx
  isplitl [Hst]; · iexact Hst
  isplitl [Hi Httoks Ho]
  · rw [st0_eq]
    isplitl [Hi]; · iexact Hi
    isplitl [Httoks]; · iexact Httoks
    iexact Ho
  iintro ⟨Hst, Hdn⟩
  ihave Hdn' := (Entails.of_eq (dn0_eq m d)) $$ Hdn
  icases Hdn' with ⟨Hi, Httoks, Ho⟩
  -- the matrix product's region, entered owing nothing
  ihave Hst1 := (Entails.of_eq (show ((K (F := F)).tcSt EH d ((0 : Fin 1).val + 1) : sProp 𝕄) = (K (F := F)).tcSt EH d 1 from rfl)) $$ Hst
  ihave Hsp := (tcSt_open (F := F) d) $$ Hst1
  icases Hsp with ⟨HO, Hback⟩
  iapply (region_step m d _) $$ [Hlv Hb Hx Ho Hr HO Hg Hi Ha Hback]
  isplitl [Hlv]; · iexact Hlv
  isplitl [Hb]; · iexact Hb
  isplitl [Hx Ho Hr HO]
  · isplitl [Hx]; · iexact Hx
    isplitl [Ho]; · iexact Ho
    isplitl [Hr]; · iexact Hr
    iexact HO
  isplitl [Hg]; · iexact Hg
  iintro ⟨Hb, ⟨Hx, Ho, Hr, HO⟩⟩
  imodintro
  isplitl [Hback HO]
  · iapply Hback; iexact HO
  isplitl [Hx]; · iexact Hx
  isplitl [Hi]; · iexact Hi
  isplitl [Ha]; · iexact Ha
  iexact Hr

end Cert.Proof.KB

end
-- ==== Proof.KB_Final.lean ====
/-
  The program's run: every weakly fair execution of all its threads ends, nothing faulting, with the three arguments
  unchanged and the result array at the matrix product of the features with the gathered rows.

  The matrix product's region has one point and its three windows' blocks are the whole arrays: a block's index in
  the array is the index itself, so each input block read is the array as the region found it, and the one
  write-back overwrites the whole result array with the body's result buffer. Hence the result array after the region
  is the body's function of the two arrays. The launch theorem then assembles the run from the vector subcores'
  task, the split of a SparseCore's share among them, the launch element and the TensorCore's program.
-/
import proofs.«209817_g38706245271594_cont_8to1_b_1000_24_alg».proof.Proof.KB_Main

set_option maxRecDepth 16384

noncomputable section

namespace Cert.Proof.KB

open Cert.Kernel Cert.Kernel.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The result array after the region -/

/-- Every window's one block sits at block index zero on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The features' block is the features' array; -/
theorem iblk_0 (d : Dev nD) (t : Fin cfg1.N) : iblk m d 0 t = (m (xLoc d) : Vec F S1024x64 .f32) := by
  obtain ⟨e0, e1, -⟩ := idx_facts t
  funext j
  show (m (xLoc d) : Vec F S1024x64 .f32) (((cfg1.win 0).blk t).view.emb j) = (m (xLoc d) : Vec F S1024x64 .f32) j
  congr 1
  funext a; apply Fin.ext
  match a with
  | ⟨0, _⟩ => show win1_0.index t (0 : Fin 2) * 1024 + 1 * (j 0).val = (j 0).val; omega
  | ⟨1, _⟩ => show win1_0.index t (1 : Fin 2) * 64 + 1 * (j 1).val = (j 1).val; omega
/-- the gathered rows' block is the gathered array. -/
theorem iblk_1 (d : Dev nD) (t : Fin cfg1.N) : iblk m d 1 t = (Gat m d : Vec F S1000x128 .f32) := by
  obtain ⟨-, -, e2, e3, -⟩ := idx_facts t
  funext j
  show (Gat m d : Vec F S1000x128 .f32) (((cfg1.win 1).blk t).view.emb j) = (Gat m d : Vec F S1000x128 .f32) j
  congr 1
  funext a; apply Fin.ext
  match a with
  | ⟨0, _⟩ => show win1_1.index t (0 : Fin 2) * 1000 + 1 * (j 0).val = (j 0).val; omega
  | ⟨1, _⟩ => show win1_1.index t (1 : Fin 2) * 128 + 1 * (j 1).val = (j 1).val; omega

/-- The body's function of the two arrays as the region finds them. -/
abbrev MM (d : Dev nD) : Vec F S1024x1000 .f32 := out1_2 (m (xLoc d) : Vec F S1024x64 .f32) (Gat m d : Vec F S1000x128 .f32)

/-- What the point writes back is the block of that function. -/
theorem flushed2_eq (d : Dev nD) (t : Fin cfg1.N) :
    (mmDat m d).flushed 2 t
      = ((cfg1.win 2).blk t).view.read (Elt F) (out1_2 (m (xLoc d) : Vec F S1024x64 .f32) (Gat m d : Vec F S1000x128 .f32)) := by
  show (cfg1.win 2).cut (grid1.coords t) ((mmDat m d).after 2 t) = _
  rw [after1_2, iblk_0, iblk_1]
  obtain ⟨-, -, -, -, e4, e5⟩ := idx_facts t
  -- the body's function enters only through the index it is read at
  generalize out1_2 (m (xLoc d) : Vec F S1024x64 .f32) (Gat m d : Vec F S1000x128 .f32) = Y
  funext j
  refine Eq.trans ?_ ((View.read_apply _ _).trans (cast_eq _ _)).symm
  show Y ((cfg1.win 2).xinj (grid1.coords t) j) = Y (((cfg1.win 2).blk t).view.emb j)
  congr 1
  funext a; apply Fin.ext
  match a with
  | ⟨0, _⟩ => show (j 0).val = win1_2.index t (0 : Fin 2) * 1024 + 1 * (j 0).val; omega
  | ⟨1, _⟩ => show (j 1).val = win1_2.index t (1 : Fin 2) * 1000 + 1 * (j 1).val; omega

/-- An index is in the point's block iff each coordinate is in the block's range. -/
theorem mem_blk2 (t : Fin cfg1.N) (i : S1024x1000.Idx) :
    i ∈ ((cfg1.win 2).blk t).view.set ↔ ∀ a : Fin 2, win1_2.index t a * S1024x1000.size a ≤ (i a).val ∧ (i a).val < win1_2.index t a * S1024x1000.size a + S1024x1000.size a := by
  show i ∈ ((View.whole main_v2).slice (win1_2.rect t)).set ↔ _
  rw [View.set_slice_whole, Rect.mem_set_unit]
  exact Iff.rfl

/-- Every index of the result array is in the one point's block. -/
theorem covered2 (i : S1024x1000.Idx) : ∃ t : Fin cfg1.N, (cfg1.win 2).flush t = true ∧ i ∈ ((cfg1.win 2).blk t).view.set := by
  have hi0 : (i 0).val < 1024 := (i 0).isLt
  have hi1 : (i 1).val < 1000 := (i 1).isLt
  obtain ⟨-, -, -, -, e4, e5⟩ := idx_facts t1_0
  refine ⟨t1_0, flush1_2 t1_0, ?_⟩
  rw [mem_blk2]
  intro a
  match a with
  | ⟨0, _⟩ => show win1_2.index t1_0 (0 : Fin 2) * 1024 ≤ (i 0).val ∧ (i 0).val < win1_2.index t1_0 (0 : Fin 2) * 1024 + 1024; omega
  | ⟨1, _⟩ => show win1_2.index t1_0 (1 : Fin 2) * 1000 ≤ (i 1).val ∧ (i 1).val < win1_2.index t1_0 (1 : Fin 2) * 1000 + 1000; omega

/-- THE RESULT ARRAY after the region: the body's function of the features and the gathered rows. -/
theorem Res_eq (d : Dev nD) : Res m d = MM m d :=
  (mmDat m d).arrAt_eq_of_cover 2 _ (fun t _ => flushed2_eq m d t) (fun i => covered2 i)

/-! ## Reading the final memory -/

def fq (d : Dev nD) (s' : Phys nD τ sig (Elt F)) : Prop :=
  s'.mem.mem (xLoc d) = m (xLoc d) ∧ s'.mem.mem (iLoc d) = m (iLoc d) ∧ s'.mem.mem (aLoc d) = m (aLoc d) ∧ s'.mem.mem (rLoc d) = Res m d

theorem hfin (d : Dev nD) (s' : Phys nD τ sig (Elt F)) : iprop(FIN m d ∗ SI s') ⊢ (⌜fq m d s'⌝ : sProp 𝕄) := by
  iintro ⟨⟨Hx, Hi, Ha, Hr⟩, HSI⟩
  icombine HSI Hx gives %hx
  icombine HSI Hi gives %hi
  icombine HSI Ha gives %ha
  icombine HSI Hr gives %hr
  ipureintro
  exact ⟨Buf.eq_of_forall_mem_univ hx, Buf.eq_of_forall_mem_univ hi, Buf.eq_of_forall_mem_univ ha, Buf.eq_of_forall_mem_univ hr⟩

/-! ## The run -/

/-- What every final state satisfies: the result array at the body's function of the features and the gathered rows,
    the three arguments as launched. -/
def QC : PUnit × MemSt nD τ sig (Elt F) → Prop := fun r => ∀ c : Dev nD,
  r.2.mem (rLoc c) = MM m c ∧ r.2.mem (xLoc c) = m (xLoc c) ∧ r.2.mem (iLoc c) = m (iLoc c) ∧ r.2.mem (aLoc c) = m (aLoc c)

/-- The program's run, from the vector subcores' task. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => ⟨((h c).2.2.2).trans (Res_eq m c), (h c).1, (h c).2.1, (h c).2.2.1⟩)

end Cert.Proof.KB

end
-- ==== Proof.KB_Tile.lean ====
/-
  One vector subcore's task, and the launch theorem's obligation for it.

  Vector subcore s of SparseCore c has the number w = 2 s + c. Where w < 25 it copies its 40 labels (rows 40 w … 40 w + 39
  of the label list) into its own memory, gathers the 40 rows of the padded table those labels name, and copies them out
  to rows 40 w … 40 w + 39 of the gathered array; elsewhere it does nothing. Each of the three copies completes on a
  semaphore of its own and is waited for before the next starts.

  Proved here: from its labels and its rows of the gathered array outright and a read share of the padded table, the
  task ends holding the same, its rows at the gathered contents `Gat`: row n of the gathered array is the padded
  table's row named by label n. The value is an index equation: element (k, j) of the rows' scratch is the table at
  (label 40 w + k, j), and element (k, j) of the task's rows is element (40 w + k, j) of the gathered array.
-/
import proofs.«209817_g38706245271594_cont_8to1_b_1000_24_alg».proof.Proof.KB_Common

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## One vector subcore's task -/

section Tile

variable (d : Dev nD) (L : grid0.Coords)

/-- The SparseCore and the vector subcore that run the task at grid point `L`. -/
abbrev cV (L : grid0.Coords) : Fin τ.nSC := (L 0).castLE Facts₀.hcore0
abbrev jV (L : grid0.Coords) : Fin τ.nSub := (L 1).castLE Facts₀.hsub0

/-- The three semaphores the task's copies complete on: the labels' copy, the gather, the rows' copy out. -/
abbrev cA (d : Dev nD) (c : Fin τ.nSC) (i : Fin τ.nSub) : GSem nD τ sig := (V d c i, .dma cc0_scoped0.sem)
abbrev cG (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped1.sem)

omit [FloatOps F] in
/-- The subcore's own semaphores at zero are those three and the rest. -/
theorem ownSems0_V :
    (ownSems0 (V d (cV L) (jV L)) : sProp 𝕄)
      = iprop(semVal (cA d (cV L) (jV L)) 0 ∗ semVal (cG d (cV L) (jV L)) 0 ∗ semVal (cB d (cV L) (jV L)) 0
          ∗ bigSep ((((ownCells (V d (cV L) (jV L))).erase (cA d (cV L) (jV L))).erase (cG d (cV L) (jV L))).erase (cB d (cV L) (jV L)))
              fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cG]; decide, (mem_ownCells (g := cG d (cV L) (jV L))).mpr ⟨rfl, by
      show (SemLoc.dma cc0_scratch2.sem : SemLoc sig).isScoped .scVector = true; decide⟩⟩),
    SparseCore.bigSep_erase' (Finset.mem_erase.mpr ⟨by simp [cG, cB]; decide, Finset.mem_erase.mpr ⟨by simp [cA, cB]; decide,
      (mem_ownCells (g := cB d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The value: what the gather delivers is the gathered array's rows -/

omit [FloatOps F] in
/-- An element of the task's rows of the gathered array, by coordinates. -/
theorem oSl_emb_val (h : k0_cond1 L = 1#1) (y : S40x128.Idx) (a : Fin 2) :
    (((oSl L h).view.emb y) a : Nat) = k0_off2 L a + 1 * (y a : Nat) := rfl

omit [FloatOps F] in
/-- An element of the task's labels, by its coordinate. -/
theorem iSl_emb_val (h : k0_cond1 L = 1#1) (k : S40.Idx) (a : Fin 1) :
    (((iSl L h).view.emb k) a : Nat) = k0_off1 L a + 1 * (k a : Nat) := rfl

omit [FloatOps F] in
/-- Label `k` of the task is the label of the row that element `y` of its rows lies in, when `k` is `y`'s row. -/
theorem lab_idx (h : k0_cond1 L = 1#1) (y : S40x128.Idx) (k : S40.Idx) (hk : (k 0 : Nat) = (y 0 : Nat)) :
    ((iSl L h).view.emb k : S1000.Idx) = ix1 (((oSl L h).view.emb y : S1000x128.Idx) 0) := by
  funext a
  match a with
  | ⟨0, _⟩ =>
    refine Fin.ext ?_
    show (((iSl L h).view.emb k) 0 : Nat) = (((oSl L h).view.emb y) 0 : Nat)
    rw [iSl_emb_val, oSl_emb_val, k0_off1_eq, k0_off2_eq, hk]
    rfl

omit [FloatOps F] in
/-- On the rank-1 label shape the row-major position of an index is its coordinate. -/
theorem rowMajor_symm_zero (j : Fin S40.numel) : ((S40.rowMajor.symm j) 0 : Nat) = j.val := by
  have := Shape.rowMajor_val_one (S40.rowMajor.symm j)
  rw [Equiv.apply_symm_apply] at this
  exact this.symm

/-- What the gather delivers at element `y` of the rows' scratch, when the label scratch holds the task's labels `w`:
    the gathered array at `y`'s element of the task's rows. -/
theorem gathered_eq (hpre : PreOK m) (h : k0_cond1 L = 1#1) (w : S40.Idx → Elt F .i32)
    (hw : ∀ k, w k = (m (iLoc d) : IVec S1000 32) ((iSl L h).view.emb k))
    (hn : S40.numel = S40x128.size gathers_S1000x128_S40x128.axis')
    (hin : ∀ x, (w x).toNat < S1000x128.size gathers_S1000x128_S40x128.axis) (y : S40x128.Idx) :
    SparseCore.gatherPayload gathers_S1000x128_S40x128
        (View.read (Elt F) (tV.slice (Rect.unit (s := S1000x128) ![0, 0] S1000x128.size inb_S1000x128_S1000x128_0_0) (fun _ => rfl)).view (TPad m d))
        (SparseCore.rows w hn hin) y
      = (Gat m d : FVec F S1000x128 .f32) ((oSl L h).view.emb y) := by
  unfold SparseCore.gatherPayload Gat
  rw [View.read_apply]
  show (TPad m d : FVec F S1000x128 .f32) _ = (TPad m d : FVec F S1000x128 .f32) _
  refine congrArg (TPad m d : FVec F S1000x128 .f32) ?_
  funext a
  match a with
  | ⟨0, _⟩ =>
    refine Fin.ext ?_
    have hk0 := rowMajor_symm_zero ((y gathers_S1000x128_S40x128.axis').cast hn.symm)
    have hz : ((gathers_S1000x128_S40x128.idx (SparseCore.rows w hn hin) y) gathers_S1000x128_S40x128.axis : Nat)
        = (w (S40.rowMajor.symm ((y gathers_S1000x128_S40x128.axis').cast hn.symm))).toNat :=
      congrArg Fin.val (Shape.Gathers.idx_axis gathers_S1000x128_S40x128 (SparseCore.rows w hn hin) y)
    show (![0, 0] (0 : Fin 2) + 1 * ((gathers_S1000x128_S40x128.idx (SparseCore.rows w hn hin) y) gathers_S1000x128_S40x128.axis : Nat))
      = ((m (iLoc d) : IVec S1000 32) (ix1 (((oSl L h).view.emb y : S1000x128.Idx) 0))).toNat % 1000
    rw [hz, hw, lab_idx L h y _ hk0, Nat.mod_eq_of_lt (hpre d _)]
    exact (Nat.zero_add _).trans (Nat.one_mul _)
  | ⟨1, _⟩ =>
    refine Fin.ext ?_
    have hz := Shape.Gathers.idx_of_ne gathers_S1000x128_S40x128 (SparseCore.rows w hn hin) y (1 : Fin 2) (by decide)
    show (![0, 0] (1 : Fin 2) + 1 * ((gathers_S1000x128_S40x128.idx (SparseCore.rows w hn hin) y) (1 : Fin 2) : Nat))
      = (((oSl L h).view.emb y : S1000x128.Idx) 1 : Nat)
    rw [hz, oSl_emb_val, k0_off2_eq]
    simp

/-- What the task is handed and hands back, at share `q` of the padded table and contents `fo` of its rows. -/
abbrev res (q : PosShare TreeShare) (fo : Buf (Elt F) (oLoc d)) : sProp 𝕄 :=
  iprop((iLoc d ↦[iSet L]{fullShare} m (iLoc d)) ∗ (tLoc d ↦{q} TPad m d) ∗ (oLoc d ↦[oSet L]{fullShare} fo))

theorem tile_body (hF : (K (F := F)).Facts) (hpre : PreOK m) (q : PosShare TreeShare)
    (O : CellTallies nD τ sig (HIx 1)) (W : Waits sig (HIx 1)) (hO : ∀ g, O g none = 0) :
    iprop(levAts (K (F := F)).L (K (F := F)).lev ∗ emp ∗ res m d L q (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sI (Memref.isWhole_whole _) sR (Memref.isWhole_whole _) cc0_scratch2 cc0_scoped0 cc0_scoped1)
          fun _ => iprop(res m d L q (Gat m d) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_k_eq_skeleton]; unfold cc0_k_skel
  rw [SparseCore.Cfg.scopedSems0_V, (K (F := F)).scopedBufs_V hF, ownSems0_V, ownBufs_V]
  by_cases h : k0_cond1 L = 1#1
  · -- the subcore works: its labels and rows are its slices' own elements
    rw [dif_pos h]
    unfold res
    rw [iSet_pos L h, oSet_pos L h]
    iintro ⟨#Hlv, -, ⟨Hi, Ht, Ho⟩, ⟨⟨%f0, Hb0⟩, ⟨%f1, Hb1⟩, Hbr⟩, ⟨HsA, HsG, HsB, Hsr⟩, HO⟩
    ihave Hmw := ((K (F := F)).mayWaits_none (thr := V d (cV L) (jV L)) hO) $$ Hlv
    ihave Hi' := (Entails.of_eq (show (iLoc d ↦[(iSl L h).view.set]{fullShare} m (iLoc d) : sProp 𝕄)
      = ((iSl L h).view.loc (V d (cV L) (jV L)) ↦[(iSl L h).view.set]{fullShare} m (iLoc d)) from rfl)) $$ Hi
    ihave Ht' := (Entails.of_eq (show (tLoc d ↦{q} TPad m d : sProp 𝕄)
      = ((tV).view.loc (V d (cV L) (jV L)) ↦{q} TPad m d) from rfl)) $$ Ht
    ihave Ho' := (Entails.of_eq (show (oLoc d ↦[(oSl L h).view.set]{fullShare} m (oLoc d) : sProp 𝕄)
      = ((oSl L h).view.loc (V d (cV L) (jV L)) ↦[(oSl L h).view.set]{fullShare} m (oLoc d)) from rfl)) $$ Ho
    ihave Hb0' := (Entails.of_eq (show ((V d (cV L) (jV L)).loc cc0_scratch0 ↦{fullShare} f0 : sProp 𝕄)
      = ((sI).view.loc (V d (cV L) (jV L)) ↦{fullShare} f0) from rfl)) $$ Hb0
    ihave Hb1' := (Entails.of_eq (show ((V d (cV L) (jV L)).loc cc0_scratch1 ↦{fullShare} f1 : sProp 𝕄)
      = ((sR).view.loc (V d (cV L) (jV L)) ↦{fullShare} f1) from rfl)) $$ Hb1
    -- the labels' copy and its wait: the label scratch then holds the task's labels
    sl_exec
    -- every label names a row of the table
    have hin : ∀ x, ((sI).view.read (Elt F) (View.write (Elt F) sI.view f0 (tile_body.sl.dma0 m d L h) Finset.univ) x).toNat < 1000 := by
      intro x
      rw [View.read_write_univ]
      exact hpre d ((iSl L h).view.emb x)
    -- the gather and its wait, the rows' copy out and its wait
    sl_exec
    -- on the task's rows the contents are the gathered array's
    have hval : ∀ i ∈ (oSl L h).view.set, ((oSl L h).view.writes (Elt F) (m (oLoc d))
        [⟨Rect.whole S40x128, tile_body.sl.dma0_1 m d L h f0 f1 hin⟩]) i = Gat m d i := by
      intro i hi
      obtain ⟨y, -, rfl⟩ := Finset.mem_map.mp hi
      have e1 := View.read_writes_cons_emb (oSl L h).view (m (oLoc d)) (Rect.whole S40x128) (tile_body.sl.dma0_1 m d L h f0 f1 hin) [] y
      rw [Rect.emb_whole_apply] at e1
      refine Eq.trans (show _ = (oSl L h).view.read (Elt F) _ y from rfl) (e1.trans ?_)
      unfold tile_body.sl.dma0_1
      rw [ReadAs.apply_same]
      have e2 := View.read_writes_cons_emb sR.view f1 (Rect.whole S40x128) (tile_body.sl.gather0 m d L h f0 hin) [] y
      rw [Rect.emb_whole_apply] at e2
      rw [e2]
      unfold tile_body.sl.gather0
      exact gathered_eq m d L hpre h _ (fun k => by rw [View.read_write_univ]; rfl) _ _ y
    ihave Ho'' := (Entails.of_eq (pointsTo_congr hval)) $$ Ho'
    sl_step
    isplitl [Hi' Ht' Ho'']
    · isplitl [Hi']; · iexact Hi'
      isplitl [Ht']; · iexact Ht'
      iexact Ho''
    isplitl [Hb0' Hb1' Hbr]
    · isplitl [Hb0']; · iexists _; iexact Hb0'
      isplitl [Hb1']; · iexists _; iexact Hb1'
      iexact Hbr
    isplitl [HsA HsG HsB Hsr]
    · isplitl [HsA]; · iexact HsA
      isplitl [HsG]; · iexact HsG
      isplitl [HsB]; · iexact HsB
      iexact Hsr
    iexists _; isplitr
    on_goal 2 => iexact HO
    ipureintro
    intro p hp
    simp only [Finset.mem_insert] at hp
    rcases hp with rfl | rfl | rfl | hp
    · exact Or.inr rfl
    · exact Or.inr rfl
    · exact Or.inr rfl
    · exact Or.inl hp
  · -- the subcore does not work: it holds no element of the labels or of the gathered array, and the task is a return
    rw [dif_neg h]
    unfold res
    rw [iSet_neg L h, oSet_neg L h]
    iintro ⟨#Hlv, -, ⟨Hi, Ht, Ho⟩, Hsb, Hss, HO⟩
    ihave Ho' := (Entails.of_eq (pointsTo_congr (f := m (oLoc d)) (g := Gat m d)
      (fun i hi => absurd hi (Finset.notMem_empty i)))) $$ Ho
    sl_step
    isplitl [Hi Ht Ho']
    · isplitl [Hi]; · iexact Hi
      isplitl [Ht]; · iexact Ht
      iexact Ho'
    isplitl [Hsb]; · iexact Hsb
    isplitl [Hss]; · iexact Hss
    iexists W; isplitr
    · ipureintro; exact fun p hp => Or.inl hp
    · iexact HO

end Tile

/-! ## The launch theorem's obligation -/

theorem defs₀_vector (c : Fin τ.nSC) (s : Fin τ.nSub) :
    defs₀ (F := F) (.scVector c s) 0 ()
      = SparseCore.onTile Facts₀.hcore0 Facts₀.hsub0 (fun c s => cc0_k (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre (qT (Fin.cast nCore_zero c) (Fin.cast nSub_zero i)) O W hO).trans
    (wp_mono frame _ _ fun _ => obl_post)

end Cert.Proof.KB

end
-- ==== Proof.lean ====
/-
  The certificate's claim, assembled.

  Both programs compute, for sample b and label n, the inner product of feature vector b with the table row that
  label n names (Proof/Spec.lean). The kernel does it in three stages: the table is padded with zeros from 64 to 128
  columns; the SparseCores' vector subcores gather the padded rows named by the labels, 40 labels to a subcore; the
  TensorCore multiplies the features with the first 64 columns of the gathered rows, where the padding does not
  reach. The reference gathers the rows with jnp.take, multiplies them with the features broadcast against them, and
  sums over the 64 features. The precondition makes every label name a row of the table, so the kernel's indexed
  copies find their rows and the reference's wrap of negative labels and its fill of out-of-range rows are inert.

  The three frames are the three runs with the values dropped. The idealization rewrote nothing, so there is nothing
  to preserve. For the algebraic claim both runs end, from memories that agree on the arguments, with the
  specification of those arguments in their result arrays: the kernel's by the closed form of its matrix product at
  the ideal values, where a sum of products does not depend on its grouping; the reference's by its run read index by
  index.
-/
import proofs.«209817_g38706245271594_cont_8to1_b_1000_24_alg».proof.Defs
import proofs.«209817_g38706245271594_cont_8to1_b_1000_24_alg».proof.Proof.Gen.Kernel
import proofs.«209817_g38706245271594_cont_8to1_b_1000_24_alg».proof.Proof.Gen.KernelIdeal
import proofs.«209817_g38706245271594_cont_8to1_b_1000_24_alg».proof.Proof.Gen.ReferenceIdeal
import proofs.«209817_g38706245271594_cont_8to1_b_1000_24_alg».proof.Proof.Gen.Pre_input_domain
import proofs.«209817_g38706245271594_cont_8to1_b_1000_24_alg».proof.Proof.PreFacts
import proofs.«209817_g38706245271594_cont_8to1_b_1000_24_alg».proof.Proof.RefScores
import proofs.«209817_g38706245271594_cont_8to1_b_1000_24_alg».proof.Proof.IdealValue
import proofs.«209817_g38706245271594_cont_8to1_b_1000_24_alg».proof.Proof.KI_Final
import proofs.«209817_g38706245271594_cont_8to1_b_1000_24_alg».proof.Proof.KI_Tile
import proofs.«209817_g38706245271594_cont_8to1_b_1000_24_alg».proof.Proof.KB_Final
import proofs.«209817_g38706245271594_cont_8to1_b_1000_24_alg».proof.Proof.KB_Tile
import Idealize.ShloMosaic.Adequacy
import Idealize.ShloMosaic.Init

noncomputable section

namespace Cert.Proof

open Idealize.ShloMosaic Idealize.SL.Sem

/-- Under the precondition every label names a row of the table: at the word-level program's memory, -/
theorem preOK_kernel (m : (ℓ : Loc Cert.Kernel.nD Cert.Kernel.τ Cert.Kernel.sig) → Buf (Elt Bits) ℓ) (h : Cert.Pre_Kernel m) :
    Cert.Proof.KB.PreOK (F := Bits) m := fun d => Cert.PreFacts.inRange_of_pre _ _ _ (h d)
/-- and at the idealized program's. -/
theorem preOK_ideal (m : (ℓ : Loc Cert.KernelIdeal.nD Cert.KernelIdeal.τ Cert.KernelIdeal.sig) → Buf (Elt Ideal) ℓ) (h : Cert.Pre_KernelIdeal m) :
    Cert.Proof.KI.PreOK (F := Ideal) m := fun d => Cert.PreFacts.inRange_of_pre _ _ _ (h d)

theorem frame_kernel : Cert.frame_Kernel := fun m ρ hpre =>
  (θ_run Cert.Kernel.defs _ _).mono (fun _ h c => ⟨(h c).2.1, (h c).2.2.1, (h c).2.2.2⟩)
    (Cert.Proof.KB.run_main (F := Bits) m ρ (Cert.Proof.KB.tileObl m Cert.Proof.KB.facts (preOK_kernel m hpre)))

theorem frame_ideal : Cert.frame_KernelIdeal := fun m ρ hpre =>
  (θ_run Cert.KernelIdeal.defs _ _).mono (fun _ h c => ⟨(h c).2.1, (h c).2.2.1, (h c).2.2.2⟩)
    (Cert.Proof.KI.run_main (F := Ideal) m ρ (Cert.Proof.KI.tileObl m Cert.Proof.KI.facts (preOK_ideal m hpre)))

theorem frame_reference : Cert.frame_ReferenceIdeal := fun m g hpre =>
  (θ_run (Cert.ReferenceIdeal.defs (F := Ideal)) _ _).mono (fun _ h c => (h c).2) (Cert.RefRun.run_scores m g hpre)

theorem preserves : Cert.preserves_Kernel_KernelIdeal := trivial

/-- At the ideal values the kernel's result array, the matrix product of the features with the gathered padded rows, is the
    specification of the three arguments. -/
theorem kernel_value (m : (ℓ : Loc Cert.KernelIdeal.nD Cert.KernelIdeal.τ Cert.KernelIdeal.sig) → Buf (Elt Ideal) ℓ) (c : Dev Cert.KernelIdeal.nD) :
    Cert.Proof.KI.MM (F := Ideal) m c
      = Cert.Spec.scores (m (Cert.Proof.KI.xLoc c)) (m (Cert.Proof.KI.iLoc c)) (m (Cert.Proof.KI.aLoc c)) := by
  unfold Cert.Proof.KI.MM Cert.Proof.KI.Gat
  exact Cert.Proof.KI.out_eq_scores _ _ _

theorem algebraic : Cert.algebraic_KernelIdeal_ReferenceIdeal := by
  intro m g m' g' hpre hagree
  refine ⟨fun c => Cert.Spec.scores (m (Cert.Proof.KI.xLoc c)) (m (Cert.Proof.KI.iLoc c)) (m (Cert.Proof.KI.aLoc c)), ?_, ?_⟩
  · exact (θ_run Cert.KernelIdeal.defs _ _).mono
      (fun _ h c => ⟨(h c).1.trans (kernel_value m c), (h c).2.1, (h c).2.2.1, (h c).2.2.2⟩)
      (Cert.Proof.KI.run_main (F := Ideal) m g (Cert.Proof.KI.tileObl m Cert.Proof.KI.facts (preOK_ideal m hpre)))
  · have hpre' : Cert.Pre_ReferenceIdeal m' := fun c => by
      show Cert.Pre_input_domain.fn (F := Ideal) _ _ _ = _
      rw [(hagree c).1, (hagree c).2.1, (hagree c).2.2]
      exact hpre c
    exact (θ_run (Cert.ReferenceIdeal.defs (F := Ideal)) _ _).mono
      (fun _ h c => ⟨by rw [(h c).1, (hagree c).1, (hagree c).2.1, (hagree c).2.2], (h c).2⟩)
      (Cert.RefRun.run_scores m' g' hpre')

theorem claim : Cert.Claim :=
  ⟨Cert.Kernel.Gen.facts, Cert.KernelIdeal.Gen.facts, Cert.ReferenceIdeal.Gen.facts, Cert.Pre_input_domain.Gen.facts,
    frame_kernel, frame_ideal, frame_reference, preserves, algebraic⟩

end Cert.Proof

end
